-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S128x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S200x10000 : Shape := ⟨2, ![200, 10000]⟩
abbrev S400x64 : Shape := ⟨2, ![400, 64]⟩
abbrev S2x10000x128 : Shape := ⟨3, ![2, 10000, 128]⟩
abbrev S1x10000x128 : Shape := ⟨3, ![1, 10000, 128]⟩
abbrev S200x128 : Shape := ⟨2, ![200, 128]⟩
abbrev S1x200x128 : Shape := ⟨3, ![1, 200, 128]⟩
abbrev S200x64 : Shape := ⟨2, ![200, 64]⟩

abbrev nBuf : Space → Nat
  | .hbm => 16
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S1x128, .f32⟩
  | .hbm, ⟨11, _⟩ => ⟨S1x128, .f32⟩
  | .hbm, ⟨12, _⟩ => ⟨S1x64, .f32⟩
  | .hbm, ⟨13, _⟩ => ⟨S1x64, .f32⟩
  | .hbm, ⟨14, _⟩ => ⟨S10000x64, .f32⟩
  | .hbm, ⟨15, _⟩ => ⟨S10000x64, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S128x64, .f32⟩
  | .local _ .vmem, ⟨12, _⟩ => ⟨S1x64, .f32⟩
  | .local _ .vmem, ⟨13, _⟩ => ⟨S400x64, .f32⟩
  | .local _ .vmem, ⟨14, _⟩ => ⟨S400x64, .f32⟩
  | .local _ .vmem, ⟨15, _⟩ => ⟨S400x64, .f32⟩
  | .local _ .vmem, ⟨16, _⟩ => ⟨S400x64, .f32⟩
  | .local _ .vmem, ⟨17, _⟩ => ⟨S2x10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 25], ![false, false]⟩

def k0_off1 (i : grid0.Coords) : Fin 3 → Nat :=
  let arg0 : BitVec 32 := BitVec.ofNat 32 (i 0).val
  let v5 : Index := Scalar.indexCast arg0
  let c0 : Index := 0#32
  let c0_2 : Index := 0#32
  ![v5.toNat, 0, 0]
def k0_cond2 (i : grid0.Coords) : BitVec 1 :=
  let arg0 : BitVec 32 := BitVec.ofNat 32 (i 0).val
  let c0_i32_15 : BitVec 32 := 0#32
  let v26 : BitVec 1 := Scalar.cmpi .eq arg0 c0_i32_15
  let v27 : BitVec 32 := Scalar.extui v26
  let c0_i32_16 : BitVec 32 := 0#32
  let v28 : BitVec 1 := Scalar.cmpi .ne v27 c0_i32_16
  v28

def k0_off2 (i : grid0.Coords) : Fin 3 → Nat :=
  let c1 : Index := 1#32
  let arg1 : BitVec 32 := BitVec.ofNat 32 (i 1).val
  let c2_i32 : BitVec 32 := 2#32
  let v32 : BitVec 32 := Scalar.muli arg1 c2_i32
  let c200_i32 : BitVec 32 := 200#32
  let v33 : BitVec 32 := Scalar.muli v32 c200_i32
  let v36 : Index := Scalar.indexCast v33
  let c0_21 : Index := 0#32
  ![1, v36.toNat, 0]
def k0_off3 (i : grid0.Coords) : Fin 3 → Nat :=
  let c1_26 : Index := 1#32
  let arg1 : BitVec 32 := BitVec.ofNat 32 (i 1).val
  let c2_i32 : BitVec 32 := 2#32
  let v32 : BitVec 32 := Scalar.muli arg1 c2_i32
  let c200_i32 : BitVec 32 := 200#32
  let v33 : BitVec 32 := Scalar.muli v32 c200_i32
  let c200_i32_25 : BitVec 32 := 200#32
  let v42 : BitVec 32 := Scalar.addi v33 c200_i32_25
  let v43 : Index := Scalar.indexCast v42
  let c0_27 : Index := 0#32
  ![1, v43.toNat, 0]
def k0_cond3 (i : grid0.Coords) : BitVec 1 :=
  let arg0 : BitVec 32 := BitVec.ofNat 32 (i 0).val
  let c1_i32 : BitVec 32 := 1#32
  let v29 : BitVec 1 := Scalar.cmpi .eq arg0 c1_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S400x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S400x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S2x10000x128_S1x10000x128_0_0_0 : ∀ a, (![0, 0, 0] : Fin 3 → Nat) a + S1x10000x128.size a ≤ S2x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x10000_S200x10000_0_0 : ∀ a, (![0, 0] : Fin 2 → Nat) a + S200x10000.size a ≤ S200x10000.size a
  h_S200x10000 : 0 < S200x10000.numel
  broadcasts_S1x128_S200x128 : S1x128.Broadcasts S200x128
  h_S1x200x128 : 0 < S1x200x128.numel
  shapeCasts_S1x200x128_S200x128 : S1x200x128.ShapeCasts S200x128
  shapeCasts_S200x128_S1x200x128 : S200x128.ShapeCasts S1x200x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S400x64_S200x64_0_0 : ∀ a, (![0, 0] : Fin 2 → Nat) a + S200x64.size a ≤ S400x64.size a
  h_S200x64 : 0 < S200x64.numel
  inb_S400x64_S200x64_200_0 : ∀ a, (![200, 0] : Fin 2 → Nat) a + S200x64.size a ≤ S400x64.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S200x128_S128x64_S200x64_1_0_0_1_n_n_wf : DotDims.WF S200x128 S128x64 S200x64 [1] [0] [0] [1] [] []
  hrank0 : 0 < grid0.rank
  k0_off1_inb : ∀ i : grid0.Coords, ∀ a, (k0_off1 i) a + S1x10000x128.size a ≤ S2x10000x128.size a
  k0_off2_inb : ∀ i : grid0.Coords, ∀ (k0_h2 : k0_cond2 i = 1#1), ∀ a, (k0_off2 i) a + S1x200x128.size a ≤ S2x10000x128.size a
  k0_off3_inb : ∀ i : grid0.Coords, ∀ (k0_h2 : k0_cond2 i = 1#1), ∀ a, (k0_off3 i) a + S1x200x128.size a ≤ S2x10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x64.size a ≤ S10000x64.size a
  hwx0_11 : ∀ i : grid0.Coords, EltTy.bits .f32 = 32 ∨ (Rect.block (s := S10000x64) S400x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S400x64.size a ≤ S10000x64.size a
  hwx0_12 : ∀ i : grid0.Coords, EltTy.bits .f32 = 32 ∨ (Rect.block (s := S10000x64) S400x64.size (cc0_transform_12 i) (hinb0_12 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S400x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S400x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond3 i == 1#1) | 12 => fun i => !(k0_cond3 i == 1#1) | ⟨_ + 13, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x64, .f32⟩
  | .hbm, ⟨27, _⟩ => ⟨S1x64, .f32⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S1x64, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.WData.lean ====
/-
  The data of the kernel's one pipelined region, shared by its launch and by its body.

  The region reads thirteen windows. Eleven are inputs: the node features, the adjacency TWICE
  (two windows of 200 rows each over the one adjacency array, at the even and the odd block of a
  400-row tile), the four weight matrices and the four bias rows (the biases reach the region as
  1×n rows, written by four reshapes that run before it). Two are results, 400 rows per block.
  An array read through several windows is held by each at a part of its share; the adjacency's
  whole share is dealt to its two windows as the left and the right half, and every other array is
  held whole. What each window's buffer holds after the body at a point, and the invariant carried
  from point to point, are parameters here: this module fixes only what the launch and the body
  must agree on.
-/
import proofs.«144098_g9328668967786_cont_9to1c4b_67_19_alg».proof.Proof.Gen.Kernel.Launch
import proofs.«144098_g9328668967786_cont_9to1c4b_67_19_alg».proof.Proof.Gen.Kernel.Points
import Idealize.ShloMosaic.Lib.Pipeline.Regions

noncomputable section

namespace Cert.Kernel.Frame

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffers at launch, as the valuation the operations before the region start from; -/
abbrev V₀ (c : Dev nD) : Valuation τ sig (Elt F) := fun b => m ((c : Dev nD), b)
/-- and when the region is entered: the four reshapes of the bias vectors have run. -/
abbrev V (c : Dev nD) (b : Ref sig .tc) : Buf (Elt F) ((c : Thread nD τ).loc b) := StableHlo.after hostOps0 (V₀ m c) b

/-- The share each input window holds of its array: the adjacency's two windows hold the two halves of
    its whole share, every other window its array whole. -/
def qshare : Fin 13 → PosShare TreeShare := fun w =>
  if w = 1 then (fullShare : PosShare TreeShare).left else if w = 2 then (fullShare : PosShare TreeShare).right else fullShare

/-- The two halves make the whole. -/
theorem halves : (fullShare : PosShare TreeShare) ∈ PCS.op (fullShare : PosShare TreeShare).left (fullShare : PosShare TreeShare).right :=
  PosShare.mem_left_op_right _

/-- The region's proof data on a core, from what each window's buffer holds after the body at each point
    and the invariant between points: the arrays at their contents when the region is entered, the shares
    above, nothing owed to any other core. -/
def mkDat (after : (c : Dev nD) → (w : Fin cfg0.W) → Fin cfg0.N → (cfg0.win w).block.Idx → Elt F (cfg0.win w).elt)
    (Φ : (c : Dev nD) → Fin (cfg0.N + 1) → sProp 𝕄) (_ : Fin 1) (c : Dev nD) :
    Dat τ (Elt F) Unit ℕ (UR sig nD τ) ℕ cfg0 c where
  A w := V m c (Pipeline.arrRef spec0 w)
  after := after c
  Φ := Φ c
  q := qshare
  owed _ := 0

end Cert.Kernel.Frame

end
-- ==== Proof.WConds.lean ====
/-
  The body's three branch conditions over the 2×25 grid, in closed form.

  A grid point is (p, i) with p ∈ {0, 1} the phase and i ∈ {0, …, 24} the tile; in the order the
  region visits them it is point t = 25·p + i. The body seeds the first support at the one point
  (0, 0); it stores a tile of the second support at every point of phase 0; it stores the two result
  blocks at every point of phase 1. The result windows sit on block 0 through all of phase 0 and on
  block i at (1, i), so a result block is written back exactly at the points of phase 1 — each of
  which stores it whole — and at the points of phase 0 the body leaves the result buffers as it
  found them and nothing is written back.
-/
import proofs.«144098_g9328668967786_cont_9to1c4b_67_19_alg».proof.Proof.Gen.Kernel.Points

noncomputable section

namespace Cert.Kernel.Frame

open Cert.Kernel Cert.Kernel.Gen
open Idealize.ShloMosaic Idealize.SL.Sem

/-- The seeding condition, "phase 0 and tile 0", as the body computes it from the coordinates. -/
abbrev condSeed (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at the first point only. -/
theorem condSeed_iff : ∀ t : Fin cfg0.N, condSeed (grid0.coords t) ↔ t.val = 0 :=
  (by decide +kernel : ∀ t : Fin grid0.N, condSeed (grid0.coords t) ↔ t.val = 0)

/-- "Phase 0", as the body computes it. -/
abbrev condPhase0 (i : grid0.Coords) : Prop := k0_cond2 i = 1#1
/-- It holds at the first 25 points. -/
theorem condPhase0_iff : ∀ t : Fin cfg0.N, condPhase0 (grid0.coords t) ↔ t.val < 25 :=
  (by decide +kernel : ∀ t : Fin grid0.N, condPhase0 (grid0.coords t) ↔ t.val < 25)

/-- "Phase 1", as the body computes it. -/
abbrev condPhase1 (i : grid0.Coords) : Prop := k0_cond3 i = 1#1
/-- It holds at the last 25 points. -/
theorem condPhase1_iff : ∀ t : Fin cfg0.N, condPhase1 (grid0.coords t) ↔ 25 ≤ t.val :=
  (by decide +kernel : ∀ t : Fin grid0.N, condPhase1 (grid0.coords t) ↔ 25 ≤ t.val)

/-- The coordinates of point t: phase t / 25, tile t % 25. -/
theorem coords_phase : ∀ t : Fin cfg0.N, ((grid0.coords t) 0).val = t.val / 25 :=
  (by decide +kernel : ∀ t : Fin grid0.N, ((grid0.coords t) 0).val = t.val / 25)
theorem coords_tile : ∀ t : Fin cfg0.N, ((grid0.coords t) 1).val = t.val % 25 :=
  (by decide +kernel : ∀ t : Fin grid0.N, ((grid0.coords t) 1).val = t.val % 25)

/-- In phase 0 both result windows are idle and not written back; in phase 1 they are live and written back. -/
theorem idle11_phase0 : ∀ t : Fin cfg0.N, t.val < 25 → cfg0.idle 11 (grid0.coords t) = true := by decide +kernel
theorem idle12_phase0 : ∀ t : Fin cfg0.N, t.val < 25 → cfg0.idle 12 (grid0.coords t) = true := by decide +kernel
theorem noFlush11_phase0 : ∀ t : Fin cfg0.N, t.val < 25 → (cfg0.win 11).flush t = false := by decide +kernel
theorem noFlush12_phase0 : ∀ t : Fin cfg0.N, t.val < 25 → (cfg0.win 12).flush t = false := by decide +kernel
theorem live11_phase1 : ∀ t : Fin cfg0.N, 25 ≤ t.val → cfg0.idle 11 (grid0.coords t) = false := by decide +kernel
theorem live12_phase1 : ∀ t : Fin cfg0.N, 25 ≤ t.val → cfg0.idle 12 (grid0.coords t) = false := by decide +kernel
theorem flush11_phase1 : ∀ t : Fin cfg0.N, 25 ≤ t.val → (cfg0.win 11).flush t = true := by decide +kernel
theorem flush12_phase1 : ∀ t : Fin cfg0.N, 25 ≤ t.val → (cfg0.win 12).flush t = true := by decide +kernel

/-- Where the body reads and writes the scratch: the slab of the current phase, and in phase 0 the two
    200-row pieces of tile i of the second slab. -/
theorem off_slab : ∀ t : Fin cfg0.N, k0_off1 (grid0.coords t) = ![t.val / 25, 0, 0] :=
  (by decide +kernel : ∀ t : Fin grid0.N, k0_off1 (grid0.coords t) = ![t.val / 25, 0, 0])
theorem off_even : ∀ t : Fin cfg0.N, k0_off2 (grid0.coords t) = ![1, 400 * (t.val % 25), 0] :=
  (by decide +kernel : ∀ t : Fin grid0.N, k0_off2 (grid0.coords t) = ![1, 400 * (t.val % 25), 0])
theorem off_odd : ∀ t : Fin cfg0.N, k0_off3 (grid0.coords t) = ![1, 400 * (t.val % 25) + 200, 0] :=
  (by decide +kernel : ∀ t : Fin grid0.N, k0_off3 (grid0.coords t) = ![1, 400 * (t.val % 25) + 200, 0])

end Cert.Kernel.Frame

end
-- ==== Proof.WModel.lean ====
/-
  What the region's buffers hold, point by point, as functions of the arrays the region is entered with.

  An input window's buffer holds its block of its array at every point. The scratch has two slabs of
  10000 × 128. The first holds the first support S₁ = x · W₁ from the first point on. The second is
  filled 400 rows per point through phase 0: at tile i its rows 400i … 400i+199 receive H·W₂ for the
  200 rows of the first hidden layer H = max(A·S₁ + b₁, 0) that the even adjacency block gives, and rows
  400i+200 … 400i+399 the same for the odd block; after the 25 points of phase 0 it holds the second
  support S₂ whole. A result block, stored only in phase 1, holds in its two halves of 200 rows the
  head applied to max(A·S₂ + b₂, 0) on the even and the odd adjacency block of its tile.

  The scratch enters the region at contents nobody chose, so what is carried from point to point is not
  "the scratch holds X" but "on the part stored so far the scratch agrees with the function G below": the
  first slab once the first point has run, and the first 400·n rows of the second slab before point n.
  From point 25 on that part is everything.
-/
import proofs.«144098_g9328668967786_cont_9to1c4b_67_19_alg».proof.Proof.WData
import proofs.«144098_g9328668967786_cont_9to1c4b_67_19_alg».proof.Proof.WConds
import proofs.«144098_g9328668967786_cont_9to1c4b_67_19_alg».proof.Proof.Gen.Kernel.Skeleton
import Idealize.ShloMosaic.Lib.Pipeline.Frame
import Idealize.ShloMosaic.Lib.Pipeline.FrameBody
import Idealize.ShloMosaic.Lib.ValueIdx

set_option maxRecDepth 16384

noncomputable section

namespace Cert.Kernel.Frame

open Cert.Kernel Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Blocks, buffers, points -/

/-- Window w's block at point t, read off its array as the region finds it. -/
def iblk (m : (ℓ : Loc nD τ sig) → Buf (Elt F) ℓ) (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Each window's current staging buffer at point t, as the region passes it to the body, and its wholeness. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
abbrev ms11 (t : Fin cfg0.N) := win0_11.stage (cfg0.slots t 11)
abbrev hs11 (t : Fin cfg0.N) : (ms11 t).IsWhole := hstage0_11 ((cfg0.slots t 11).cast nbuf0_11)
abbrev ms12 (t : Fin cfg0.N) := win0_12.stage (cfg0.slots t 12)
abbrev hs12 (t : Fin cfg0.N) : (ms12 t).IsWhole := hstage0_12 ((cfg0.slots t 12).cast nbuf0_12)
/-- The scratch: a whole buffer of the kernel's own. -/
abbrev scM : Memref sig .tc .vmem S2x10000x128 .f32 := Memref.whole cc0_scratch0
theorem scM_whole : (scM : Memref sig .tc .vmem S2x10000x128 .f32).IsWhole := Memref.isWhole_whole _

/-- Point number j of the grid. -/
abbrev pt (j : ℕ) (h : j < 50) : Fin cfg0.N := ⟨j, lt_of_lt_of_eq h N_0.symm⟩

/-! ## The scratch, as a function of the region's arrays -/

/-- The first slab: the first support, from the node features and W₁. -/
def slab1 (m : (ℓ : Loc nD τ sig) → Buf (Elt F) ℓ) (c : Dev nD) : FVec F S1x10000x128 .f32 :=
  k0_pay1 (iblk m c 0 (pt 0 (by omega))) (iblk m c 3 (pt 0 (by omega)))

/-- The 200 rows tile j of phase 0 stores first: the even adjacency block's rows of the first hidden layer, times W₂. -/
def tileE (m : (ℓ : Loc nD τ sig) → Buf (Elt F) ℓ) (c : Dev nD) (j : ℕ) (hj : j < 25) : FVec F S1x200x128 .f32 :=
  k0_pay6 (grid0.coords (pt j (by omega))) (slab1 m c) (iblk m c 4 (pt j (by omega))) (iblk m c 6 (pt j (by omega)))
    (iblk m c 1 (pt j (by omega))) (iblk m c 5 (pt j (by omega)))
/-- The 200 rows it stores next: the same for the odd adjacency block. -/
def tileO (m : (ℓ : Loc nD τ sig) → Buf (Elt F) ℓ) (c : Dev nD) (j : ℕ) (hj : j < 25) : FVec F S1x200x128 .f32 :=
  k0_pay7 (grid0.coords (pt j (by omega))) (slab1 m c) (iblk m c 4 (pt j (by omega))) (iblk m c 6 (pt j (by omega)))
    (iblk m c 2 (pt j (by omega))) (iblk m c 5 (pt j (by omega)))

/-- Row r of the second slab belongs to tile r / 400, and within it to the even half if r % 400 < 200. -/
def slab2 (m : (ℓ : Loc nD τ sig) → Buf (Elt F) ℓ) (c : Dev nD) : FVec F S1x10000x128 .f32 := fun y =>
  have hr : (y 1).val < 10000 := (y 1).isLt
  if h : (y 1).val % 400 < 200 then
    tileE m c ((y 1).val / 400) (by omega) (ix3 (0 : Fin 1) (⟨(y 1).val % 400, h⟩ : Fin 200) (⟨(y 2).val, (y 2).isLt⟩ : Fin 128))
  else
    tileO m c ((y 1).val / 400) (by omega) (ix3 (0 : Fin 1) (⟨(y 1).val % 400 - 200, by omega⟩ : Fin 200) (⟨(y 2).val, (y 2).isLt⟩ : Fin 128))

/-- The whole scratch once both slabs are stored. -/
def scrG (m : (ℓ : Loc nD τ sig) → Buf (Elt F) ℓ) (c : Dev nD) : S2x10000x128.Idx → Elt F .f32 := fun y =>
  if (y 0).val = 0 then slab1 m c (ix3 (0 : Fin 1) (⟨(y 1).val, (y 1).isLt⟩ : Fin 10000) (⟨(y 2).val, (y 2).isLt⟩ : Fin 128))
  else slab2 m c (ix3 (0 : Fin 1) (⟨(y 1).val, (y 1).isLt⟩ : Fin 10000) (⟨(y 2).val, (y 2).isLt⟩ : Fin 128))

/-- Before point n the scratch agrees with `scrG` on what has been stored: the first slab once a point has run,
    and the first 400·n rows of the second. -/
def Inv (m : (ℓ : Loc nD τ sig) → Buf (Elt F) ℓ) (c : Dev nD) (n : ℕ)
    (fS : (scM : Memref sig .tc .vmem S2x10000x128 .f32).view.ty.Contents (Elt F)) : Prop :=
  ∀ y : S2x10000x128.Idx, (((y 0).val = 0 ∧ 1 ≤ n) ∨ ((y 0).val = 1 ∧ (y 1).val < 400 * n)) →
    (scM : Memref sig .tc .vmem S2x10000x128 .f32).view.read (Elt F) fS y = scrG m c y

/-- The invariant carried between points: the scratch at some contents that agree with `scrG` so far. -/
def Phi (m : (ℓ : Loc nD τ sig) → Buf (Elt F) ℓ) (c : Dev nD) (t : Fin (cfg0.N + 1)) : sProp 𝕄 :=
  iprop(∃ fS, ((scM : Memref sig .tc .vmem S2x10000x128 .f32).view.loc (c : Thread nD τ) ↦[(scM : Memref sig .tc .vmem S2x10000x128 .f32).view.set]{fullShare} fS) ∗ ⌜Inv m c t.val fS⌝)

/-! ## The result blocks -/

/-- A 400-row block from its two halves of 200 rows. -/
def twoHalves (a b : FVec F S200x64 .f32) : Vec F S400x64 .f32 := fun y =>
  have hr : (y 0).val < 400 := (y 0).isLt
  if h : (y 0).val < 200 then a (ix2 (⟨(y 0).val, h⟩ : Fin 200) (⟨(y 1).val, (y 1).isLt⟩ : Fin 64))
  else b (ix2 (⟨(y 0).val - 200, by omega⟩ : Fin 200) (⟨(y 1).val, (y 1).isLt⟩ : Fin 64))

/-- The μ block a point of phase 1 stores, and the log-variance block. -/
def out11 (m : (ℓ : Loc nD τ sig) → Buf (Elt F) ℓ) (c : Dev nD) (t : Fin cfg0.N) : Vec F S400x64 .f32 :=
  twoHalves
    (k0_pay8 (k0_pay4 (grid0.coords t) (slab2 m c) (iblk m c 4 t) (iblk m c 6 t) (iblk m c 1 t)) (iblk m c 7 t) (iblk m c 8 t))
    (k0_pay9 (k0_pay5 (grid0.coords t) (slab2 m c) (iblk m c 4 t) (iblk m c 6 t) (iblk m c 2 t)) (iblk m c 7 t) (iblk m c 8 t))
def out12 (m : (ℓ : Loc nD τ sig) → Buf (Elt F) ℓ) (c : Dev nD) (t : Fin cfg0.N) : Vec F S400x64 .f32 :=
  twoHalves
    (k0_pay10 (k0_pay4 (grid0.coords t) (slab2 m c) (iblk m c 4 t) (iblk m c 6 t) (iblk m c 1 t)) (iblk m c 9 t) (iblk m c 10 t))
    (k0_pay11 (k0_pay5 (grid0.coords t) (slab2 m c) (iblk m c 4 t) (iblk m c 6 t) (iblk m c 2 t)) (iblk m c 9 t) (iblk m c 10 t))

/-- What each window's buffer holds after the body at point t: an input its block; a result the block above
    (consulted only at the points of phase 1: in phase 0 the result buffers are handed back as found). -/
def aft (m : (ℓ : Loc nD τ sig) → Buf (Elt F) ℓ) (c : Dev nD) (w : Fin cfg0.W) (t : Fin cfg0.N) :
    (cfg0.win w).block.Idx → Elt F (cfg0.win w).elt :=
  match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 m c t
    | ⟨12, _⟩ => out12 m c t

/-- The region's proof data. -/
abbrev dat (m : (ℓ : Loc nD τ sig) → Buf (Elt F) ℓ) (c : Dev nD) : Dat τ (Elt F) Unit ℕ (UR sig nD τ) ℕ cfg0 c :=
  mkDat m (aft m) (Phi m) 0 c

end Cert.Kernel.Frame

end
-- ==== Proof.WEnds.lean ====
/-
  The region's proof data read window by window, and the invariant at the region's two ends.

  An input window's buffer holds its block of the array at every point, whether the block was fetched
  there or is the one fetched at an earlier point: the block index has not moved in between. Before the
  first point nothing of the scratch has been stored, so the invariant asks nothing of it; after the last
  point the invariant is dropped and the scratch is handed back at whatever it holds.
-/
import proofs.«144098_g9328668967786_cont_9to1c4b_67_19_alg».proof.Proof.WModel

set_option maxRecDepth 16384

noncomputable section

namespace Cert.Kernel.Frame

open Cert.Kernel Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data's fields -/

theorem A_eq (m : (ℓ : Loc nD τ sig) → Buf (Elt F) ℓ) (c : Dev nD) (w : Fin cfg0.W) : (dat m c).A w = V m c (Pipeline.arrRef spec0 w) := by
  dsimp only [dat, mkDat]
theorem aft0 (m : (ℓ : Loc nD τ sig) → Buf (Elt F) ℓ) (c : Dev nD) (t : Fin cfg0.N) : (dat m c).after 0 t = iblk m c 0 t := by dsimp only [dat, mkDat, aft]
theorem aft1 (m : (ℓ : Loc nD τ sig) → Buf (Elt F) ℓ) (c : Dev nD) (t : Fin cfg0.N) : (dat m c).after 1 t = iblk m c 1 t := by dsimp only [dat, mkDat, aft]
theorem aft2 (m : (ℓ : Loc nD τ sig) → Buf (Elt F) ℓ) (c : Dev nD) (t : Fin cfg0.N) : (dat m c).after 2 t = iblk m c 2 t := by dsimp only [dat, mkDat, aft]
theorem aft3 (m : (ℓ : Loc nD τ sig) → Buf (Elt F) ℓ) (c : Dev nD) (t : Fin cfg0.N) : (dat m c).after 3 t = iblk m c 3 t := by dsimp only [dat, mkDat, aft]
theorem aft4 (m : (ℓ : Loc nD τ sig) → Buf (Elt F) ℓ) (c : Dev nD) (t : Fin cfg0.N) : (dat m c).after 4 t = iblk m c 4 t := by dsimp only [dat, mkDat, aft]
theorem aft5 (m : (ℓ : Loc nD τ sig) → Buf (Elt F) ℓ) (c : Dev nD) (t : Fin cfg0.N) : (dat m c).after 5 t = iblk m c 5 t := by dsimp only [dat, mkDat, aft]
theorem aft6 (m : (ℓ : Loc nD τ sig) → Buf (Elt F) ℓ) (c : Dev nD) (t : Fin cfg0.N) : (dat m c).after 6 t = iblk m c 6 t := by dsimp only [dat, mkDat, aft]
theorem aft7 (m : (ℓ : Loc nD τ sig) → Buf (Elt F) ℓ) (c : Dev nD) (t : Fin cfg0.N) : (dat m c).after 7 t = iblk m c 7 t := by dsimp only [dat, mkDat, aft]
theorem aft8 (m : (ℓ : Loc nD τ sig) → Buf (Elt F) ℓ) (c : Dev nD) (t : Fin cfg0.N) : (dat m c).after 8 t = iblk m c 8 t := by dsimp only [dat, mkDat, aft]
theorem aft9 (m : (ℓ : Loc nD τ sig) → Buf (Elt F) ℓ) (c : Dev nD) (t : Fin cfg0.N) : (dat m c).after 9 t = iblk m c 9 t := by dsimp only [dat, mkDat, aft]
theorem aft10 (m : (ℓ : Loc nD τ sig) → Buf (Elt F) ℓ) (c : Dev nD) (t : Fin cfg0.N) : (dat m c).after 10 t = iblk m c 10 t := by dsimp only [dat, mkDat, aft]
theorem aft11 (m : (ℓ : Loc nD τ sig) → Buf (Elt F) ℓ) (c : Dev nD) (t : Fin cfg0.N) : (dat m c).after 11 t = out11 m c t := by dsimp only [dat, mkDat, aft]
theorem aft12 (m : (ℓ : Loc nD τ sig) → Buf (Elt F) ℓ) (c : Dev nD) (t : Fin cfg0.N) : (dat m c).after 12 t = out12 m c t := by dsimp only [dat, mkDat, aft]
theorem Phi_eq (m : (ℓ : Loc nD τ sig) → Buf (Elt F) ℓ) (c : Dev nD) (t : Fin (cfg0.N + 1)) : (dat m c).Φ t = Phi m c t := by dsimp only [dat, mkDat]

/-! ## Each input buffer holds its block -/

theorem before0 (m : (ℓ : Loc nD τ sig) → Buf (Elt F) ℓ) (c : Dev nD) (t : Fin cfg0.N) (d) : (dat m c).before 0 t d = iblk m c 0 t :=
  ((dat m c).before_in_eq_fetched 0 rfl (fun _ => rfl) (fun _ _ _ => rfl)
    (fun t => by rw [aft0]; unfold Dat.blockOf iblk; rw [A_eq]; try rfl) t d).trans
    (by unfold Dat.fetched Dat.blockOf iblk; rw [A_eq]; try rfl)
theorem before1 (m : (ℓ : Loc nD τ sig) → Buf (Elt F) ℓ) (c : Dev nD) (t : Fin cfg0.N) (d) : (dat m c).before 1 t d = iblk m c 1 t :=
  ((dat m c).before_in_eq_fetched 1 rfl (fun _ => rfl) (fun _ _ _ => rfl)
    (fun t => by rw [aft1]; unfold Dat.blockOf iblk; rw [A_eq]; try rfl) t d).trans
    (by unfold Dat.fetched Dat.blockOf iblk; rw [A_eq]; try rfl)
theorem before2 (m : (ℓ : Loc nD τ sig) → Buf (Elt F) ℓ) (c : Dev nD) (t : Fin cfg0.N) (d) : (dat m c).before 2 t d = iblk m c 2 t :=
  ((dat m c).before_in_eq_fetched 2 rfl (fun _ => rfl) (fun _ _ _ => rfl)
    (fun t => by rw [aft2]; unfold Dat.blockOf iblk; rw [A_eq]; try rfl) t d).trans
    (by unfold Dat.fetched Dat.blockOf iblk; rw [A_eq]; try rfl)
theorem before3 (m : (ℓ : Loc nD τ sig) → Buf (Elt F) ℓ) (c : Dev nD) (t : Fin cfg0.N) (d) : (dat m c).before 3 t d = iblk m c 3 t :=
  ((dat m c).before_in_eq_fetched 3 rfl (fun _ => rfl) (fun _ _ _ => rfl)
    (fun t => by rw [aft3]; unfold Dat.blockOf iblk; rw [A_eq]; try rfl) t d).trans
    (by unfold Dat.fetched Dat.blockOf iblk; rw [A_eq]; try rfl)
theorem before4 (m : (ℓ : Loc nD τ sig) → Buf (Elt F) ℓ) (c : Dev nD) (t : Fin cfg0.N) (d) : (dat m c).before 4 t d = iblk m c 4 t :=
  ((dat m c).before_in_eq_fetched 4 rfl (fun _ => rfl) (fun _ _ _ => rfl)
    (fun t => by rw [aft4]; unfold Dat.blockOf iblk; rw [A_eq]; try rfl) t d).trans
    (by unfold Dat.fetched Dat.blockOf iblk; rw [A_eq]; try rfl)
theorem before5 (m : (ℓ : Loc nD τ sig) → Buf (Elt F) ℓ) (c : Dev nD) (t : Fin cfg0.N) (d) : (dat m c).before 5 t d = iblk m c 5 t :=
  ((dat m c).before_in_eq_fetched 5 rfl (fun _ => rfl) (fun _ _ _ => rfl)
    (fun t => by rw [aft5]; unfold Dat.blockOf iblk; rw [A_eq]; try rfl) t d).trans
    (by unfold Dat.fetched Dat.blockOf iblk; rw [A_eq]; try rfl)
theorem before6 (m : (ℓ : Loc nD τ sig) → Buf (Elt F) ℓ) (c : Dev nD) (t : Fin cfg0.N) (d) : (dat m c).before 6 t d = iblk m c 6 t :=
  ((dat m c).before_in_eq_fetched 6 rfl (fun _ => rfl) (fun _ _ _ => rfl)
    (fun t => by rw [aft6]; unfold Dat.blockOf iblk; rw [A_eq]; try rfl) t d).trans
    (by unfold Dat.fetched Dat.blockOf iblk; rw [A_eq]; try rfl)
theorem before7 (m : (ℓ : Loc nD τ sig) → Buf (Elt F) ℓ) (c : Dev nD) (t : Fin cfg0.N) (d) : (dat m c).before 7 t d = iblk m c 7 t :=
  ((dat m c).before_in_eq_fetched 7 rfl (fun _ => rfl) (fun _ _ _ => rfl)
    (fun t => by rw [aft7]; unfold Dat.blockOf iblk; rw [A_eq]; try rfl) t d).trans
    (by unfold Dat.fetched Dat.blockOf iblk; rw [A_eq]; try rfl)
theorem before8 (m : (ℓ : Loc nD τ sig) → Buf (Elt F) ℓ) (c : Dev nD) (t : Fin cfg0.N) (d) : (dat m c).before 8 t d = iblk m c 8 t :=
  ((dat m c).before_in_eq_fetched 8 rfl (fun _ => rfl) (fun _ _ _ => rfl)
    (fun t => by rw [aft8]; unfold Dat.blockOf iblk; rw [A_eq]; try rfl) t d).trans
    (by unfold Dat.fetched Dat.blockOf iblk; rw [A_eq]; try rfl)
theorem before9 (m : (ℓ : Loc nD τ sig) → Buf (Elt F) ℓ) (c : Dev nD) (t : Fin cfg0.N) (d) : (dat m c).before 9 t d = iblk m c 9 t :=
  ((dat m c).before_in_eq_fetched 9 rfl (fun _ => rfl) (fun _ _ _ => rfl)
    (fun t => by rw [aft9]; unfold Dat.blockOf iblk; rw [A_eq]; try rfl) t d).trans
    (by unfold Dat.fetched Dat.blockOf iblk; rw [A_eq]; try rfl)
theorem before10 (m : (ℓ : Loc nD τ sig) → Buf (Elt F) ℓ) (c : Dev nD) (t : Fin cfg0.N) (d) : (dat m c).before 10 t d = iblk m c 10 t :=
  ((dat m c).before_in_eq_fetched 10 rfl (fun _ => rfl) (fun _ _ _ => rfl)
    (fun t => by rw [aft10]; unfold Dat.blockOf iblk; rw [A_eq]; try rfl) t d).trans
    (by unfold Dat.fetched Dat.blockOf iblk; rw [A_eq]; try rfl)

/-! ## The invariant at the two ends -/

/-- The scoped rest is the scratch at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) (scM : Memref sig .tc .vmem S2x10000x128 .f32) fullShare d) := by
  rw [scopedRest0_eq]; simp only [scM, owns_whole]; try rfl

/-- Before the first point the invariant asks nothing. -/
theorem hin (m : (ℓ : Loc nD τ sig) → Buf (Elt F) ℓ) (c : Dev nD) :
    (Pipeline.scopedRest (Ix := Unit) (Name := ℕ) (U := UR sig nD τ) (Lvl := ℕ) (Val := Elt F) spec0 c : sProp 𝕄) ⊢ Phi m c 0 := by
  rw [scopedRest_scratch]; unfold Phi owns
  iintro ⟨%d, %f, -, H⟩
  iexists f
  isplitl [H]; · iexact H
  ipureintro
  intro y hy
  rcases hy with ⟨_, h⟩ | ⟨_, h⟩
  · exact absurd h (by simp)
  · exact absurd h (by simp)

/-- After the last point the scratch is handed back at what it holds. -/
theorem hout (m : (ℓ : Loc nD τ sig) → Buf (Elt F) ℓ) (c : Dev nD) :
    Phi m c (Fin.last cfg0.N) ⊢ (Pipeline.scopedRest (Ix := Unit) (Name := ℕ) (U := UR sig nD τ) (Lvl := ℕ) (Val := Elt F) spec0 c : sProp 𝕄) := by
  rw [scopedRest_scratch]; unfold Phi owns
  iintro ⟨%fS, H, -⟩
  iexists _; iexists fS
  isplitr; · ipureintro; rfl
  iexact H

end Cert.Kernel.Frame

end
-- ==== Proof.WRunPhase1.lean ====
/-
  The body at a point of phase 1, run once on any staging buffers.

  At such a point the body reads the second slab of the scratch (the second support S₂, complete by
  then), forms the two 200-row halves of the second hidden layer from the two adjacency blocks, and
  stores the two halves of each result block: rows 0–199 and 200–399 of the μ block and of the
  log-variance block. It writes nothing else: the eleven input buffers and the scratch come back as
  they were, and each result buffer comes back with two pieces written over whatever it held.
-/
import proofs.«144098_g9328668967786_cont_9to1c4b_67_19_alg».proof.Proof.Gen.Kernel.Skeleton
import proofs.«144098_g9328668967786_cont_9to1c4b_67_19_alg».proof.Proof.WConds
import Idealize.ShloMosaic.Lib.Tactic
import Idealize.ShloMosaic.Lib.Pipeline.Kit
import Idealize.ShloMosaic.Lib.Pipeline.Frame

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Phase 1 (not the seeding point, not phase 0): from the input buffers and the scratch at given contents and the two
    result buffers at anything, the body runs to the inputs and the scratch as they were and each result buffer with
    its two pieces written; the pieces are what the run finds. -/
noncomputable def runPhase1 (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : ¬condSeed i) (hp0 : ¬condPhase0 i) (hp1 : condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (xs : Vec F S2x10000x128 .f32) :
    Σ' (L11 : List (View.Piece (Elt F) S400x64 .f32)), { L12 : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ (∃ d, owns (c : Thread nD τ) arg13 fullShare d) ∗ (∃ d, owns (c : Thread nD τ) arg14 fullShare d)
            ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f L12)
                ∗ owns (c : Thread nD τ) arg15 fullShare xs) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg15.eq_unread hfS
    sl_exec (disch := first | exact hseed | exact hp0 | exact hp1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    iexists _; isplitr; · ipureintro; exact harg15.read_unread _
    iexact HS

end Cert.Kernel.Frame

end
-- ==== Proof.WRunPhase0.lean ====
/-
  The body at a point of phase 0 other than the first, run once on any staging buffers.

  At such a point the body reads the first slab of the scratch (the first support S₁, stored whole at
  the first point), forms the two 200-row halves of the first hidden layer from the two adjacency
  blocks, multiplies each by W₂ and stores the two products into rows 400·i … 400·i+199 and
  400·i+200 … 400·i+399 of the scratch's second slab. The input buffers come back as they were; the two
  result buffers are not touched at all; the scratch comes back with two pieces written over what it held.
-/
import proofs.«144098_g9328668967786_cont_9to1c4b_67_19_alg».proof.Proof.Gen.Kernel.Skeleton
import proofs.«144098_g9328668967786_cont_9to1c4b_67_19_alg».proof.Proof.WConds
import Idealize.ShloMosaic.Lib.Tactic
import Idealize.ShloMosaic.Lib.Pipeline.Kit
import Idealize.ShloMosaic.Lib.Pipeline.Frame

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Phase 0, not the seeding point: the inputs and the two result buffers at given contents, the scratch at a given
    buffer; the body runs to all of those as they were, the scratch with the pieces the run finds written. -/
noncomputable def runPhase0 (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : ¬condSeed i) (hp0 : condPhase0 i) (hp1 : ¬condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (y11 y12 : Vec F S400x64 .f32) (fS : arg15.view.ty.Contents (Elt F)) :
    { LS : List (View.Piece (Elt F) S2x10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare y11 ∗ owns (c : Thread nD τ) arg14 fullShare y12
            ∗ (arg15.view.loc (c : Thread nD τ) ↦[arg15.view.set]{fullShare} fS)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
                ∗ owns (c : Thread nD τ) arg13 fullShare y11 ∗ owns (c : Thread nD τ) arg14 fullShare y12
                ∗ (arg15.view.loc (c : Thread nD τ) ↦[arg15.view.set]{fullShare} arg15.view.writes (Elt F) fS LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HS, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hseed | exact hp0 | exact hp1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexact HS

end Cert.Kernel.Frame

end
-- ==== Proof.WRunSeed.lean ====
/-
  The body at the first point of the grid, run once on any staging buffers.

  There the body first stores the whole first support S₁ = x · W₁ into the scratch's first slab, and then
  does what every point of phase 0 does with it: reads that slab back, forms the two halves of the first
  hidden layer, and stores their products with W₂ into the first 400 rows of the second slab. The scratch
  comes back with three pieces written over what it held; everything else as it was.
-/
import proofs.«144098_g9328668967786_cont_9to1c4b_67_19_alg».proof.Proof.Gen.Kernel.Skeleton
import proofs.«144098_g9328668967786_cont_9to1c4b_67_19_alg».proof.Proof.WConds
import Idealize.ShloMosaic.Lib.Tactic
import Idealize.ShloMosaic.Lib.Pipeline.Kit
import Idealize.ShloMosaic.Lib.Pipeline.Frame

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The seeding point (which is in phase 0): as the other points of phase 0, the first slab stored first. -/
noncomputable def runSeed (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : condSeed i) (hp0 : condPhase0 i) (hp1 : ¬condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (y11 y12 : Vec F S400x64 .f32) (fS : arg15.view.ty.Contents (Elt F)) :
    { LS : List (View.Piece (Elt F) S2x10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare y11 ∗ owns (c : Thread nD τ) arg14 fullShare y12
            ∗ (arg15.view.loc (c : Thread nD τ) ↦[arg15.view.set]{fullShare} fS)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
                ∗ owns (c : Thread nD τ) arg13 fullShare y11 ∗ owns (c : Thread nD τ) arg14 fullShare y12
                ∗ (arg15.view.loc (c : Thread nD τ) ↦[arg15.view.set]{fullShare} arg15.view.writes (Elt F) fS LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HS, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hseed | exact hp0 | exact hp1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexact HS

end Cert.Kernel.Frame

end
-- ==== Proof.WPieces.lean ====
/-
  What the body leaves in the buffers it writes, opened and read back.

  Each of the body's three cases leaves, in every buffer it stores to, a short list of pieces: a
  rectangle and the block stored through it, the last store first. Here the lists are written out
  with every input block named by the contents of its buffer, the slab of the scratch the body reads
  is given a name and read at an entry, and the two kinds of buffer the lists are written over are
  read back: a result block as its two halves of 200 rows, and the scratch after a step of the first
  phase as the two new row bands over whatever the other rows held.
-/
import proofs.«144098_g9328668967786_cont_9to1c4b_67_19_alg».proof.Proof.WRunPhase1
import proofs.«144098_g9328668967786_cont_9to1c4b_67_19_alg».proof.Proof.WRunPhase0
import proofs.«144098_g9328668967786_cont_9to1c4b_67_19_alg».proof.Proof.WRunSeed
import Idealize.ShloMosaic.Lib.Pipeline.Value
import Idealize.ShloMosaic.Lib.ValueIdx
import Idealize.ShloMosaic.Lib.WritesUnit

set_option maxRecDepth 16384

noncomputable section

namespace Cert.Kernel.Frame

open Cert.Kernel Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The slab of the scratch the body reads -/

/-- The page of the two-page scratch the body reads at a grid point: page 0 (the first support) in the first
    phase, page 1 (the second support) in the second. -/
def slabOf (M : Memref sig .tc .vmem S2x10000x128 .f32) (i : grid0.Coords) (f : M.view.ty.Contents (Elt F)) :
    Vec F S1x10000x128 .f32 :=
  View.readAt (Elt F) M.view (Rect.unit (s := S2x10000x128) (k0_off1 i) S1x10000x128.size (k0_off1_inb i)).toLoadRect f

/-- Entry (0, k, c) of the page read at a point whose page number is s is entry (s, k, c) of the scratch. -/
theorem slabOf_apply (M : Memref sig .tc .vmem S2x10000x128 .f32) (i : grid0.Coords) (f : M.view.ty.Contents (Elt F))
    (s : ℕ) (h : k0_off1 i = ![s, 0, 0]) (hs : s < 2) (k : Fin 10000) (c : Fin 128) :
    slabOf (F := F) M i f (ix3 (0 : Fin 1) k c) = M.view.read (Elt F) f (ix3 (⟨s, hs⟩ : Fin 2) k c) := by
  unfold slabOf
  rw [View.readAt_apply]
  refine congrArg (M.view.read (Elt F) f) (funext fun a => Fin.ext ?_)
  show (k0_off1 i) a + 1 * ((ix3 (0 : Fin 1) k c) a).val = ((ix3 (⟨s, hs⟩ : Fin 2) k c) a).val
  rw [h]
  match a with
  | ⟨0, _⟩ => show s + 1 * 0 = s; omega
  | ⟨1, _⟩ => show 0 + 1 * k.val = k.val; omega
  | ⟨2, _⟩ => show 0 + 1 * c.val = c.val; omega

/-! ## The lists of pieces each case leaves -/

/-- The zero offsets of a whole-block access, as the constant function. -/
theorem zeros2 : (![0, 0] : Fin 2 → ℕ) = fun _ => 0 := funext (Fin.forall_fin_two.mpr ⟨rfl, rfl⟩)

/-- A load of a whole buffer reads the block the buffer holds. -/
theorem load_whole {S : Shape} (M : Memref sig .tc .vmem S .f32) (hM : M.IsWhole) {off : Fin S.rank → ℕ}
    (hz : off = fun _ => 0) (inb : ∀ a, off a + S.size a ≤ S.size a) (x : Vec F S .f32) :
    View.readAt (Elt F) M.view (Rect.unit off S.size inb).toLoadRect (hM.unread x) = x := by
  rw [View.readAt_eq_ld, hM.read_unread, View.ld_unit_zero hz]

/-- In the second phase the μ buffer gets the two halves of its block: rows 200–399 from the second adjacency
    block (stored last), rows 0–199 from the first. -/
theorem runPhase1_fst (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : ¬condSeed i) (hp0 : ¬condPhase0 i) (hp1 : condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (xs : Vec F S2x10000x128 .f32) :
    (runPhase1 (F := F) c i arg2 harg2 arg3 harg3 arg4 harg4 arg5 harg5 arg6 harg6 arg7 harg7 arg8 harg8 arg9 harg9 arg10 harg10 arg11 harg11 arg12 harg12 arg13 harg13 arg14 harg14 arg15 harg15 hseed hp0 hp1 x0 x1 x2 x3 x4 x5 x6 x7 x8 x9 x10 xs).1
      = [⟨Rect.unit (s := S400x64) ![200, 0] S200x64.size inb_S400x64_S200x64_200_0,
            k0_pay9 (k0_pay5 i (slabOf arg15 i (harg15.unread xs)) x4 x6 x2) x7 x8⟩,
          ⟨Rect.unit (s := S400x64) ![0, 0] S200x64.size inb_S400x64_S200x64_0_0,
            k0_pay8 (k0_pay4 i (slabOf arg15 i (harg15.unread xs)) x4 x6 x1) x7 x8⟩] := by
  unfold runPhase1
  dsimp only
  simp only [load_whole arg3 harg3 zeros2, load_whole arg4 harg4 zeros2, load_whole arg6 harg6 zeros2,
    load_whole arg8 harg8 zeros2, load_whole arg9 harg9 zeros2, load_whole arg10 harg10 zeros2,
    load_whole arg11 harg11 zeros2, load_whole arg12 harg12 zeros2]
  rfl

/-- In the second phase the log-variance buffer gets the two halves of its block in the same way. -/
theorem runPhase1_snd (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : ¬condSeed i) (hp0 : ¬condPhase0 i) (hp1 : condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (xs : Vec F S2x10000x128 .f32) :
    (runPhase1 (F := F) c i arg2 harg2 arg3 harg3 arg4 harg4 arg5 harg5 arg6 harg6 arg7 harg7 arg8 harg8 arg9 harg9 arg10 harg10 arg11 harg11 arg12 harg12 arg13 harg13 arg14 harg14 arg15 harg15 hseed hp0 hp1 x0 x1 x2 x3 x4 x5 x6 x7 x8 x9 x10 xs).2.1
      = [⟨Rect.unit (s := S400x64) ![200, 0] S200x64.size inb_S400x64_S200x64_200_0,
            k0_pay11 (k0_pay5 i (slabOf arg15 i (harg15.unread xs)) x4 x6 x2) x9 x10⟩,
          ⟨Rect.unit (s := S400x64) ![0, 0] S200x64.size inb_S400x64_S200x64_0_0,
            k0_pay10 (k0_pay4 i (slabOf arg15 i (harg15.unread xs)) x4 x6 x1) x9 x10⟩] := by
  unfold runPhase1
  dsimp only
  simp only [load_whole arg3 harg3 zeros2, load_whole arg4 harg4 zeros2, load_whole arg6 harg6 zeros2,
    load_whole arg8 harg8 zeros2, load_whole arg9 harg9 zeros2, load_whole arg10 harg10 zeros2,
    load_whole arg11 harg11 zeros2, load_whole arg12 harg12 zeros2]
  rfl

/-- In the first phase, away from the first point, the scratch gets two row bands of the second support on its
    second page: the band from the second adjacency block (stored last) and the band from the first, each computed
    from the first page as the scratch held it. -/
theorem runPhase0_pieces (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : ¬condSeed i) (hp0 : condPhase0 i) (hp1 : ¬condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (y11 y12 : Vec F S400x64 .f32) (fS : arg15.view.ty.Contents (Elt F)) :
    (runPhase0 (F := F) c i arg2 harg2 arg3 harg3 arg4 harg4 arg5 harg5 arg6 harg6 arg7 harg7 arg8 harg8 arg9 harg9 arg10 harg10 arg11 harg11 arg12 harg12 arg13 harg13 arg14 harg14 arg15 harg15 hseed hp0 hp1 x0 x1 x2 x3 x4 x5 x6 x7 x8 x9 x10 y11 y12 fS).1
      = [⟨Rect.unit (s := S2x10000x128) (k0_off3 i) S1x200x128.size (k0_off3_inb i hp0),
            k0_pay7 i (slabOf arg15 i fS) x4 x6 x2 x5⟩,
          ⟨Rect.unit (s := S2x10000x128) (k0_off2 i) S1x200x128.size (k0_off2_inb i hp0),
            k0_pay6 i (slabOf arg15 i fS) x4 x6 x1 x5⟩] := by
  unfold runPhase0
  dsimp only
  simp only [load_whole arg3 harg3 zeros2, load_whole arg4 harg4 zeros2, load_whole arg6 harg6 zeros2,
    load_whole arg8 harg8 zeros2, load_whole arg7 harg7 zeros2]
  rfl

/-- The first support, stored whole on the first page of the scratch at the first point. -/
abbrev seedPiece (x0 : Vec F S10000x128 .f32) (x3 : Vec F S128x128 .f32) : View.Piece (Elt F) S2x10000x128 .f32 :=
  ⟨Rect.unit (s := S2x10000x128) ![0, 0, 0] S1x10000x128.size inb_S2x10000x128_S1x10000x128_0_0_0, k0_pay1 x0 x3⟩

/-- At the first point the scratch first gets the first support on its first page, then the two row bands of the
    second support, each computed from the first page as that first store left it. -/
theorem runSeed_pieces (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : condSeed i) (hp0 : condPhase0 i) (hp1 : ¬condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (y11 y12 : Vec F S400x64 .f32) (fS : arg15.view.ty.Contents (Elt F)) :
    (runSeed (F := F) c i arg2 harg2 arg3 harg3 arg4 harg4 arg5 harg5 arg6 harg6 arg7 harg7 arg8 harg8 arg9 harg9 arg10 harg10 arg11 harg11 arg12 harg12 arg13 harg13 arg14 harg14 arg15 harg15 hseed hp0 hp1 x0 x1 x2 x3 x4 x5 x6 x7 x8 x9 x10 y11 y12 fS).1
      = [⟨Rect.unit (s := S2x10000x128) (k0_off3 i) S1x200x128.size (k0_off3_inb i hp0),
            k0_pay7 i (slabOf arg15 i (arg15.view.writes (Elt F) fS [seedPiece x0 x3])) x4 x6 x2 x5⟩,
          ⟨Rect.unit (s := S2x10000x128) (k0_off2 i) S1x200x128.size (k0_off2_inb i hp0),
            k0_pay6 i (slabOf arg15 i (arg15.view.writes (Elt F) fS [seedPiece x0 x3])) x4 x6 x1 x5⟩,
          seedPiece x0 x3] := by
  unfold runSeed
  dsimp only
  sl_unfold_run_names
  simp only [load_whole arg2 harg2 zeros2, load_whole arg5 harg5 zeros2, load_whole arg3 harg3 zeros2,
    load_whole arg4 harg4 zeros2, load_whole arg6 harg6 zeros2, load_whole arg8 harg8 zeros2,
    load_whole arg7 harg7 zeros2]
  rfl

/-! ## A result block read back -/

/-- Two blocks of 200 rows, one above the other. -/
def stackedHalves (a b : FVec F S200x64 .f32) : Vec F S400x64 .f32 := fun y =>
  if h : (y 0).val < 200 then a (ix2 (⟨(y 0).val, h⟩ : Fin 200) (⟨(y 1).val, (y 1).isLt⟩ : Fin 64))
  else b (ix2 (⟨(y 0).val - 200, by have h400 : (y 0).val < 400 := (y 0).isLt; omega⟩ : Fin 200)
    (⟨(y 1).val, (y 1).isLt⟩ : Fin 64))

/-- A 400-row buffer into which rows 0–199 and then rows 200–399 were stored reads as the two blocks, one above
    the other, whatever it held before. -/
theorem read_halves (M : Memref sig .tc .vmem S400x64 .f32) (f : M.view.ty.Contents (Elt F))
    (a b : FVec F S200x64 .f32) :
    M.view.read (Elt F) (M.view.writes (Elt F) f
        [⟨Rect.unit (s := S400x64) ![200, 0] S200x64.size inb_S400x64_S200x64_200_0, b⟩,
          ⟨Rect.unit (s := S400x64) ![0, 0] S200x64.size inb_S400x64_S200x64_0_0, a⟩])
      = stackedHalves a b := by
  funext y
  have h400 : (y 0).val < 400 := (y 0).isLt
  by_cases h : (y 0).val < 200
  · refine (View.read_writes_cons_unit_of_not_mem M.view f inb_S400x64_S200x64_200_0 b _ y rfl 0 (Or.inl h)).trans ?_
    refine (View.read_writes_cons_unit_of_mem M.view f inb_S400x64_S200x64_0_0 a [] y
      (ix2 (⟨(y 0).val, h⟩ : Fin 200) (⟨(y 1).val, (y 1).isLt⟩ : Fin 64)) rfl (fun ax => by
        match ax with
        | ⟨0, _⟩ => show (y 0).val = 0 + (y 0).val; omega
        | ⟨1, _⟩ => show (y 1).val = 0 + (y 1).val; omega)).trans ?_
    unfold stackedHalves
    rw [dif_pos h]
  · refine (View.read_writes_cons_unit_of_mem M.view f inb_S400x64_S200x64_200_0 b _ y
      (ix2 (⟨(y 0).val - 200, by omega⟩ : Fin 200) (⟨(y 1).val, (y 1).isLt⟩ : Fin 64)) rfl (fun ax => by
        match ax with
        | ⟨0, _⟩ => show (y 0).val = 200 + ((y 0).val - 200); omega
        | ⟨1, _⟩ => show (y 1).val = 0 + (y 1).val; omega)).trans ?_
    unfold stackedHalves
    rw [dif_neg h]

/-! ## The scratch after a step of the first phase

  At tile j the body stores two bands of 200 rows on the second page: rows 400 j … 400 j + 199 (from the first
  adjacency block) and rows 400 j + 200 … 400 j + 399 (from the second, stored last). The statements allow
  earlier stores T under the two bands: none away from the first point, the first support's page at the first. -/

/-- The first band reads the block stored from the first adjacency block. -/
theorem band_even (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (T : List (View.Piece (Elt F) S2x10000x128 .f32)) (p : Fin 200) (c : Fin 128) (hr : 400 * j + p.val < 10000) :
    M.view.read (Elt F) (M.view.writes (Elt F) fS (⟨Rect.unit (s := S2x10000x128) (k0_off3 i) S1x200x128.size (k0_off3_inb i hp0), b⟩ :: ⟨Rect.unit (s := S2x10000x128) (k0_off2 i) S1x200x128.size (k0_off2_inb i hp0), a⟩ :: T))
        (ix3 (1 : Fin 2) (⟨400 * j + p.val, hr⟩ : Fin 10000) c)
      = a (ix3 (0 : Fin 1) p c) := by
  refine (View.read_writes_cons_unit_of_not_mem M.view fS (k0_off3_inb i hp0) b _ _ ho 1 (Or.inl ?_)).trans ?_
  · show 400 * j + p.val < 400 * j + 200
    have := p.isLt; omega
  · exact View.read_writes_cons_unit_of_mem M.view fS (k0_off2_inb i hp0) a T _ (ix3 (0 : Fin 1) p c) he
      (fun ax => by
      match ax with
      | ⟨0, _⟩ => rfl
      | ⟨1, _⟩ => rfl
      | ⟨2, _⟩ => show c.val = 0 + c.val; omega)

/-- The second band reads the block stored from the second adjacency block. -/
theorem band_odd (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (T : List (View.Piece (Elt F) S2x10000x128 .f32)) (p : Fin 200) (c : Fin 128) (hr : 400 * j + 200 + p.val < 10000) :
    M.view.read (Elt F) (M.view.writes (Elt F) fS (⟨Rect.unit (s := S2x10000x128) (k0_off3 i) S1x200x128.size (k0_off3_inb i hp0), b⟩ :: ⟨Rect.unit (s := S2x10000x128) (k0_off2 i) S1x200x128.size (k0_off2_inb i hp0), a⟩ :: T))
        (ix3 (1 : Fin 2) (⟨400 * j + 200 + p.val, hr⟩ : Fin 10000) c)
      = b (ix3 (0 : Fin 1) p c) :=
  View.read_writes_cons_unit_of_mem M.view fS (k0_off3_inb i hp0) b _ _ (ix3 (0 : Fin 1) p c) ho
    (fun ax => by
      match ax with
      | ⟨0, _⟩ => rfl
      | ⟨1, _⟩ => rfl
      | ⟨2, _⟩ => show c.val = 0 + c.val; omega)

/-- Every entry outside the two bands reads what the earlier stores left. -/
theorem band_rest (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (T : List (View.Piece (Elt F) S2x10000x128 .f32))
    (y : S2x10000x128.Idx) (hy : ¬((y 0).val = 1 ∧ 400 * j ≤ (y 1).val ∧ (y 1).val < 400 * j + 400)) :
    M.view.read (Elt F) (M.view.writes (Elt F) fS (⟨Rect.unit (s := S2x10000x128) (k0_off3 i) S1x200x128.size (k0_off3_inb i hp0), b⟩ :: ⟨Rect.unit (s := S2x10000x128) (k0_off2 i) S1x200x128.size (k0_off2_inb i hp0), a⟩ :: T)) y
      = M.view.read (Elt F) (M.view.writes (Elt F) fS T) y := by
  have h2 : (y 0).val < 2 := (y 0).isLt
  by_cases h0 : (y 0).val = 1
  · have h1 : (y 1).val < 400 * j ∨ 400 * j + 400 ≤ (y 1).val := by omega
    refine (View.read_writes_cons_unit_of_not_mem M.view fS (k0_off3_inb i hp0) b _ y ho 1 ?_).trans ?_
    · show (y 1).val < 400 * j + 200 ∨ 400 * j + 200 + 200 ≤ (y 1).val
      omega
    refine View.read_writes_cons_unit_of_not_mem M.view fS (k0_off2_inb i hp0) a T y he 1 ?_
    show (y 1).val < 400 * j ∨ 400 * j + 200 ≤ (y 1).val
    omega
  · refine (View.read_writes_cons_unit_of_not_mem M.view fS (k0_off3_inb i hp0) b _ y ho 0 (Or.inl ?_)).trans ?_
    · show (y 0).val < 1
      omega
    refine View.read_writes_cons_unit_of_not_mem M.view fS (k0_off2_inb i hp0) a T y he 0 (Or.inl ?_)
    show (y 0).val < 1
    omega

/-- Away from the first point: the first band. -/
theorem step_even (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (p : Fin 200) (c : Fin 128) (hr : 400 * j + p.val < 10000) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩])
        (ix3 (1 : Fin 2) (⟨400 * j + p.val, hr⟩ : Fin 10000) c)
      = a (ix3 (0 : Fin 1) p c) :=
  band_even M fS i hp0 j he ho a b [] p c hr

/-- Away from the first point: the second band. -/
theorem step_odd (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (p : Fin 200) (c : Fin 128) (hr : 400 * j + 200 + p.val < 10000) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩])
        (ix3 (1 : Fin 2) (⟨400 * j + 200 + p.val, hr⟩ : Fin 10000) c)
      = b (ix3 (0 : Fin 1) p c) :=
  band_odd M fS i hp0 j he ho a b [] p c hr

/-- Away from the first point: every entry outside the two bands keeps what the scratch held. -/
theorem step_rest (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (y : S2x10000x128.Idx) (hy : ¬((y 0).val = 1 ∧ 400 * j ≤ (y 1).val ∧ (y 1).val < 400 * j + 400)) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩]) y
      = M.view.read (Elt F) fS y :=
  band_rest M fS i hp0 j he ho a b [] y hy

/-- At the first point: the first page reads the block stored on it first. -/
theorem seed_slab (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (w : FVec F S1x10000x128 .f32) (k : Fin 10000) (c : Fin 128) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩, ⟨Rect.unit (s := S2x10000x128) ![0, 0, 0] S1x10000x128.size inb_S2x10000x128_S1x10000x128_0_0_0, w⟩])
        (ix3 (0 : Fin 2) k c)
      = w (ix3 (0 : Fin 1) k c) := by
  refine (band_rest M fS i hp0 j he ho a b [⟨Rect.unit (s := S2x10000x128) ![0, 0, 0] S1x10000x128.size inb_S2x10000x128_S1x10000x128_0_0_0, w⟩] (ix3 (0 : Fin 2) k c) (fun h => Nat.zero_ne_one h.1)).trans ?_
  exact View.read_writes_cons_unit_of_mem M.view fS inb_S2x10000x128_S1x10000x128_0_0_0 w [] _ (ix3 (0 : Fin 1) k c) rfl
    (fun ax => by
      match ax with
      | ⟨0, _⟩ => rfl
      | ⟨1, _⟩ => show k.val = 0 + k.val; omega
      | ⟨2, _⟩ => show c.val = 0 + c.val; omega)

/-- At the first point: the first band. -/
theorem seed_even (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (w : FVec F S1x10000x128 .f32) (p : Fin 200) (c : Fin 128) (hr : 400 * j + p.val < 10000) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩, ⟨Rect.unit (s := S2x10000x128) ![0, 0, 0] S1x10000x128.size inb_S2x10000x128_S1x10000x128_0_0_0, w⟩])
        (ix3 (1 : Fin 2) (⟨400 * j + p.val, hr⟩ : Fin 10000) c)
      = a (ix3 (0 : Fin 1) p c) :=
  band_even M fS i hp0 j he ho a b [⟨Rect.unit (s := S2x10000x128) ![0, 0, 0] S1x10000x128.size inb_S2x10000x128_S1x10000x128_0_0_0, w⟩] p c hr

/-- At the first point: the second band. -/
theorem seed_odd (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (w : FVec F S1x10000x128 .f32) (p : Fin 200) (c : Fin 128) (hr : 400 * j + 200 + p.val < 10000) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩, ⟨Rect.unit (s := S2x10000x128) ![0, 0, 0] S1x10000x128.size inb_S2x10000x128_S1x10000x128_0_0_0, w⟩])
        (ix3 (1 : Fin 2) (⟨400 * j + 200 + p.val, hr⟩ : Fin 10000) c)
      = b (ix3 (0 : Fin 1) p c) :=
  band_odd M fS i hp0 j he ho a b [⟨Rect.unit (s := S2x10000x128) ![0, 0, 0] S1x10000x128.size inb_S2x10000x128_S1x10000x128_0_0_0, w⟩] p c hr

/-- At the first point: the rest of the second page keeps what the scratch held. -/
theorem seed_rest (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (w : FVec F S1x10000x128 .f32) (y : S2x10000x128.Idx) (h0 : (y 0).val = 1)
    (h1 : (y 1).val < 400 * j ∨ 400 * j + 400 ≤ (y 1).val) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩, ⟨Rect.unit (s := S2x10000x128) ![0, 0, 0] S1x10000x128.size inb_S2x10000x128_S1x10000x128_0_0_0, w⟩]) y
      = M.view.read (Elt F) fS y := by
  refine (band_rest M fS i hp0 j he ho a b [⟨Rect.unit (s := S2x10000x128) ![0, 0, 0] S1x10000x128.size inb_S2x10000x128_S1x10000x128_0_0_0, w⟩] y (fun h => by omega)).trans ?_
  refine View.read_writes_cons_unit_of_not_mem M.view fS inb_S2x10000x128_S1x10000x128_0_0_0 w [] y rfl 0 (Or.inr ?_)
  show 0 + 1 ≤ (y 0).val
  omega

end Cert.Kernel.Frame

end
-- ==== Proof.WInv.lean ====
/-
  How the invariant moves through a point, and what a point of phase 1 leaves in the result buffers.

  At the first point the body stores the whole first slab and the first tile of the second, so afterwards
  the scratch agrees with G on the first slab and on rows 0 … 399 of the second, whatever it held before.
  At a later point of phase 0 the body reads the first slab, which by the invariant is the first support,
  so the two pieces it stores are tile i of G; nothing else changes, and the agreement grows by 400 rows.
  From point 25 on the agreement is total; the body of phase 1 reads the second slab — the second
  support — and does not write the scratch, and the two halves it stores into each result buffer are the
  result block of the model.
-/
import proofs.«144098_g9328668967786_cont_9to1c4b_67_19_alg».proof.Proof.WModel
import proofs.«144098_g9328668967786_cont_9to1c4b_67_19_alg».proof.Proof.WRunPhase1
import proofs.«144098_g9328668967786_cont_9to1c4b_67_19_alg».proof.Proof.WRunPhase0
import proofs.«144098_g9328668967786_cont_9to1c4b_67_19_alg».proof.Proof.WRunSeed
import proofs.«144098_g9328668967786_cont_9to1c4b_67_19_alg».proof.Proof.WPieces

set_option maxRecDepth 16384

noncomputable section

namespace Cert.Kernel.Frame

open Cert.Kernel Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The model of the scratch, at an entry given by its coordinates -/

/-- On the first page the model is the first support. -/
theorem scrG_page0 (m : (ℓ : Loc nD τ sig) → Buf (Elt F) ℓ) (c : Dev nD) (k : Fin 10000) (c' : Fin 128) :
    scrG m c (ix3 (0 : Fin 2) k c') = slab1 m c (ix3 (0 : Fin 1) k c') := by
  unfold scrG
  exact if_pos rfl

/-- On the second page it is the second support. -/
theorem scrG_page1 (m : (ℓ : Loc nD τ sig) → Buf (Elt F) ℓ) (c : Dev nD) (k : Fin 10000) (c' : Fin 128) :
    scrG m c (ix3 (1 : Fin 2) k c') = slab2 m c (ix3 (0 : Fin 1) k c') := by
  unfold scrG
  exact if_neg Nat.one_ne_zero

/-- The tile of a row, and the row within it: the same tile and the same entry, however the two are written. -/
theorem tileE_congr (m : (ℓ : Loc nD τ sig) → Buf (Elt F) ℓ) (c : Dev nD) {j j' : ℕ} (e : j = j') (hj : j < 25) (hj' : j' < 25)
    {x x' : S1x200x128.Idx} (ex : x = x') : tileE m c j hj x = tileE m c j' hj' x' := by
  subst e; subst ex; rfl
theorem tileO_congr (m : (ℓ : Loc nD τ sig) → Buf (Elt F) ℓ) (c : Dev nD) {j j' : ℕ} (e : j = j') (hj : j < 25) (hj' : j' < 25)
    {x x' : S1x200x128.Idx} (ex : x = x') : tileO m c j hj x = tileO m c j' hj' x' := by
  subst e; subst ex; rfl

/-- Row 400 j + p of the second support, p < 200, is row p of the first band of tile j. -/
theorem slab2_even (m : (ℓ : Loc nD τ sig) → Buf (Elt F) ℓ) (c : Dev nD) (j : ℕ) (hj : j < 25) (p : Fin 200) (c' : Fin 128) (hr : 400 * j + p.val < 10000) :
    slab2 m c (ix3 (0 : Fin 1) (⟨400 * j + p.val, hr⟩ : Fin 10000) c') = tileE m c j hj (ix3 (0 : Fin 1) p c') := by
  have hp := p.isLt
  have hmod : (400 * j + p.val) % 400 < 200 := by omega
  unfold slab2
  refine (dif_pos hmod).trans ?_
  refine tileE_congr m c (by show (400 * j + p.val) / 400 = j; omega) _ hj (funext fun a => ?_)
  match a with
  | ⟨0, _⟩ => rfl
  | ⟨1, _⟩ => exact Fin.ext (by show (400 * j + p.val) % 400 = p.val; omega)
  | ⟨2, _⟩ => rfl

/-- Row 400 j + 200 + p, p < 200, is row p of the second band of tile j. -/
theorem slab2_odd (m : (ℓ : Loc nD τ sig) → Buf (Elt F) ℓ) (c : Dev nD) (j : ℕ) (hj : j < 25) (p : Fin 200) (c' : Fin 128) (hr : 400 * j + 200 + p.val < 10000) :
    slab2 m c (ix3 (0 : Fin 1) (⟨400 * j + 200 + p.val, hr⟩ : Fin 10000) c') = tileO m c j hj (ix3 (0 : Fin 1) p c') := by
  have hp := p.isLt
  have hmod : ¬((400 * j + 200 + p.val) % 400 < 200) := by omega
  unfold slab2
  refine (dif_neg hmod).trans ?_
  refine tileO_congr m c (by show (400 * j + 200 + p.val) / 400 = j; omega) _ hj (funext fun a => ?_)
  match a with
  | ⟨0, _⟩ => rfl
  | ⟨1, _⟩ => exact Fin.ext (by show (400 * j + 200 + p.val) % 400 - 200 = p.val; omega)
  | ⟨2, _⟩ => rfl

/-- The bands of tile t are what the body computes at point t from the first support. -/
theorem tileE_at (m : (ℓ : Loc nD τ sig) → Buf (Elt F) ℓ) (c : Dev nD) (t : Fin cfg0.N) (h25 : t.val < 25) :
    tileE m c t.val h25 = k0_pay6 (grid0.coords t) (slab1 m c) (iblk m c 4 t) (iblk m c 6 t) (iblk m c 1 t) (iblk m c 5 t) := by
  unfold tileE; rfl
theorem tileO_at (m : (ℓ : Loc nD τ sig) → Buf (Elt F) ℓ) (c : Dev nD) (t : Fin cfg0.N) (h25 : t.val < 25) :
    tileO m c t.val h25 = k0_pay7 (grid0.coords t) (slab1 m c) (iblk m c 4 t) (iblk m c 6 t) (iblk m c 2 t) (iblk m c 5 t) := by
  unfold tileO; rfl

/-- An entry of the second page in the rows of tile j lies in its first band or in its second. -/
theorem tile_cases (y : S2x10000x128.Idx) (j : ℕ) (h0 : (y 0).val = 1) (hlo : 400 * j ≤ (y 1).val)
    (hhi : (y 1).val < 400 * j + 400) :
    (∃ (p : Fin 200) (c' : Fin 128) (hr : 400 * j + p.val < 10000), y = ix3 (1 : Fin 2) (⟨400 * j + p.val, hr⟩ : Fin 10000) c')
      ∨ (∃ (p : Fin 200) (c' : Fin 128) (hr : 400 * j + 200 + p.val < 10000),
          y = ix3 (1 : Fin 2) (⟨400 * j + 200 + p.val, hr⟩ : Fin 10000) c') := by
  have h1 : (y 1).val < 10000 := (y 1).isLt
  by_cases hb : (y 1).val < 400 * j + 200
  · refine Or.inl ⟨⟨(y 1).val - 400 * j, by omega⟩, ⟨(y 2).val, (y 2).isLt⟩, by show 400 * j + ((y 1).val - 400 * j) < 10000; omega, ?_⟩
    funext a
    match a with
    | ⟨0, _⟩ => exact Fin.ext h0
    | ⟨1, _⟩ => exact Fin.ext (by show (y 1).val = 400 * j + ((y 1).val - 400 * j); omega)
    | ⟨2, _⟩ => rfl
  · refine Or.inr ⟨⟨(y 1).val - 400 * j - 200, by omega⟩, ⟨(y 2).val, (y 2).isLt⟩, by show 400 * j + 200 + ((y 1).val - 400 * j - 200) < 10000; omega, ?_⟩
    funext a
    match a with
    | ⟨0, _⟩ => exact Fin.ext h0
    | ⟨1, _⟩ => exact Fin.ext (by show (y 1).val = 400 * j + 200 + ((y 1).val - 400 * j - 200); omega)
    | ⟨2, _⟩ => rfl

/-- The agreement grows by tile t: contents that read the two bands of tile t on its rows and agree with the
    model on what was stored before agree with it on what is stored after. -/
theorem inv_tile (m : (ℓ : Loc nD τ sig) → Buf (Elt F) ℓ) (c : Dev nD) (t : Fin cfg0.N) (h25 : t.val < 25) (g : S2x10000x128.Idx → Elt F .f32)
    (hE : ∀ (p : Fin 200) (c' : Fin 128) (hr : 400 * t.val + p.val < 10000),
      g (ix3 (1 : Fin 2) (⟨400 * t.val + p.val, hr⟩ : Fin 10000) c') = tileE m c t.val h25 (ix3 (0 : Fin 1) p c'))
    (hO : ∀ (p : Fin 200) (c' : Fin 128) (hr : 400 * t.val + 200 + p.val < 10000),
      g (ix3 (1 : Fin 2) (⟨400 * t.val + 200 + p.val, hr⟩ : Fin 10000) c') = tileO m c t.val h25 (ix3 (0 : Fin 1) p c'))
    (hR : ∀ y : S2x10000x128.Idx, ((y 0).val = 0 ∨ ((y 0).val = 1 ∧ (y 1).val < 400 * t.val)) → g y = scrG m c y)
    (y : S2x10000x128.Idx)
    (hy : ((y 0).val = 0 ∧ 1 ≤ t.val + 1) ∨ ((y 0).val = 1 ∧ (y 1).val < 400 * (t.val + 1))) : g y = scrG m c y := by
  rcases hy with ⟨h0, _⟩ | ⟨h0, h1⟩
  · exact hR y (Or.inl h0)
  · by_cases hb : (y 1).val < 400 * t.val
    · exact hR y (Or.inr ⟨h0, hb⟩)
    · rcases tile_cases y t.val h0 (by omega) (by omega) with ⟨p, c', hr, rfl⟩ | ⟨p, c', hr, rfl⟩
      · rw [hE p c' hr, scrG_page1, slab2_even m c t.val h25 p c' hr]
      · rw [hO p c' hr, scrG_page1, slab2_odd m c t.val h25 p c' hr]

/-! ## The page the body reads, identified -/

/-- The grid has fifty points. -/
theorem lt_fifty (t : Fin cfg0.N) : t.val < 50 := lt_of_lt_of_eq t.isLt N_0

/-- In the second phase the page read is the second support. -/
theorem slab_phase1 (m : (ℓ : Loc nD τ sig) → Buf (Elt F) ℓ) (c : Dev nD) (t : Fin cfg0.N) (ht : 25 ≤ t.val)
    (fS : (scM : Memref sig .tc .vmem S2x10000x128 .f32).view.ty.Contents (Elt F)) (hI : Inv m c t.val fS) :
    slabOf (F := F) scM (grid0.coords t) (scM_whole.unread ((scM : Memref sig .tc .vmem S2x10000x128 .f32).view.read (Elt F) fS)) = slab2 m c := by
  have h50 := lt_fifty t
  funext y
  obtain ⟨u, k, c', rfl⟩ : ∃ (u : Fin 1) (k : Fin 10000) (c' : Fin 128), y = ix3 u k c' := ⟨y 0, y 1, y 2, eq_ix3 y⟩
  obtain rfl : u = 0 := Subsingleton.elim _ _
  have hs : t.val / 25 < 2 := by omega
  have e : (ix3 (⟨t.val / 25, hs⟩ : Fin 2) k c' : S2x10000x128.Idx) = ix3 (1 : Fin 2) k c' := by
    have h1 : t.val / 25 = 1 := by omega
    funext a
    match a with
    | ⟨0, _⟩ => exact Fin.ext h1
    | ⟨1, _⟩ => rfl
    | ⟨2, _⟩ => rfl
  rw [slabOf_apply scM (grid0.coords t) _ (t.val / 25) (off_slab t) hs k c', scM_whole.read_unread, e,
    hI _ (Or.inr ⟨rfl, by show k.val < 400 * t.val; have := k.isLt; omega⟩), scrG_page1]

/-- In the first phase, after the first point, the page read is the first support. -/
theorem slab_phase0 (m : (ℓ : Loc nD τ sig) → Buf (Elt F) ℓ) (c : Dev nD) (t : Fin cfg0.N) (h1 : 1 ≤ t.val) (h25 : t.val < 25)
    (fS : (scM : Memref sig .tc .vmem S2x10000x128 .f32).view.ty.Contents (Elt F)) (hI : Inv m c t.val fS) :
    slabOf (F := F) scM (grid0.coords t) fS = slab1 m c := by
  funext y
  obtain ⟨u, k, c', rfl⟩ : ∃ (u : Fin 1) (k : Fin 10000) (c' : Fin 128), y = ix3 u k c' := ⟨y 0, y 1, y 2, eq_ix3 y⟩
  obtain rfl : u = 0 := Subsingleton.elim _ _
  have hs : t.val / 25 < 2 := by omega
  have e : (ix3 (⟨t.val / 25, hs⟩ : Fin 2) k c' : S2x10000x128.Idx) = ix3 (0 : Fin 2) k c' := by
    have h0 : t.val / 25 = 0 := by omega
    funext a
    match a with
    | ⟨0, _⟩ => exact Fin.ext h0
    | ⟨1, _⟩ => rfl
    | ⟨2, _⟩ => rfl
  rw [slabOf_apply scM (grid0.coords t) _ (t.val / 25) (off_slab t) hs k c', e,
    hI _ (Or.inl ⟨rfl, h1⟩), scrG_page0]

/-- The first support is what the first point computes from its blocks. -/
theorem slab1_at (m : (ℓ : Loc nD τ sig) → Buf (Elt F) ℓ) (c : Dev nD) (t : Fin cfg0.N) (h0 : t.val = 0) :
    k0_pay1 (iblk m c 0 t) (iblk m c 3 t) = slab1 m c := by
  obtain rfl : t = pt 0 (by decide) := Fin.ext h0
  rfl

/-- At the first point the page read, after the store just made, is the first support. -/
theorem slab_seed (m : (ℓ : Loc nD τ sig) → Buf (Elt F) ℓ) (c : Dev nD) (t : Fin cfg0.N) (h0 : t.val = 0)
    (fS : (scM : Memref sig .tc .vmem S2x10000x128 .f32).view.ty.Contents (Elt F)) :
    slabOf (F := F) scM (grid0.coords t)
        ((scM : Memref sig .tc .vmem S2x10000x128 .f32).view.writes (Elt F) fS [seedPiece (iblk m c 0 t) (iblk m c 3 t)])
      = slab1 m c := by
  funext y
  obtain ⟨u, k, c', rfl⟩ : ∃ (u : Fin 1) (k : Fin 10000) (c' : Fin 128), y = ix3 u k c' := ⟨y 0, y 1, y 2, eq_ix3 y⟩
  obtain rfl : u = 0 := Subsingleton.elim _ _
  have hs : t.val / 25 < 2 := by omega
  have e : (ix3 (⟨t.val / 25, hs⟩ : Fin 2) k c' : S2x10000x128.Idx) = ix3 (0 : Fin 2) k c' := by
    have h0' : t.val / 25 = 0 := by omega
    funext a
    match a with
    | ⟨0, _⟩ => exact Fin.ext h0'
    | ⟨1, _⟩ => rfl
    | ⟨2, _⟩ => rfl
  rw [slabOf_apply scM (grid0.coords t) _ (t.val / 25) (off_slab t) hs k c', e, ← slab1_at m c t h0]
  exact View.read_writes_cons_unit_of_mem (scM : Memref sig .tc .vmem S2x10000x128 .f32).view fS inb_S2x10000x128_S1x10000x128_0_0_0
    (k0_pay1 (iblk m c 0 t) (iblk m c 3 t)) [] _ (ix3 (0 : Fin 1) k c') rfl (fun ax => by
      match ax with
      | ⟨0, _⟩ => rfl
      | ⟨1, _⟩ => show k.val = 0 + k.val; omega
      | ⟨2, _⟩ => show c'.val = 0 + c'.val; omega)

/-- The offsets of the two bands at a point of the first phase. -/
theorem off_even_at (t : Fin cfg0.N) (h25 : t.val < 25) : k0_off2 (grid0.coords t) = ![1, 400 * t.val, 0] := by
  have h := off_even t
  rwa [Nat.mod_eq_of_lt h25] at h
theorem off_odd_at (t : Fin cfg0.N) (h25 : t.val < 25) : k0_off3 (grid0.coords t) = ![1, 400 * t.val + 200, 0] := by
  have h := off_odd t
  rwa [Nat.mod_eq_of_lt h25] at h

/-- From point 25 on the agreement is total, so it survives any step that leaves what the scratch reads as unchanged. -/
theorem inv_step_phase1 (m : (ℓ : Loc nD τ sig) → Buf (Elt F) ℓ) (c : Dev nD) (t : Fin cfg0.N) (ht : 25 ≤ t.val)
    (fS fS' : (scM : Memref sig .tc .vmem S2x10000x128 .f32).view.ty.Contents (Elt F)) (hI : Inv m c t.val fS)
    (hr : (scM : Memref sig .tc .vmem S2x10000x128 .f32).view.read (Elt F) fS' = (scM : Memref sig .tc .vmem S2x10000x128 .f32).view.read (Elt F) fS) :
    Inv m c (t.val + 1) fS' := by
  intro y hy
  have h1 : (y 1).val < 10000 := (y 1).isLt
  refine (congrFun hr y).trans (hI y ?_)
  rcases hy with ⟨h0, _⟩ | ⟨h0, _⟩
  · exact Or.inl ⟨h0, by omega⟩
  · exact Or.inr ⟨h0, by omega⟩

/-- What a point of phase 1 leaves in the first result buffer is the model's μ block; -/
theorem out11_readback (m : (ℓ : Loc nD τ sig) → Buf (Elt F) ℓ) (c : Dev nD) (t : Fin cfg0.N) (ht : 25 ≤ t.val)
    (hseed : ¬condSeed (grid0.coords t)) (hp0 : ¬condPhase0 (grid0.coords t)) (hp1 : condPhase1 (grid0.coords t))
    (fS : (scM : Memref sig .tc .vmem S2x10000x128 .f32).view.ty.Contents (Elt F)) (hI : Inv m c t.val fS) (e : (ms11 t).view.ty.Contents (Elt F)) :
    (ms11 t).view.read (Elt F) ((ms11 t).view.writes (Elt F) e
      (runPhase1 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) ((scM : Memref sig .tc .vmem S2x10000x128 .f32).view.read (Elt F) fS)).1) = out11 m c t := by
  rw [runPhase1_fst, read_halves, slab_phase1 m c t ht fS hI]
  rfl

/-- and in the second, the log-variance block. -/
theorem out12_readback (m : (ℓ : Loc nD τ sig) → Buf (Elt F) ℓ) (c : Dev nD) (t : Fin cfg0.N) (ht : 25 ≤ t.val)
    (hseed : ¬condSeed (grid0.coords t)) (hp0 : ¬condPhase0 (grid0.coords t)) (hp1 : condPhase1 (grid0.coords t))
    (fS : (scM : Memref sig .tc .vmem S2x10000x128 .f32).view.ty.Contents (Elt F)) (hI : Inv m c t.val fS) (e : (ms12 t).view.ty.Contents (Elt F)) :
    (ms12 t).view.read (Elt F) ((ms12 t).view.writes (Elt F) e
      (runPhase1 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) ((scM : Memref sig .tc .vmem S2x10000x128 .f32).view.read (Elt F) fS)).2.1) = out12 m c t := by
  rw [runPhase1_snd, read_halves, slab_phase1 m c t ht fS hI]
  rfl

/-- A point of phase 0 after the first extends the agreement by its tile. -/
theorem inv_step_phase0 (m : (ℓ : Loc nD τ sig) → Buf (Elt F) ℓ) (c : Dev nD) (t : Fin cfg0.N) (h1 : 1 ≤ t.val) (h25 : t.val < 25)
    (hseed : ¬condSeed (grid0.coords t)) (hp0 : condPhase0 (grid0.coords t)) (hp1 : ¬condPhase1 (grid0.coords t))
    (y11 y12 : Vec F S400x64 .f32) (fS : (scM : Memref sig .tc .vmem S2x10000x128 .f32).view.ty.Contents (Elt F)) (hI : Inv m c t.val fS) :
    Inv m c (t.val + 1) ((scM : Memref sig .tc .vmem S2x10000x128 .f32).view.writes (Elt F) fS
      (runPhase0 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) y11 y12 fS).1) := by
  rw [runPhase0_pieces, slab_phase0 m c t h1 h25 fS hI]
  have he := off_even_at t h25
  have ho := off_odd_at t h25
  exact inv_tile m c t h25 _
    (fun p c' hr => (step_even scM fS (grid0.coords t) hp0 t.val he ho _ _ p c' hr).trans
      (congrFun (tileE_at m c t h25).symm _))
    (fun p c' hr => (step_odd scM fS (grid0.coords t) hp0 t.val he ho _ _ p c' hr).trans
      (congrFun (tileO_at m c t h25).symm _))
    (fun y hy => (step_rest scM fS (grid0.coords t) hp0 t.val he ho _ _ y (fun hc => by omega)).trans
      (hI y (by
        rcases hy with h | h
        · exact Or.inl ⟨h, h1⟩
        · exact Or.inr h)))

/-- The first point establishes it, whatever the scratch held. -/
theorem inv_step_seed (m : (ℓ : Loc nD τ sig) → Buf (Elt F) ℓ) (c : Dev nD) (t : Fin cfg0.N) (h0 : t.val = 0)
    (hseed : condSeed (grid0.coords t)) (hp0 : condPhase0 (grid0.coords t)) (hp1 : ¬condPhase1 (grid0.coords t))
    (y11 y12 : Vec F S400x64 .f32) (fS : (scM : Memref sig .tc .vmem S2x10000x128 .f32).view.ty.Contents (Elt F)) :
    Inv m c (t.val + 1) ((scM : Memref sig .tc .vmem S2x10000x128 .f32).view.writes (Elt F) fS
      (runSeed (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) y11 y12 fS).1) := by
  have h25 : t.val < 25 := by omega
  rw [runSeed_pieces, slab_seed m c t h0 fS]
  have he := off_even_at t h25
  have ho := off_odd_at t h25
  exact inv_tile m c t h25 _
    (fun p c' hr => (seed_even scM fS (grid0.coords t) hp0 t.val he ho _ _ _ p c' hr).trans
      (congrFun (tileE_at m c t h25).symm _))
    (fun p c' hr => (seed_odd scM fS (grid0.coords t) hp0 t.val he ho _ _ _ p c' hr).trans
      (congrFun (tileO_at m c t h25).symm _))
    (fun y hy => by
      rcases hy with h | ⟨_, h⟩
      · obtain ⟨u, k, c', rfl⟩ : ∃ (u : Fin 2) (k : Fin 10000) (c' : Fin 128), y = ix3 u k c' :=
          ⟨y 0, y 1, y 2, eq_ix3 y⟩
        obtain rfl : u = 0 := Fin.ext h
        rw [scrG_page0, ← slab1_at m c t h0]
        exact seed_slab scM fS (grid0.coords t) hp0 t.val he ho _ _ _ k c'
      · omega)

end Cert.Kernel.Frame

end
-- ==== Proof.WBody.lean ====
/-
  The body's obligation to the region: at every point, from the invariant and every window's current
  buffer at what it then holds, the body runs to the invariant at the next point and every buffer at
  what the proof data says it leaves.

  The point's phase says which of the three runs applies. The input buffers hold their blocks and come
  back unchanged. In phase 0 the result buffers are handed back exactly as they were found, and the
  invariant moves by the tile the point stores (at the first point: is established). In phase 1 the
  scratch is read and comes back unchanged, and the two result buffers come back holding the result
  blocks of the model.
-/
import proofs.«144098_g9328668967786_cont_9to1c4b_67_19_alg».proof.Proof.WEnds
import proofs.«144098_g9328668967786_cont_9to1c4b_67_19_alg».proof.Proof.WInv

set_option maxRecDepth 16384

noncomputable section

namespace Cert.Kernel.Frame

open Cert.Kernel Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body is called with at point t, the windows one by one; -/
def bodyPre (m : (ℓ : Loc nD τ sig) → Buf (Elt F) ℓ) (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ d, owns (c : Thread nD τ) (ms7 t) fullShare ((dat m c).before 7 t d))
    ∗ (∃ d, owns (c : Thread nD τ) (ms8 t) fullShare ((dat m c).before 8 t d))
    ∗ (∃ d, owns (c : Thread nD τ) (ms9 t) fullShare ((dat m c).before 9 t d))
    ∗ (∃ d, owns (c : Thread nD τ) (ms10 t) fullShare ((dat m c).before 10 t d))
    ∗ (∃ d, owns (c : Thread nD τ) (ms11 t) fullShare ((dat m c).before 11 t d))
    ∗ (∃ d, owns (c : Thread nD τ) (ms12 t) fullShare ((dat m c).before 12 t d)))

/-- and what it returns. -/
def bodyPost (m : (ℓ : Loc nD τ sig) → Buf (Elt F) ℓ) (c : Dev nD) (t : Fin cfg0.N) : sProp 𝕄 :=
  iprop((dat m c).Φ t.succ ∗ (dat m c).owesAt () t.succ ∗ (dat m c).leavesExact 0 t ∗ (dat m c).leavesExact 1 t ∗ (dat m c).leavesExact 2 t ∗ (dat m c).leavesExact 3 t ∗ (dat m c).leavesExact 4 t ∗ (dat m c).leavesExact 5 t ∗ (dat m c).leavesExact 6 t ∗ (dat m c).leavesExact 7 t ∗ (dat m c).leavesExact 8 t ∗ (dat m c).leavesExact 9 t ∗ (dat m c).leavesExact 10 t ∗ (dat m c).leavesExact 11 t ∗ (dat m c).leavesExact 12 t)

set_option maxHeartbeats 8000000 in
/-- The body at any point. -/
theorem sound_body (m : (ℓ : Loc nD τ sig) → Buf (Elt F) ℓ) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dat m c).owesAt () t.succ = (dat m c).owesAt () t.castSucc from rfl]
  rw [Phi_eq, Phi_eq]
  rw [show (dat m c).leavesExact 0 t = owns (c : Thread nD τ) (ms0 t) fullShare ((dat m c).after 0 t) from by
    unfold Dat.leavesExact; rw [show cfg0.idle 0 (cfg0.grid.coords t) = false from rfl], aft0]
  rw [show (dat m c).leavesExact 1 t = owns (c : Thread nD τ) (ms1 t) fullShare ((dat m c).after 1 t) from by
    unfold Dat.leavesExact; rw [show cfg0.idle 1 (cfg0.grid.coords t) = false from rfl], aft1]
  rw [show (dat m c).leavesExact 2 t = owns (c : Thread nD τ) (ms2 t) fullShare ((dat m c).after 2 t) from by
    unfold Dat.leavesExact; rw [show cfg0.idle 2 (cfg0.grid.coords t) = false from rfl], aft2]
  rw [show (dat m c).leavesExact 3 t = owns (c : Thread nD τ) (ms3 t) fullShare ((dat m c).after 3 t) from by
    unfold Dat.leavesExact; rw [show cfg0.idle 3 (cfg0.grid.coords t) = false from rfl], aft3]
  rw [show (dat m c).leavesExact 4 t = owns (c : Thread nD τ) (ms4 t) fullShare ((dat m c).after 4 t) from by
    unfold Dat.leavesExact; rw [show cfg0.idle 4 (cfg0.grid.coords t) = false from rfl], aft4]
  rw [show (dat m c).leavesExact 5 t = owns (c : Thread nD τ) (ms5 t) fullShare ((dat m c).after 5 t) from by
    unfold Dat.leavesExact; rw [show cfg0.idle 5 (cfg0.grid.coords t) = false from rfl], aft5]
  rw [show (dat m c).leavesExact 6 t = owns (c : Thread nD τ) (ms6 t) fullShare ((dat m c).after 6 t) from by
    unfold Dat.leavesExact; rw [show cfg0.idle 6 (cfg0.grid.coords t) = false from rfl], aft6]
  rw [show (dat m c).leavesExact 7 t = owns (c : Thread nD τ) (ms7 t) fullShare ((dat m c).after 7 t) from by
    unfold Dat.leavesExact; rw [show cfg0.idle 7 (cfg0.grid.coords t) = false from rfl], aft7]
  rw [show (dat m c).leavesExact 8 t = owns (c : Thread nD τ) (ms8 t) fullShare ((dat m c).after 8 t) from by
    unfold Dat.leavesExact; rw [show cfg0.idle 8 (cfg0.grid.coords t) = false from rfl], aft8]
  rw [show (dat m c).leavesExact 9 t = owns (c : Thread nD τ) (ms9 t) fullShare ((dat m c).after 9 t) from by
    unfold Dat.leavesExact; rw [show cfg0.idle 9 (cfg0.grid.coords t) = false from rfl], aft9]
  rw [show (dat m c).leavesExact 10 t = owns (c : Thread nD τ) (ms10 t) fullShare ((dat m c).after 10 t) from by
    unfold Dat.leavesExact; rw [show cfg0.idle 10 (cfg0.grid.coords t) = false from rfl], aft10]
  by_cases h25 : t.val < 25
  · rw [Dat.leavesExact_idle (dat m c) 11 t (idle11_phase0 t h25) (noFlush11_phase0 t h25),
      Dat.leavesExact_idle (dat m c) 12 t (idle12_phase0 t h25) (noFlush12_phase0 t h25)]
    have hp0 : condPhase0 (grid0.coords t) := (condPhase0_iff t).mpr h25
    have hp1 : ¬condPhase1 (grid0.coords t) := fun h => by have := (condPhase1_iff t).mp h; omega
    unfold Phi
    by_cases h0 : t.val = 0
    · have hseed : condSeed (grid0.coords t) := (condSeed_iff t).mpr h0
      iintro ⟨⟨%fS, HS, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runSeed (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) ((dat m c).before 11 t d11) ((dat m c).before 12 t d12) fS).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS]; · iexact HS
      iintro ⟨H0, H1, H2, H3, H4, H5, H6, H7, H8, H9, H10, H11, H12, HS⟩
      isplitl [HS]
      · iexists _; isplitl [HS]; · iexact HS
        ipureintro; simp only [Fin.val_succ]; exact inv_step_seed m c t h0 hseed hp0 hp1 _ _ fS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hseed : ¬condSeed (grid0.coords t) := fun h => h0 ((condSeed_iff t).mp h)
      iintro ⟨⟨%fS, HS, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runPhase0 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) ((dat m c).before 11 t d11) ((dat m c).before 12 t d12) fS).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS]; · iexact HS
      iintro ⟨H0, H1, H2, H3, H4, H5, H6, H7, H8, H9, H10, H11, H12, HS⟩
      isplitl [HS]
      · iexists _; isplitl [HS]; · iexact HS
        ipureintro; simp only [Fin.val_succ]; exact inv_step_phase0 m c t (by omega) h25 hseed hp0 hp1 _ _ fS (by simpa only [Fin.coe_castSucc] using hI)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
  · have h25' : 25 ≤ t.val := by omega
    rw [show (dat m c).leavesExact 11 t = owns (c : Thread nD τ) (ms11 t) fullShare ((dat m c).after 11 t) from by
      unfold Dat.leavesExact; rw [live11_phase1 t h25'], aft11]
    rw [show (dat m c).leavesExact 12 t = owns (c : Thread nD τ) (ms12 t) fullShare ((dat m c).after 12 t) from by
      unfold Dat.leavesExact; rw [live12_phase1 t h25'], aft12]
    have hseed : ¬condSeed (grid0.coords t) := fun h => by have := (condSeed_iff t).mp h; omega
    have hp0 : ¬condPhase0 (grid0.coords t) := fun h => by have := (condPhase0_iff t).mp h; omega
    have hp1 : condPhase1 (grid0.coords t) := (condPhase1_iff t).mpr h25'
    unfold Phi
    iintro ⟨⟨%fS, HS, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runPhase1 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) ((scM : Memref sig .tc .vmem S2x10000x128 .f32).view.read (Elt F) fS)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS]
    · unfold owns; iexists fS; isplitr; · ipureintro; rfl
      iexact HS
    iintro ⟨H0, H1, H2, H3, H4, H5, H6, H7, H8, H9, H10, ⟨%e11, H11⟩, ⟨%e12, H12⟩, HS⟩
    isplitl [HS]
    · unfold owns; icases HS with ⟨%fS', %hr, HS⟩
      iexists fS'; isplitl [HS]; · iexact HS
      ipureintro; simp only [Fin.val_succ]
      exact inv_step_phase1 m c t h25' fS fS' (by simpa only [Fin.coe_castSucc] using hI) hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact out11_readback m c t h25' hseed hp0 hp1 fS (by simpa only [Fin.coe_castSucc] using hI) e11
    unfold owns; iexists _; isplitr
    swap; · iexact H12
    ipureintro; exact out12_readback m c t h25' hseed hp0 hp1 fS (by simpa only [Fin.coe_castSucc] using hI) e12

/-- The region's body obligation, at every point. -/
theorem body_obligation (m : (ℓ : Loc nD τ sig) → Buf (Elt F) ℓ) (c : Dev nD) :
    BodyObligation (dat m c) (defs₀ (F := F)) Variants.none () Set.univ := fun t => by
  rw [bigSep_W0, bigSep_W0]
  exact sound_body m c t

end Cert.Kernel.Frame

end
-- ==== Proof.WLaunch.lean ====
/-
  The launch of the kernel's one pipelined region.

  @main is four reshapes (each bias vector written as a 1×n row) and then the region. Its run is stated here
  for any proof data built by `mkDat`: given that the scoped scratch buffer reaches the invariant at the first
  point and comes back from it after the last, and given the body obligation at every point, every weakly fair
  execution of @main from a memory with zero counters terminates, nothing faulting, and in every final state
  each window's array holds what the proof data computes (`Dat.arrAt … N`) while the four bias vectors hold
  what they held at launch (`run_of`).

  Two windows read the one adjacency array. The launch holds that array whole; on entry its points-to is split
  along the share into the left and the right half, one per window, and the proof data's `arrays` is assembled
  window by window at those shares (`arrays_entry`). At the end each window's array is read off its points-to
  at its own share: a read needs no whole share (`arrays_read_shared`). The kernel names no semaphore of its
  own, and nothing unscoped enters the invariant: the bias vectors, which no window reads, bypass the region and
  are read at the end.
-/
import proofs.«144098_g9328668967786_cont_9to1c4b_67_19_alg».proof.Proof.WData
import Idealize.ShloMosaic.Lib.Pipeline.Regions
import Idealize.ShloMosaic.Lib.Pipeline.Frame

noncomputable section

namespace Cert.Kernel.Frame

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Before the region: the four reshapes -/

/-- No operation before the region writes a buffer other than the four bias rows. -/
theorem not_written (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.reshape_writes, Finset.mem_singleton] <;>
    exact StableHlo.devRef_ne_of_ne ‹_›

/-- A buffer that is none of the four bias rows reaches the region, and the end, as launched: every argument array does. -/
theorem V_arg (c : Dev nD) (b : Ref sig .tc) (hb : b ≠ main_v0 ∧ b ≠ main_v1 ∧ b ≠ main_v2 ∧ b ≠ main_v3) :
    V m c b = m ((c : Thread nD τ).loc b) :=
  StableHlo.after_of_forall_not_mem (b := Proc.devRef .tc b) hostOps0 (V₀ m c) (not_written b hb)

/-- Each bias row is its bias vector read as a 1×n matrix. -/
theorem V_v0 (c : Dev nD) : V m c main_v0 = shapeCast S1x128 (m ((c : Thread nD τ).loc main_arg3)) shapeCasts_S128_S1x128 := by
  dsimp only [V, hostOps0]; after_results; rfl
theorem V_v1 (c : Dev nD) : V m c main_v1 = shapeCast S1x128 (m ((c : Thread nD τ).loc main_arg5)) shapeCasts_S128_S1x128 := by
  dsimp only [V, hostOps0]; after_results; rfl
theorem V_v2 (c : Dev nD) : V m c main_v2 = shapeCast S1x64 (m ((c : Thread nD τ).loc main_arg7)) shapeCasts_S64_S1x64 := by
  dsimp only [V, hostOps0]; after_results; rfl
theorem V_v3 (c : Dev nD) : V m c main_v3 = shapeCast S1x64 (m ((c : Thread nD τ).loc main_arg9)) shapeCasts_S64_S1x64 := by
  dsimp only [V, hostOps0]; after_results; rfl

/-! ## The windows' arrays at their shares -/

/-- The shares of the region's proof data: each window's own. -/
theorem share_eq (after : (c : Dev nD) → (w : Fin cfg0.W) → Fin cfg0.N → (cfg0.win w).block.Idx → Elt F (cfg0.win w).elt)
    (Φ : (c : Dev nD) → Fin (cfg0.N + 1) → sProp 𝕄) (c : Dev nD) (w : Fin cfg0.W) :
    (mkDat m after Φ 0 c).share w = qshare w := by
  unfold Dat.share
  split
  · rename_i h
    revert h
    fin_cases w <;> first | (intro h; exact absurd h (by decide)) | (intro _; rfl)
  · rfl

/-- The windowed arrays as the points-tos of the buffers behind them, each at its window's share. -/
theorem arrays_pts (after : (c : Dev nD) → (w : Fin cfg0.W) → Fin cfg0.N → (cfg0.win w).block.Idx → Elt F (cfg0.win w).elt)
    (Φ : (c : Dev nD) → Fin (cfg0.N + 1) → sProp 𝕄) (c : Dev nD)
    (G : (w : Fin cfg0.W) → Buf (Elt F) ((cfg0.win w).arr.view.loc (c : Thread nD τ))) :
    (mkDat m after Φ 0 c).arrays G
      = bigSep Finset.univ fun w : Fin cfg0.W => (((c : Thread nD τ).loc (Pipeline.arrRef spec0 w)) ↦{qshare w} G w : sProp 𝕄) := by
  unfold Dat.arrays
  exact bigSep_congr fun w _ => by rw [(arr_whole0 w).set_eq_univ, share_eq]

/-- The twelve distinct buffers behind the thirteen windows, listed. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_arg4) ↦{fullShare} W main_arg4) ∗ (((c : Thread nD τ).loc main_v1) ↦{fullShare} W main_v1)
          ∗ (((c : Thread nD τ).loc main_arg6) ↦{fullShare} W main_arg6) ∗ (((c : Thread nD τ).loc main_v2) ↦{fullShare} W main_v2)
          ∗ (((c : Thread nD τ).loc main_arg8) ↦{fullShare} W main_arg8) ∗ (((c : Thread nD τ).loc main_v3) ↦{fullShare} W main_v3)
          ∗ (((c : Thread nD τ).loc main_v4_0) ↦{fullShare} W main_v4_0) ∗ (((c : Thread nD τ).loc main_v4_1) ↦{fullShare} W main_v4_1)) := by
  unfold Pipeline.arrBufs
  exact bigSep_eq_bigSepL_of_eq
    [main_arg0, main_arg1, main_arg2, main_v0, main_arg4, main_v1, main_arg6, main_v2, main_arg8, main_v3, main_v4_0, main_v4_1]
    (by decide) (by decide) _

theorem qshare_vals : qshare 0 = fullShare ∧ qshare 1 = (fullShare : PosShare TreeShare).left ∧ qshare 2 = (fullShare : PosShare TreeShare).right
    ∧ qshare 3 = fullShare ∧ qshare 4 = fullShare ∧ qshare 5 = fullShare ∧ qshare 6 = fullShare ∧ qshare 7 = fullShare
    ∧ qshare 8 = fullShare ∧ qshare 9 = fullShare ∧ qshare 10 = fullShare ∧ qshare 11 = fullShare ∧ qshare 12 = fullShare :=
  ⟨rfl, rfl, rfl, rfl, rfl, rfl, rfl, rfl, rfl, rfl, rfl, rfl, rfl⟩

/-- ENTRY, the arrays' part: the core's unscoped buffers when the region is entered are the thirteen windows' arrays at
    their shares, the adjacency's whole share dealt to its two windows as the two halves, and the four bias vectors no
    window reads. -/
theorem arrays_entry (after : (c : Dev nD) → (w : Fin cfg0.W) → Fin cfg0.N → (cfg0.win w).block.Idx → Elt F (cfg0.win w).elt)
    (Φ : (c : Dev nD) → Fin (cfg0.N + 1) → sProp 𝕄) (c : Dev nD)
    (G : (w : Fin cfg0.W) → Buf (Elt F) ((cfg0.win w).arr.view.loc (c : Thread nD τ)))
    (hG : ∀ w, G w = V m c (Pipeline.arrRef spec0 w)) :
    (unscopedBufs c (V m c) : sProp 𝕄)
      ⊢ iprop((mkDat m after Φ 0 c).arrays G ∗ Pipeline.unscopedRest (Ix := Unit) (Name := ℕ) (U := UR sig nD τ) (Lvl := ℕ) spec0 c (V m c)) := by
  obtain rfl : G = fun w => V m c (Pipeline.arrRef spec0 w) := funext hG
  obtain ⟨q0, q1, q2, q3, q4, q5, q6, q7, q8, q9, q10, q11, q12⟩ := qshare_vals
  rw [Pipeline.unscopedBufs_split₀ cfgs 0 winFacts₀0.arr_unscoped c (V m c), arrBufs_list, arrays_pts, bigSep_W0,
    q0, q1, q2, q3, q4, q5, q6, q7, q8, q9, q10, q11, q12]
  have hsplit : (((c : Thread nD τ).loc main_arg1) ↦{fullShare} V m c main_arg1 : sProp 𝕄)
      ⊢ iprop((((c : Thread nD τ).loc main_arg1) ↦{(fullShare : PosShare TreeShare).left} V m c main_arg1)
          ∗ (((c : Thread nD τ).loc main_arg1) ↦{(fullShare : PosShare TreeShare).right} V m c main_arg1)) :=
    (pointsTo_share halves).1
  iintro ⟨⟨H0, H1, H2, H3, H4, H5, H6, H7, H8, H9, H10, H11⟩, Hz⟩
  ihave H1' := hsplit $$ H1
  icases H1' with ⟨H1l, H1r⟩
  isplitr [Hz]
  · isplitl [H0]; · iexact H0
    isplitl [H1l]; · iexact H1l
    isplitl [H1r]; · iexact H1r
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iexact Hz

/-- The windowed arrays, each held at its window's share, read against a final state: its memory holds their contents. -/
theorem arrays_read_shared (after : (c : Dev nD) → (w : Fin cfg0.W) → Fin cfg0.N → (cfg0.win w).block.Idx → Elt F (cfg0.win w).elt)
    (Φ : (c : Dev nD) → Fin (cfg0.N + 1) → sProp 𝕄) (c : Dev nD)
    (G : (w : Fin cfg0.W) → Buf (Elt F) ((cfg0.win w).arr.view.loc (c : Thread nD τ))) (s' : Phys nD τ sig (Elt F)) :
    iprop((mkDat m after Φ 0 c).arrays G ∗ SI s')
      ⊢ (iprop(⌜∀ w : Fin cfg0.W, s'.mem.mem ((cfg0.win w).arr.view.loc (c : Thread nD τ)) = G w⌝ ∗ SI s') : sProp 𝕄) := by
  rw [arrays_pts]
  iintro ⟨Ha, HSI⟩
  ihave Hr := (pointsTo_read_all' Finset.univ (fun w : Fin cfg0.W => (c : Thread nD τ).loc (Pipeline.arrRef spec0 w)) G s' qshare) $$ [Ha HSI]
  · isplitl [Ha] <;> iassumption
  icases Hr with ⟨%ha, HSI⟩
  isplitr; · ipureintro; exact fun w => ha w (Finset.mem_univ w)
  iexact HSI

/-! ## The launch: @main as the four reshapes and the region -/

abbrev 𝒱₀ : Variants := Variants.none
/-- No core owes another anything: no level is assigned. -/
abbrev L : GSem nD τ sig → Finset Unit := fun _ => ∅
abbrev lv : GSem nD τ sig → Unit → ℕ := fun _ _ => 0
/-- The region prefetches no table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- The four reshapes, run over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by
      intro op hop
      simp only [List.mem_cons, List.mem_nil_iff, or_false] at hop
      rcases hop with rfl | rfl | rfl | rfl <;> rfl)
    (V₀ m) R

/-- What the region leaves for the end: the windows' arrays at their final contents, each at its window's share, and the
    four bias vectors as the reshapes left them. -/
abbrev Tₙ (after : (c : Dev nD) → (w : Fin cfg0.W) → Fin cfg0.N → (cfg0.win w).block.Idx → Elt F (cfg0.win w).elt)
    (Φ : (c : Dev nD) → Fin (cfg0.N + 1) → sProp 𝕄) (c : Dev nD) : sProp 𝕄 :=
  iprop((mkDat m after Φ 0 c).arrays ((mkDat m after Φ 0 c).arrAt · cfg0.N) ∗ Pipeline.unscopedRest (Ix := Unit) (Name := ℕ) (U := UR sig nD τ) (Lvl := ℕ) spec0 c (V m c))

-- the library states its lemmas over the pinned configuration; matching it with `cfg0` takes unfolding plain definitions in a
-- metavariable's type
set_option backward.isDefEq.respectTransparency.types false in
/-- The region: no semaphore of the kernel's own; nothing unscoped enters the invariant, the bias vectors bypass it. -/
def reg0 (after : (c : Dev nD) → (w : Fin cfg0.W) → Fin cfg0.N → (cfg0.win w).block.Idx → Elt F (cfg0.win w).elt)
    (Φ : (c : Dev nD) → Fin (cfg0.N + 1) → sProp 𝕄)
    (hin : ∀ c, (Pipeline.scopedRest (Ix := Unit) (Name := ℕ) (U := UR sig nD τ) (Lvl := ℕ) (Val := Elt F) spec0 c : sProp 𝕄) ⊢ Φ c 0)
    (hout : ∀ c, Φ c (Fin.last cfg0.N) ⊢ (Pipeline.scopedRest (Ix := Unit) (Name := ℕ) (U := UR sig nD τ) (Lvl := ℕ) (Val := Elt F) spec0 c : sProp 𝕄))
    (hbody : ∀ c, Pipeline.BodyObligationLoose (mkDat m after Φ 0 c) (defs₀ (F := F)) Variants.none () Set.univ) :
    Pipeline.RegionSeg (pcfgs (F := F)) adm (mkDat m after Φ) () defs₀ 𝒱₀ L lv 0 where
  win := winFacts₀0
  block_pos := block_pos0
  stage_whole := stage_whole0
  K := PEmpty
  osem := fun k => k.elim
  ho := Pipeline.OwnSemFacts.none _
  hbody := hbody
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(Tₙ m after Φ c ∗ R c)
  X _ := iprop(emp)
  Y _ := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c)
      from (Pipeline.unscopedBufs_held c _).symm]
    have hsplit := arrays_entry m after Φ c ((mkDat m after Φ 0 c).arrAt · 0) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    refine BIBase.Entails.trans ?_ (hin c)
    iintro ⟨-, -, Hr⟩
    iexact Hr
  hout c := by
    rw [Pipeline.ownSems0_none]
    refine (hout c).trans ?_
    iintro Hr
    isplitr; · iempintro
    isplitr; · iempintro
    iexact Hr
  hexit c := by
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

/-- @main as the list of the two. -/
abbrev segs (after : (c : Dev nD) → (w : Fin cfg0.W) → Fin cfg0.N → (cfg0.win w).block.Idx → Elt F (cfg0.win w).elt)
    (Φ : (c : Dev nD) → Fin (cfg0.N + 1) → sProp 𝕄)
    (hin : ∀ c, (Pipeline.scopedRest (Ix := Unit) (Name := ℕ) (U := UR sig nD τ) (Lvl := ℕ) (Val := Elt F) spec0 c : sProp 𝕄) ⊢ Φ c 0)
    (hout : ∀ c, Φ c (Fin.last cfg0.N) ⊢ (Pipeline.scopedRest (Ix := Unit) (Name := ℕ) (U := UR sig nD τ) (Lvl := ℕ) (Val := Elt F) spec0 c : sProp 𝕄))
    (hbody : ∀ c, Pipeline.BodyObligationLoose (mkDat m after Φ 0 c) (defs₀ (F := F)) Variants.none () Set.univ) :
    List (Pipeline.Seg (pcfgs (F := F)) adm (mkDat m after Φ) () defs₀ 𝒱₀ L lv) :=
  [.host (seg0 m), .region (reg0 m after Φ hin hout hbody)]

-- the library states its lemmas over the pinned configuration; matching it with `cfg0` takes unfolding plain definitions in a
-- metavariable's type
set_option backward.isDefEq.respectTransparency.types false in
/-- From any memory with zero counters every weakly fair execution of @main terminates, nothing faulting, and every final
    state has each window's array at the contents the proof data computes and the four bias vectors as launched. -/
theorem run_of (ρ : Dev nD → PrngReg) (after : (c : Dev nD) → (w : Fin cfg0.W) → Fin cfg0.N → (cfg0.win w).block.Idx → Elt F (cfg0.win w).elt)
    (Φ : (c : Dev nD) → Fin (cfg0.N + 1) → sProp 𝕄)
    (hin : ∀ c, (Pipeline.scopedRest (Ix := Unit) (Name := ℕ) (U := UR sig nD τ) (Lvl := ℕ) (Val := Elt F) spec0 c : sProp 𝕄) ⊢ Φ c 0)
    (hout : ∀ c, Φ c (Fin.last cfg0.N) ⊢ (Pipeline.scopedRest (Ix := Unit) (Name := ℕ) (U := UR sig nD τ) (Lvl := ℕ) (Val := Elt F) spec0 c : sProp 𝕄))
    (hbody : ∀ c, Pipeline.BodyObligationLoose (mkDat m after Φ 0 c) (defs₀ (F := F)) Variants.none () Set.univ) :
    θ_run defs (onTc (τ := τ) (main (F := F))) ⟨m, fun _ => 0, ρ⟩ (fun r => ∀ c : Dev nD,
      (∀ w : Fin cfg0.W, r.2.mem ((cfg0.win w).arr.view.loc (c : Thread nD τ)) = (mkDat m after Φ 0 c).arrAt w cfg0.N)
      ∧ r.2.mem ((c : Thread nD τ).loc main_arg3) = m ((c : Thread nD τ).loc main_arg3)
      ∧ r.2.mem ((c : Thread nD τ).loc main_arg5) = m ((c : Thread nD τ).loc main_arg5)
      ∧ r.2.mem ((c : Thread nD τ).loc main_arg7) = m ((c : Thread nD τ).loc main_arg7)
      ∧ r.2.mem ((c : Thread nD τ).loc main_arg9) = m ((c : Thread nD τ).loc main_arg9)) :=
  Pipeline.θ_run_regions_kit (pcfgs (F := F)) adm (mkDat m after Φ) () cellOf_inj emb₁ defs₀ 𝒱₀ L lv m ρ main (segs m after Φ hin hout hbody)
    (fun c Q => by rw [main_segs adm (mkDat m after Φ) () 𝒱₀ L lv (seg0 m) (reg0 m after Φ hin hout hbody) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m after Φ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => (∀ w : Fin cfg0.W, s.mem ((cfg0.win w).arr.view.loc (c : Thread nD τ)) = (mkDat m after Φ 0 c).arrAt w cfg0.N)
      ∧ s.mem ((c : Thread nD τ).loc main_arg3) = m ((c : Thread nD τ).loc main_arg3)
      ∧ s.mem ((c : Thread nD τ).loc main_arg5) = m ((c : Thread nD τ).loc main_arg5)
      ∧ s.mem ((c : Thread nD τ).loc main_arg7) = m ((c : Thread nD τ).loc main_arg7)
      ∧ s.mem ((c : Thread nD τ).loc main_arg9) = m ((c : Thread nD τ).loc main_arg9))
    (hfin := fun c s' => by
      dsimp only [Tₙ]
      rw [unscopedRest0_eq, V_arg m c main_arg3 (by decide), V_arg m c main_arg5 (by decide), V_arg m c main_arg7 (by decide),
        V_arg m c main_arg9 (by decide)]
      iintro ⟨⟨Ha, H3, H5, H7, H9⟩, HSI⟩
      icombine HSI H3 gives %h3
      icombine HSI H5 gives %h5
      icombine HSI H7 gives %h7
      icombine HSI H9 gives %h9
      ihave Hr := (arrays_read_shared m after Φ c _ s') $$ [Ha HSI]
      · isplitl [Ha] <;> iassumption
      icases Hr with ⟨%ha, HSI⟩
      imodintro
      isplitr
      · ipureintro
        exact ⟨ha, Buf.eq_of_forall_mem_univ h3, Buf.eq_of_forall_mem_univ h5, Buf.eq_of_forall_mem_univ h7, Buf.eq_of_forall_mem_univ h9⟩
      iexact HSI)
    (hQ := fun _ h => h)

end Cert.Kernel.Frame

end
-- ==== Proof.WFrame.lean ====
/-
  The kernel program runs, faults nowhere, and leaves its ten arguments as they were.

  Six of the arguments are arrays the region reads through input windows: an input window's array is
  never written, so it ends at what it held when the region was entered, which is what it held at
  launch since the reshapes before the region write only their own results. The four bias vectors are
  read by those reshapes only and pass the region by.
-/
import proofs.«144098_g9328668967786_cont_9to1c4b_67_19_alg».proof.Proof.WBody
import proofs.«144098_g9328668967786_cont_9to1c4b_67_19_alg».proof.Proof.WLaunch

noncomputable section

namespace Cert.Kernel.Frame

open Cert.Kernel Cert.Kernel.Gen

open Idealize.ShloMosaic Idealize.ShloMosaic.TcCoe
open Idealize.SL Idealize.SL.Sem
open Idealize.ShloMosaic.Pipeline (Dat Cfg Window BodyObligation)

variable {F : FTy → Type} [FloatOps F]

/-- Every weakly fair execution ends, with each windowed array at what the proof data computes and the four bias
    vectors as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      (∀ w : Fin cfg0.W, r.2.mem ((cfg0.win w).arr.view.loc (c : Thread nD τ)) = (dat m c).arrAt w cfg0.N)
      ∧ r.2.mem ((c : Thread nD τ).loc main_arg3) = m ((c : Thread nD τ).loc main_arg3)
      ∧ r.2.mem ((c : Thread nD τ).loc main_arg5) = m ((c : Thread nD τ).loc main_arg5)
      ∧ r.2.mem ((c : Thread nD τ).loc main_arg7) = m ((c : Thread nD τ).loc main_arg7)
      ∧ r.2.mem ((c : Thread nD τ).loc main_arg9) = m ((c : Thread nD τ).loc main_arg9)) :=
  run_of m ρ (aft m) (Phi m) (hin m) (hout m) (fun c => (body_obligation m c).loose)

/-- The frame: the ten arguments end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).1 0).trans (((dat m c).arrAt_in 0 rfl _).trans ((A_eq m c 0).trans (V_arg m c main_arg0 (by decide)))),
     ((h c).1 1).trans (((dat m c).arrAt_in 1 rfl _).trans ((A_eq m c 1).trans (V_arg m c main_arg1 (by decide)))),
     ((h c).1 3).trans (((dat m c).arrAt_in 3 rfl _).trans ((A_eq m c 3).trans (V_arg m c main_arg2 (by decide)))),
     (h c).2.1,
     ((h c).1 5).trans (((dat m c).arrAt_in 5 rfl _).trans ((A_eq m c 5).trans (V_arg m c main_arg4 (by decide)))),
     (h c).2.2.1,
     ((h c).1 7).trans (((dat m c).arrAt_in 7 rfl _).trans ((A_eq m c 7).trans (V_arg m c main_arg6 (by decide)))),
     (h c).2.2.2.1,
     ((h c).1 9).trans (((dat m c).arrAt_in 9 rfl _).trans ((A_eq m c 9).trans (V_arg m c main_arg8 (by decide)))),
     (h c).2.2.2.2⟩) (run_main m ρ)

end Cert.Kernel.Frame

end
-- ==== Proof.KData.lean ====
/-
  The data of the kernel's one pipelined region, shared by its launch and by its body.

  The region reads thirteen windows. Eleven are inputs: the node features, the adjacency TWICE
  (two windows of 200 rows each over the one adjacency array, at the even and the odd block of a
  400-row tile), the four weight matrices and the four bias rows (the biases reach the region as
  1×n rows, written by four reshapes that run before it). Two are results, 400 rows per block.
  An array read through several windows is held by each at a part of its share; the adjacency's
  whole share is dealt to its two windows as the left and the right half, and every other array is
  held whole. What each window's buffer holds after the body at a point, and the invariant carried
  from point to point, are parameters here: this module fixes only what the launch and the body
  must agree on.
-/
import proofs.«144098_g9328668967786_cont_9to1c4b_67_19_alg».proof.Proof.Gen.KernelIdeal.Launch
import proofs.«144098_g9328668967786_cont_9to1c4b_67_19_alg».proof.Proof.Gen.KernelIdeal.Points
import Idealize.ShloMosaic.Lib.Pipeline.Regions

noncomputable section

namespace Cert.KernelIdeal.Frame

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffers at launch, as the valuation the operations before the region start from; -/
abbrev V₀ (c : Dev nD) : Valuation τ sig (Elt F) := fun b => m ((c : Dev nD), b)
/-- and when the region is entered: the four reshapes of the bias vectors have run. -/
abbrev V (c : Dev nD) (b : Ref sig .tc) : Buf (Elt F) ((c : Thread nD τ).loc b) := StableHlo.after hostOps0 (V₀ m c) b

/-- The share each input window holds of its array: the adjacency's two windows hold the two halves of
    its whole share, every other window its array whole. -/
def qshare : Fin 13 → PosShare TreeShare := fun w =>
  if w = 1 then (fullShare : PosShare TreeShare).left else if w = 2 then (fullShare : PosShare TreeShare).right else fullShare

/-- The two halves make the whole. -/
theorem halves : (fullShare : PosShare TreeShare) ∈ PCS.op (fullShare : PosShare TreeShare).left (fullShare : PosShare TreeShare).right :=
  PosShare.mem_left_op_right _

/-- The region's proof data on a core, from what each window's buffer holds after the body at each point
    and the invariant between points: the arrays at their contents when the region is entered, the shares
    above, nothing owed to any other core. -/
def mkDat (after : (c : Dev nD) → (w : Fin cfg0.W) → Fin cfg0.N → (cfg0.win w).block.Idx → Elt F (cfg0.win w).elt)
    (Φ : (c : Dev nD) → Fin (cfg0.N + 1) → sProp 𝕄) (_ : Fin 1) (c : Dev nD) :
    Dat τ (Elt F) Unit ℕ (UR sig nD τ) ℕ cfg0 c where
  A w := V m c (Pipeline.arrRef spec0 w)
  after := after c
  Φ := Φ c
  q := qshare
  owed _ := 0

end Cert.KernelIdeal.Frame

end
-- ==== Proof.KConds.lean ====
/-
  The body's three branch conditions over the 2×25 grid, in closed form.

  A grid point is (p, i) with p ∈ {0, 1} the phase and i ∈ {0, …, 24} the tile; in the order the
  region visits them it is point t = 25·p + i. The body seeds the first support at the one point
  (0, 0); it stores a tile of the second support at every point of phase 0; it stores the two result
  blocks at every point of phase 1. The result windows sit on block 0 through all of phase 0 and on
  block i at (1, i), so a result block is written back exactly at the points of phase 1 — each of
  which stores it whole — and at the points of phase 0 the body leaves the result buffers as it
  found them and nothing is written back.
-/
import proofs.«144098_g9328668967786_cont_9to1c4b_67_19_alg».proof.Proof.Gen.KernelIdeal.Points

noncomputable section

namespace Cert.KernelIdeal.Frame

open Cert.KernelIdeal Cert.KernelIdeal.Gen
open Idealize.ShloMosaic Idealize.SL.Sem

/-- The seeding condition, "phase 0 and tile 0", as the body computes it from the coordinates. -/
abbrev condSeed (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at the first point only. -/
theorem condSeed_iff : ∀ t : Fin cfg0.N, condSeed (grid0.coords t) ↔ t.val = 0 :=
  (by decide +kernel : ∀ t : Fin grid0.N, condSeed (grid0.coords t) ↔ t.val = 0)

/-- "Phase 0", as the body computes it. -/
abbrev condPhase0 (i : grid0.Coords) : Prop := k0_cond2 i = 1#1
/-- It holds at the first 25 points. -/
theorem condPhase0_iff : ∀ t : Fin cfg0.N, condPhase0 (grid0.coords t) ↔ t.val < 25 :=
  (by decide +kernel : ∀ t : Fin grid0.N, condPhase0 (grid0.coords t) ↔ t.val < 25)

/-- "Phase 1", as the body computes it. -/
abbrev condPhase1 (i : grid0.Coords) : Prop := k0_cond3 i = 1#1
/-- It holds at the last 25 points. -/
theorem condPhase1_iff : ∀ t : Fin cfg0.N, condPhase1 (grid0.coords t) ↔ 25 ≤ t.val :=
  (by decide +kernel : ∀ t : Fin grid0.N, condPhase1 (grid0.coords t) ↔ 25 ≤ t.val)

/-- The coordinates of point t: phase t / 25, tile t % 25. -/
theorem coords_phase : ∀ t : Fin cfg0.N, ((grid0.coords t) 0).val = t.val / 25 :=
  (by decide +kernel : ∀ t : Fin grid0.N, ((grid0.coords t) 0).val = t.val / 25)
theorem coords_tile : ∀ t : Fin cfg0.N, ((grid0.coords t) 1).val = t.val % 25 :=
  (by decide +kernel : ∀ t : Fin grid0.N, ((grid0.coords t) 1).val = t.val % 25)

/-- In phase 0 both result windows are idle and not written back; in phase 1 they are live and written back. -/
theorem idle11_phase0 : ∀ t : Fin cfg0.N, t.val < 25 → cfg0.idle 11 (grid0.coords t) = true := by decide +kernel
theorem idle12_phase0 : ∀ t : Fin cfg0.N, t.val < 25 → cfg0.idle 12 (grid0.coords t) = true := by decide +kernel
theorem noFlush11_phase0 : ∀ t : Fin cfg0.N, t.val < 25 → (cfg0.win 11).flush t = false := by decide +kernel
theorem noFlush12_phase0 : ∀ t : Fin cfg0.N, t.val < 25 → (cfg0.win 12).flush t = false := by decide +kernel
theorem live11_phase1 : ∀ t : Fin cfg0.N, 25 ≤ t.val → cfg0.idle 11 (grid0.coords t) = false := by decide +kernel
theorem live12_phase1 : ∀ t : Fin cfg0.N, 25 ≤ t.val → cfg0.idle 12 (grid0.coords t) = false := by decide +kernel
theorem flush11_phase1 : ∀ t : Fin cfg0.N, 25 ≤ t.val → (cfg0.win 11).flush t = true := by decide +kernel
theorem flush12_phase1 : ∀ t : Fin cfg0.N, 25 ≤ t.val → (cfg0.win 12).flush t = true := by decide +kernel

/-- Where the body reads and writes the scratch: the slab of the current phase, and in phase 0 the two
    200-row pieces of tile i of the second slab. -/
theorem off_slab : ∀ t : Fin cfg0.N, k0_off1 (grid0.coords t) = ![t.val / 25, 0, 0] :=
  (by decide +kernel : ∀ t : Fin grid0.N, k0_off1 (grid0.coords t) = ![t.val / 25, 0, 0])
theorem off_even : ∀ t : Fin cfg0.N, k0_off2 (grid0.coords t) = ![1, 400 * (t.val % 25), 0] :=
  (by decide +kernel : ∀ t : Fin grid0.N, k0_off2 (grid0.coords t) = ![1, 400 * (t.val % 25), 0])
theorem off_odd : ∀ t : Fin cfg0.N, k0_off3 (grid0.coords t) = ![1, 400 * (t.val % 25) + 200, 0] :=
  (by decide +kernel : ∀ t : Fin grid0.N, k0_off3 (grid0.coords t) = ![1, 400 * (t.val % 25) + 200, 0])

end Cert.KernelIdeal.Frame

end
-- ==== Proof.KModel.lean ====
/-
  What the region's buffers hold, point by point, as functions of the arrays the region is entered with.

  An input window's buffer holds its block of its array at every point. The scratch has two slabs of
  10000 × 128. The first holds the first support S₁ = x · W₁ from the first point on. The second is
  filled 400 rows per point through phase 0: at tile i its rows 400i … 400i+199 receive H·W₂ for the
  200 rows of the first hidden layer H = max(A·S₁ + b₁, 0) that the even adjacency block gives, and rows
  400i+200 … 400i+399 the same for the odd block; after the 25 points of phase 0 it holds the second
  support S₂ whole. A result block, stored only in phase 1, holds in its two halves of 200 rows the
  head applied to max(A·S₂ + b₂, 0) on the even and the odd adjacency block of its tile.

  The scratch enters the region at contents nobody chose, so what is carried from point to point is not
  "the scratch holds X" but "on the part stored so far the scratch agrees with the function G below": the
  first slab once the first point has run, and the first 400·n rows of the second slab before point n.
  From point 25 on that part is everything.
-/
import proofs.«144098_g9328668967786_cont_9to1c4b_67_19_alg».proof.Proof.KData
import proofs.«144098_g9328668967786_cont_9to1c4b_67_19_alg».proof.Proof.KConds
import proofs.«144098_g9328668967786_cont_9to1c4b_67_19_alg».proof.Proof.Gen.KernelIdeal.Skeleton
import Idealize.ShloMosaic.Lib.Pipeline.Frame
import Idealize.ShloMosaic.Lib.Pipeline.FrameBody
import Idealize.ShloMosaic.Lib.ValueIdx

set_option maxRecDepth 16384

noncomputable section

namespace Cert.KernelIdeal.Frame

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Blocks, buffers, points -/

/-- Window w's block at point t, read off its array as the region finds it. -/
def iblk (m : (ℓ : Loc nD τ sig) → Buf (Elt F) ℓ) (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Each window's current staging buffer at point t, as the region passes it to the body, and its wholeness. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
abbrev ms11 (t : Fin cfg0.N) := win0_11.stage (cfg0.slots t 11)
abbrev hs11 (t : Fin cfg0.N) : (ms11 t).IsWhole := hstage0_11 ((cfg0.slots t 11).cast nbuf0_11)
abbrev ms12 (t : Fin cfg0.N) := win0_12.stage (cfg0.slots t 12)
abbrev hs12 (t : Fin cfg0.N) : (ms12 t).IsWhole := hstage0_12 ((cfg0.slots t 12).cast nbuf0_12)
/-- The scratch: a whole buffer of the kernel's own. -/
abbrev scM : Memref sig .tc .vmem S2x10000x128 .f32 := Memref.whole cc0_scratch0
theorem scM_whole : (scM : Memref sig .tc .vmem S2x10000x128 .f32).IsWhole := Memref.isWhole_whole _

/-- Point number j of the grid. -/
abbrev pt (j : ℕ) (h : j < 50) : Fin cfg0.N := ⟨j, lt_of_lt_of_eq h N_0.symm⟩

/-! ## The scratch, as a function of the region's arrays -/

/-- The first slab: the first support, from the node features and W₁. -/
def slab1 (m : (ℓ : Loc nD τ sig) → Buf (Elt F) ℓ) (c : Dev nD) : FVec F S1x10000x128 .f32 :=
  k0_pay1 (iblk m c 0 (pt 0 (by omega))) (iblk m c 3 (pt 0 (by omega)))

/-- The 200 rows tile j of phase 0 stores first: the even adjacency block's rows of the first hidden layer, times W₂. -/
def tileE (m : (ℓ : Loc nD τ sig) → Buf (Elt F) ℓ) (c : Dev nD) (j : ℕ) (hj : j < 25) : FVec F S1x200x128 .f32 :=
  k0_pay6 (grid0.coords (pt j (by omega))) (slab1 m c) (iblk m c 4 (pt j (by omega))) (iblk m c 6 (pt j (by omega)))
    (iblk m c 1 (pt j (by omega))) (iblk m c 5 (pt j (by omega)))
/-- The 200 rows it stores next: the same for the odd adjacency block. -/
def tileO (m : (ℓ : Loc nD τ sig) → Buf (Elt F) ℓ) (c : Dev nD) (j : ℕ) (hj : j < 25) : FVec F S1x200x128 .f32 :=
  k0_pay7 (grid0.coords (pt j (by omega))) (slab1 m c) (iblk m c 4 (pt j (by omega))) (iblk m c 6 (pt j (by omega)))
    (iblk m c 2 (pt j (by omega))) (iblk m c 5 (pt j (by omega)))

/-- Row r of the second slab belongs to tile r / 400, and within it to the even half if r % 400 < 200. -/
def slab2 (m : (ℓ : Loc nD τ sig) → Buf (Elt F) ℓ) (c : Dev nD) : FVec F S1x10000x128 .f32 := fun y =>
  have hr : (y 1).val < 10000 := (y 1).isLt
  if h : (y 1).val % 400 < 200 then
    tileE m c ((y 1).val / 400) (by omega) (ix3 (0 : Fin 1) (⟨(y 1).val % 400, h⟩ : Fin 200) (⟨(y 2).val, (y 2).isLt⟩ : Fin 128))
  else
    tileO m c ((y 1).val / 400) (by omega) (ix3 (0 : Fin 1) (⟨(y 1).val % 400 - 200, by omega⟩ : Fin 200) (⟨(y 2).val, (y 2).isLt⟩ : Fin 128))

/-- The whole scratch once both slabs are stored. -/
def scrG (m : (ℓ : Loc nD τ sig) → Buf (Elt F) ℓ) (c : Dev nD) : S2x10000x128.Idx → Elt F .f32 := fun y =>
  if (y 0).val = 0 then slab1 m c (ix3 (0 : Fin 1) (⟨(y 1).val, (y 1).isLt⟩ : Fin 10000) (⟨(y 2).val, (y 2).isLt⟩ : Fin 128))
  else slab2 m c (ix3 (0 : Fin 1) (⟨(y 1).val, (y 1).isLt⟩ : Fin 10000) (⟨(y 2).val, (y 2).isLt⟩ : Fin 128))

/-- Before point n the scratch agrees with `scrG` on what has been stored: the first slab once a point has run,
    and the first 400·n rows of the second. -/
def Inv (m : (ℓ : Loc nD τ sig) → Buf (Elt F) ℓ) (c : Dev nD) (n : ℕ)
    (fS : (scM : Memref sig .tc .vmem S2x10000x128 .f32).view.ty.Contents (Elt F)) : Prop :=
  ∀ y : S2x10000x128.Idx, (((y 0).val = 0 ∧ 1 ≤ n) ∨ ((y 0).val = 1 ∧ (y 1).val < 400 * n)) →
    (scM : Memref sig .tc .vmem S2x10000x128 .f32).view.read (Elt F) fS y = scrG m c y

/-- The invariant carried between points: the scratch at some contents that agree with `scrG` so far. -/
def Phi (m : (ℓ : Loc nD τ sig) → Buf (Elt F) ℓ) (c : Dev nD) (t : Fin (cfg0.N + 1)) : sProp 𝕄 :=
  iprop(∃ fS, ((scM : Memref sig .tc .vmem S2x10000x128 .f32).view.loc (c : Thread nD τ) ↦[(scM : Memref sig .tc .vmem S2x10000x128 .f32).view.set]{fullShare} fS) ∗ ⌜Inv m c t.val fS⌝)

/-! ## The result blocks -/

/-- A 400-row block from its two halves of 200 rows. -/
def twoHalves (a b : FVec F S200x64 .f32) : Vec F S400x64 .f32 := fun y =>
  have hr : (y 0).val < 400 := (y 0).isLt
  if h : (y 0).val < 200 then a (ix2 (⟨(y 0).val, h⟩ : Fin 200) (⟨(y 1).val, (y 1).isLt⟩ : Fin 64))
  else b (ix2 (⟨(y 0).val - 200, by omega⟩ : Fin 200) (⟨(y 1).val, (y 1).isLt⟩ : Fin 64))

/-- The μ block a point of phase 1 stores, and the log-variance block. -/
def out11 (m : (ℓ : Loc nD τ sig) → Buf (Elt F) ℓ) (c : Dev nD) (t : Fin cfg0.N) : Vec F S400x64 .f32 :=
  twoHalves
    (k0_pay8 (k0_pay4 (grid0.coords t) (slab2 m c) (iblk m c 4 t) (iblk m c 6 t) (iblk m c 1 t)) (iblk m c 7 t) (iblk m c 8 t))
    (k0_pay9 (k0_pay5 (grid0.coords t) (slab2 m c) (iblk m c 4 t) (iblk m c 6 t) (iblk m c 2 t)) (iblk m c 7 t) (iblk m c 8 t))
def out12 (m : (ℓ : Loc nD τ sig) → Buf (Elt F) ℓ) (c : Dev nD) (t : Fin cfg0.N) : Vec F S400x64 .f32 :=
  twoHalves
    (k0_pay10 (k0_pay4 (grid0.coords t) (slab2 m c) (iblk m c 4 t) (iblk m c 6 t) (iblk m c 1 t)) (iblk m c 9 t) (iblk m c 10 t))
    (k0_pay11 (k0_pay5 (grid0.coords t) (slab2 m c) (iblk m c 4 t) (iblk m c 6 t) (iblk m c 2 t)) (iblk m c 9 t) (iblk m c 10 t))

/-- What each window's buffer holds after the body at point t: an input its block; a result the block above
    (consulted only at the points of phase 1: in phase 0 the result buffers are handed back as found). -/
def aft (m : (ℓ : Loc nD τ sig) → Buf (Elt F) ℓ) (c : Dev nD) (w : Fin cfg0.W) (t : Fin cfg0.N) :
    (cfg0.win w).block.Idx → Elt F (cfg0.win w).elt :=
  match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 m c t
    | ⟨12, _⟩ => out12 m c t

/-- The region's proof data. -/
abbrev dat (m : (ℓ : Loc nD τ sig) → Buf (Elt F) ℓ) (c : Dev nD) : Dat τ (Elt F) Unit ℕ (UR sig nD τ) ℕ cfg0 c :=
  mkDat m (aft m) (Phi m) 0 c

end Cert.KernelIdeal.Frame

end
-- ==== Proof.KEnds.lean ====
/-
  The region's proof data read window by window, and the invariant at the region's two ends.

  An input window's buffer holds its block of the array at every point, whether the block was fetched
  there or is the one fetched at an earlier point: the block index has not moved in between. Before the
  first point nothing of the scratch has been stored, so the invariant asks nothing of it; after the last
  point the invariant is dropped and the scratch is handed back at whatever it holds.
-/
import proofs.«144098_g9328668967786_cont_9to1c4b_67_19_alg».proof.Proof.KModel

set_option maxRecDepth 16384

noncomputable section

namespace Cert.KernelIdeal.Frame

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data's fields -/

theorem A_eq (m : (ℓ : Loc nD τ sig) → Buf (Elt F) ℓ) (c : Dev nD) (w : Fin cfg0.W) : (dat m c).A w = V m c (Pipeline.arrRef spec0 w) := by
  dsimp only [dat, mkDat]
theorem aft0 (m : (ℓ : Loc nD τ sig) → Buf (Elt F) ℓ) (c : Dev nD) (t : Fin cfg0.N) : (dat m c).after 0 t = iblk m c 0 t := by dsimp only [dat, mkDat, aft]
theorem aft1 (m : (ℓ : Loc nD τ sig) → Buf (Elt F) ℓ) (c : Dev nD) (t : Fin cfg0.N) : (dat m c).after 1 t = iblk m c 1 t := by dsimp only [dat, mkDat, aft]
theorem aft2 (m : (ℓ : Loc nD τ sig) → Buf (Elt F) ℓ) (c : Dev nD) (t : Fin cfg0.N) : (dat m c).after 2 t = iblk m c 2 t := by dsimp only [dat, mkDat, aft]
theorem aft3 (m : (ℓ : Loc nD τ sig) → Buf (Elt F) ℓ) (c : Dev nD) (t : Fin cfg0.N) : (dat m c).after 3 t = iblk m c 3 t := by dsimp only [dat, mkDat, aft]
theorem aft4 (m : (ℓ : Loc nD τ sig) → Buf (Elt F) ℓ) (c : Dev nD) (t : Fin cfg0.N) : (dat m c).after 4 t = iblk m c 4 t := by dsimp only [dat, mkDat, aft]
theorem aft5 (m : (ℓ : Loc nD τ sig) → Buf (Elt F) ℓ) (c : Dev nD) (t : Fin cfg0.N) : (dat m c).after 5 t = iblk m c 5 t := by dsimp only [dat, mkDat, aft]
theorem aft6 (m : (ℓ : Loc nD τ sig) → Buf (Elt F) ℓ) (c : Dev nD) (t : Fin cfg0.N) : (dat m c).after 6 t = iblk m c 6 t := by dsimp only [dat, mkDat, aft]
theorem aft7 (m : (ℓ : Loc nD τ sig) → Buf (Elt F) ℓ) (c : Dev nD) (t : Fin cfg0.N) : (dat m c).after 7 t = iblk m c 7 t := by dsimp only [dat, mkDat, aft]
theorem aft8 (m : (ℓ : Loc nD τ sig) → Buf (Elt F) ℓ) (c : Dev nD) (t : Fin cfg0.N) : (dat m c).after 8 t = iblk m c 8 t := by dsimp only [dat, mkDat, aft]
theorem aft9 (m : (ℓ : Loc nD τ sig) → Buf (Elt F) ℓ) (c : Dev nD) (t : Fin cfg0.N) : (dat m c).after 9 t = iblk m c 9 t := by dsimp only [dat, mkDat, aft]
theorem aft10 (m : (ℓ : Loc nD τ sig) → Buf (Elt F) ℓ) (c : Dev nD) (t : Fin cfg0.N) : (dat m c).after 10 t = iblk m c 10 t := by dsimp only [dat, mkDat, aft]
theorem aft11 (m : (ℓ : Loc nD τ sig) → Buf (Elt F) ℓ) (c : Dev nD) (t : Fin cfg0.N) : (dat m c).after 11 t = out11 m c t := by dsimp only [dat, mkDat, aft]
theorem aft12 (m : (ℓ : Loc nD τ sig) → Buf (Elt F) ℓ) (c : Dev nD) (t : Fin cfg0.N) : (dat m c).after 12 t = out12 m c t := by dsimp only [dat, mkDat, aft]
theorem Phi_eq (m : (ℓ : Loc nD τ sig) → Buf (Elt F) ℓ) (c : Dev nD) (t : Fin (cfg0.N + 1)) : (dat m c).Φ t = Phi m c t := by dsimp only [dat, mkDat]

/-! ## Each input buffer holds its block -/

theorem before0 (m : (ℓ : Loc nD τ sig) → Buf (Elt F) ℓ) (c : Dev nD) (t : Fin cfg0.N) (d) : (dat m c).before 0 t d = iblk m c 0 t :=
  ((dat m c).before_in_eq_fetched 0 rfl (fun _ => rfl) (fun _ _ _ => rfl)
    (fun t => by rw [aft0]; unfold Dat.blockOf iblk; rw [A_eq]; try rfl) t d).trans
    (by unfold Dat.fetched Dat.blockOf iblk; rw [A_eq]; try rfl)
theorem before1 (m : (ℓ : Loc nD τ sig) → Buf (Elt F) ℓ) (c : Dev nD) (t : Fin cfg0.N) (d) : (dat m c).before 1 t d = iblk m c 1 t :=
  ((dat m c).before_in_eq_fetched 1 rfl (fun _ => rfl) (fun _ _ _ => rfl)
    (fun t => by rw [aft1]; unfold Dat.blockOf iblk; rw [A_eq]; try rfl) t d).trans
    (by unfold Dat.fetched Dat.blockOf iblk; rw [A_eq]; try rfl)
theorem before2 (m : (ℓ : Loc nD τ sig) → Buf (Elt F) ℓ) (c : Dev nD) (t : Fin cfg0.N) (d) : (dat m c).before 2 t d = iblk m c 2 t :=
  ((dat m c).before_in_eq_fetched 2 rfl (fun _ => rfl) (fun _ _ _ => rfl)
    (fun t => by rw [aft2]; unfold Dat.blockOf iblk; rw [A_eq]; try rfl) t d).trans
    (by unfold Dat.fetched Dat.blockOf iblk; rw [A_eq]; try rfl)
theorem before3 (m : (ℓ : Loc nD τ sig) → Buf (Elt F) ℓ) (c : Dev nD) (t : Fin cfg0.N) (d) : (dat m c).before 3 t d = iblk m c 3 t :=
  ((dat m c).before_in_eq_fetched 3 rfl (fun _ => rfl) (fun _ _ _ => rfl)
    (fun t => by rw [aft3]; unfold Dat.blockOf iblk; rw [A_eq]; try rfl) t d).trans
    (by unfold Dat.fetched Dat.blockOf iblk; rw [A_eq]; try rfl)
theorem before4 (m : (ℓ : Loc nD τ sig) → Buf (Elt F) ℓ) (c : Dev nD) (t : Fin cfg0.N) (d) : (dat m c).before 4 t d = iblk m c 4 t :=
  ((dat m c).before_in_eq_fetched 4 rfl (fun _ => rfl) (fun _ _ _ => rfl)
    (fun t => by rw [aft4]; unfold Dat.blockOf iblk; rw [A_eq]; try rfl) t d).trans
    (by unfold Dat.fetched Dat.blockOf iblk; rw [A_eq]; try rfl)
theorem before5 (m : (ℓ : Loc nD τ sig) → Buf (Elt F) ℓ) (c : Dev nD) (t : Fin cfg0.N) (d) : (dat m c).before 5 t d = iblk m c 5 t :=
  ((dat m c).before_in_eq_fetched 5 rfl (fun _ => rfl) (fun _ _ _ => rfl)
    (fun t => by rw [aft5]; unfold Dat.blockOf iblk; rw [A_eq]; try rfl) t d).trans
    (by unfold Dat.fetched Dat.blockOf iblk; rw [A_eq]; try rfl)
theorem before6 (m : (ℓ : Loc nD τ sig) → Buf (Elt F) ℓ) (c : Dev nD) (t : Fin cfg0.N) (d) : (dat m c).before 6 t d = iblk m c 6 t :=
  ((dat m c).before_in_eq_fetched 6 rfl (fun _ => rfl) (fun _ _ _ => rfl)
    (fun t => by rw [aft6]; unfold Dat.blockOf iblk; rw [A_eq]; try rfl) t d).trans
    (by unfold Dat.fetched Dat.blockOf iblk; rw [A_eq]; try rfl)
theorem before7 (m : (ℓ : Loc nD τ sig) → Buf (Elt F) ℓ) (c : Dev nD) (t : Fin cfg0.N) (d) : (dat m c).before 7 t d = iblk m c 7 t :=
  ((dat m c).before_in_eq_fetched 7 rfl (fun _ => rfl) (fun _ _ _ => rfl)
    (fun t => by rw [aft7]; unfold Dat.blockOf iblk; rw [A_eq]; try rfl) t d).trans
    (by unfold Dat.fetched Dat.blockOf iblk; rw [A_eq]; try rfl)
theorem before8 (m : (ℓ : Loc nD τ sig) → Buf (Elt F) ℓ) (c : Dev nD) (t : Fin cfg0.N) (d) : (dat m c).before 8 t d = iblk m c 8 t :=
  ((dat m c).before_in_eq_fetched 8 rfl (fun _ => rfl) (fun _ _ _ => rfl)
    (fun t => by rw [aft8]; unfold Dat.blockOf iblk; rw [A_eq]; try rfl) t d).trans
    (by unfold Dat.fetched Dat.blockOf iblk; rw [A_eq]; try rfl)
theorem before9 (m : (ℓ : Loc nD τ sig) → Buf (Elt F) ℓ) (c : Dev nD) (t : Fin cfg0.N) (d) : (dat m c).before 9 t d = iblk m c 9 t :=
  ((dat m c).before_in_eq_fetched 9 rfl (fun _ => rfl) (fun _ _ _ => rfl)
    (fun t => by rw [aft9]; unfold Dat.blockOf iblk; rw [A_eq]; try rfl) t d).trans
    (by unfold Dat.fetched Dat.blockOf iblk; rw [A_eq]; try rfl)
theorem before10 (m : (ℓ : Loc nD τ sig) → Buf (Elt F) ℓ) (c : Dev nD) (t : Fin cfg0.N) (d) : (dat m c).before 10 t d = iblk m c 10 t :=
  ((dat m c).before_in_eq_fetched 10 rfl (fun _ => rfl) (fun _ _ _ => rfl)
    (fun t => by rw [aft10]; unfold Dat.blockOf iblk; rw [A_eq]; try rfl) t d).trans
    (by unfold Dat.fetched Dat.blockOf iblk; rw [A_eq]; try rfl)

/-! ## The invariant at the two ends -/

/-- The scoped rest is the scratch at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) (scM : Memref sig .tc .vmem S2x10000x128 .f32) fullShare d) := by
  rw [scopedRest0_eq]; simp only [scM, owns_whole]; try rfl

/-- Before the first point the invariant asks nothing. -/
theorem hin (m : (ℓ : Loc nD τ sig) → Buf (Elt F) ℓ) (c : Dev nD) :
    (Pipeline.scopedRest (Ix := Unit) (Name := ℕ) (U := UR sig nD τ) (Lvl := ℕ) (Val := Elt F) spec0 c : sProp 𝕄) ⊢ Phi m c 0 := by
  rw [scopedRest_scratch]; unfold Phi owns
  iintro ⟨%d, %f, -, H⟩
  iexists f
  isplitl [H]; · iexact H
  ipureintro
  intro y hy
  rcases hy with ⟨_, h⟩ | ⟨_, h⟩
  · exact absurd h (by simp)
  · exact absurd h (by simp)

/-- After the last point the scratch is handed back at what it holds. -/
theorem hout (m : (ℓ : Loc nD τ sig) → Buf (Elt F) ℓ) (c : Dev nD) :
    Phi m c (Fin.last cfg0.N) ⊢ (Pipeline.scopedRest (Ix := Unit) (Name := ℕ) (U := UR sig nD τ) (Lvl := ℕ) (Val := Elt F) spec0 c : sProp 𝕄) := by
  rw [scopedRest_scratch]; unfold Phi owns
  iintro ⟨%fS, H, -⟩
  iexists _; iexists fS
  isplitr; · ipureintro; rfl
  iexact H

end Cert.KernelIdeal.Frame

end
-- ==== Proof.KRunPhase1.lean ====
/-
  The body at a point of phase 1, run once on any staging buffers.

  At such a point the body reads the second slab of the scratch (the second support S₂, complete by
  then), forms the two 200-row halves of the second hidden layer from the two adjacency blocks, and
  stores the two halves of each result block: rows 0–199 and 200–399 of the μ block and of the
  log-variance block. It writes nothing else: the eleven input buffers and the scratch come back as
  they were, and each result buffer comes back with two pieces written over whatever it held.
-/
import proofs.«144098_g9328668967786_cont_9to1c4b_67_19_alg».proof.Proof.Gen.KernelIdeal.Skeleton
import proofs.«144098_g9328668967786_cont_9to1c4b_67_19_alg».proof.Proof.KConds
import Idealize.ShloMosaic.Lib.Tactic
import Idealize.ShloMosaic.Lib.Pipeline.Kit
import Idealize.ShloMosaic.Lib.Pipeline.Frame

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Phase 1 (not the seeding point, not phase 0): from the input buffers and the scratch at given contents and the two
    result buffers at anything, the body runs to the inputs and the scratch as they were and each result buffer with
    its two pieces written; the pieces are what the run finds. -/
noncomputable def runPhase1 (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : ¬condSeed i) (hp0 : ¬condPhase0 i) (hp1 : condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (xs : Vec F S2x10000x128 .f32) :
    Σ' (L11 : List (View.Piece (Elt F) S400x64 .f32)), { L12 : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ (∃ d, owns (c : Thread nD τ) arg13 fullShare d) ∗ (∃ d, owns (c : Thread nD τ) arg14 fullShare d)
            ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f L12)
                ∗ owns (c : Thread nD τ) arg15 fullShare xs) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg15.eq_unread hfS
    sl_exec (disch := first | exact hseed | exact hp0 | exact hp1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    iexists _; isplitr; · ipureintro; exact harg15.read_unread _
    iexact HS

end Cert.KernelIdeal.Frame

end
-- ==== Proof.KRunPhase0.lean ====
/-
  The body at a point of phase 0 other than the first, run once on any staging buffers.

  At such a point the body reads the first slab of the scratch (the first support S₁, stored whole at
  the first point), forms the two 200-row halves of the first hidden layer from the two adjacency
  blocks, multiplies each by W₂ and stores the two products into rows 400·i … 400·i+199 and
  400·i+200 … 400·i+399 of the scratch's second slab. The input buffers come back as they were; the two
  result buffers are not touched at all; the scratch comes back with two pieces written over what it held.
-/
import proofs.«144098_g9328668967786_cont_9to1c4b_67_19_alg».proof.Proof.Gen.KernelIdeal.Skeleton
import proofs.«144098_g9328668967786_cont_9to1c4b_67_19_alg».proof.Proof.KConds
import Idealize.ShloMosaic.Lib.Tactic
import Idealize.ShloMosaic.Lib.Pipeline.Kit
import Idealize.ShloMosaic.Lib.Pipeline.Frame

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Phase 0, not the seeding point: the inputs and the two result buffers at given contents, the scratch at a given
    buffer; the body runs to all of those as they were, the scratch with the pieces the run finds written. -/
noncomputable def runPhase0 (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : ¬condSeed i) (hp0 : condPhase0 i) (hp1 : ¬condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (y11 y12 : Vec F S400x64 .f32) (fS : arg15.view.ty.Contents (Elt F)) :
    { LS : List (View.Piece (Elt F) S2x10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare y11 ∗ owns (c : Thread nD τ) arg14 fullShare y12
            ∗ (arg15.view.loc (c : Thread nD τ) ↦[arg15.view.set]{fullShare} fS)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
                ∗ owns (c : Thread nD τ) arg13 fullShare y11 ∗ owns (c : Thread nD τ) arg14 fullShare y12
                ∗ (arg15.view.loc (c : Thread nD τ) ↦[arg15.view.set]{fullShare} arg15.view.writes (Elt F) fS LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HS, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hseed | exact hp0 | exact hp1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexact HS

end Cert.KernelIdeal.Frame

end
-- ==== Proof.KRunSeed.lean ====
/-
  The body at the first point of the grid, run once on any staging buffers.

  There the body first stores the whole first support S₁ = x · W₁ into the scratch's first slab, and then
  does what every point of phase 0 does with it: reads that slab back, forms the two halves of the first
  hidden layer, and stores their products with W₂ into the first 400 rows of the second slab. The scratch
  comes back with three pieces written over what it held; everything else as it was.
-/
import proofs.«144098_g9328668967786_cont_9to1c4b_67_19_alg».proof.Proof.Gen.KernelIdeal.Skeleton
import proofs.«144098_g9328668967786_cont_9to1c4b_67_19_alg».proof.Proof.KConds
import Idealize.ShloMosaic.Lib.Tactic
import Idealize.ShloMosaic.Lib.Pipeline.Kit
import Idealize.ShloMosaic.Lib.Pipeline.Frame

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The seeding point (which is in phase 0): as the other points of phase 0, the first slab stored first. -/
noncomputable def runSeed (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : condSeed i) (hp0 : condPhase0 i) (hp1 : ¬condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (y11 y12 : Vec F S400x64 .f32) (fS : arg15.view.ty.Contents (Elt F)) :
    { LS : List (View.Piece (Elt F) S2x10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare y11 ∗ owns (c : Thread nD τ) arg14 fullShare y12
            ∗ (arg15.view.loc (c : Thread nD τ) ↦[arg15.view.set]{fullShare} fS)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
                ∗ owns (c : Thread nD τ) arg13 fullShare y11 ∗ owns (c : Thread nD τ) arg14 fullShare y12
                ∗ (arg15.view.loc (c : Thread nD τ) ↦[arg15.view.set]{fullShare} arg15.view.writes (Elt F) fS LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HS, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hseed | exact hp0 | exact hp1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexact HS

end Cert.KernelIdeal.Frame

end
-- ==== Proof.KPieces.lean ====
/-
  What the body leaves in the buffers it writes, opened and read back.

  Each of the body's three cases leaves, in every buffer it stores to, a short list of pieces: a
  rectangle and the block stored through it, the last store first. Here the lists are written out
  with every input block named by the contents of its buffer, the slab of the scratch the body reads
  is given a name and read at an entry, and the two kinds of buffer the lists are written over are
  read back: a result block as its two halves of 200 rows, and the scratch after a step of the first
  phase as the two new row bands over whatever the other rows held.
-/
import proofs.«144098_g9328668967786_cont_9to1c4b_67_19_alg».proof.Proof.KRunPhase1
import proofs.«144098_g9328668967786_cont_9to1c4b_67_19_alg».proof.Proof.KRunPhase0
import proofs.«144098_g9328668967786_cont_9to1c4b_67_19_alg».proof.Proof.KRunSeed
import Idealize.ShloMosaic.Lib.Pipeline.Value
import Idealize.ShloMosaic.Lib.ValueIdx
import Idealize.ShloMosaic.Lib.WritesUnit

set_option maxRecDepth 16384

noncomputable section

namespace Cert.KernelIdeal.Frame

open Cert.KernelIdeal Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The slab of the scratch the body reads -/

/-- The page of the two-page scratch the body reads at a grid point: page 0 (the first support) in the first
    phase, page 1 (the second support) in the second. -/
def slabOf (M : Memref sig .tc .vmem S2x10000x128 .f32) (i : grid0.Coords) (f : M.view.ty.Contents (Elt F)) :
    Vec F S1x10000x128 .f32 :=
  View.readAt (Elt F) M.view (Rect.unit (s := S2x10000x128) (k0_off1 i) S1x10000x128.size (k0_off1_inb i)).toLoadRect f

/-- Entry (0, k, c) of the page read at a point whose page number is s is entry (s, k, c) of the scratch. -/
theorem slabOf_apply (M : Memref sig .tc .vmem S2x10000x128 .f32) (i : grid0.Coords) (f : M.view.ty.Contents (Elt F))
    (s : ℕ) (h : k0_off1 i = ![s, 0, 0]) (hs : s < 2) (k : Fin 10000) (c : Fin 128) :
    slabOf (F := F) M i f (ix3 (0 : Fin 1) k c) = M.view.read (Elt F) f (ix3 (⟨s, hs⟩ : Fin 2) k c) := by
  unfold slabOf
  rw [View.readAt_apply]
  refine congrArg (M.view.read (Elt F) f) (funext fun a => Fin.ext ?_)
  show (k0_off1 i) a + 1 * ((ix3 (0 : Fin 1) k c) a).val = ((ix3 (⟨s, hs⟩ : Fin 2) k c) a).val
  rw [h]
  match a with
  | ⟨0, _⟩ => show s + 1 * 0 = s; omega
  | ⟨1, _⟩ => show 0 + 1 * k.val = k.val; omega
  | ⟨2, _⟩ => show 0 + 1 * c.val = c.val; omega

/-! ## The lists of pieces each case leaves -/

/-- The zero offsets of a whole-block access, as the constant function. -/
theorem zeros2 : (![0, 0] : Fin 2 → ℕ) = fun _ => 0 := funext (Fin.forall_fin_two.mpr ⟨rfl, rfl⟩)

/-- A load of a whole buffer reads the block the buffer holds. -/
theorem load_whole {S : Shape} (M : Memref sig .tc .vmem S .f32) (hM : M.IsWhole) {off : Fin S.rank → ℕ}
    (hz : off = fun _ => 0) (inb : ∀ a, off a + S.size a ≤ S.size a) (x : Vec F S .f32) :
    View.readAt (Elt F) M.view (Rect.unit off S.size inb).toLoadRect (hM.unread x) = x := by
  rw [View.readAt_eq_ld, hM.read_unread, View.ld_unit_zero hz]

/-- In the second phase the μ buffer gets the two halves of its block: rows 200–399 from the second adjacency
    block (stored last), rows 0–199 from the first. -/
theorem runPhase1_fst (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : ¬condSeed i) (hp0 : ¬condPhase0 i) (hp1 : condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (xs : Vec F S2x10000x128 .f32) :
    (runPhase1 (F := F) c i arg2 harg2 arg3 harg3 arg4 harg4 arg5 harg5 arg6 harg6 arg7 harg7 arg8 harg8 arg9 harg9 arg10 harg10 arg11 harg11 arg12 harg12 arg13 harg13 arg14 harg14 arg15 harg15 hseed hp0 hp1 x0 x1 x2 x3 x4 x5 x6 x7 x8 x9 x10 xs).1
      = [⟨Rect.unit (s := S400x64) ![200, 0] S200x64.size inb_S400x64_S200x64_200_0,
            k0_pay9 (k0_pay5 i (slabOf arg15 i (harg15.unread xs)) x4 x6 x2) x7 x8⟩,
          ⟨Rect.unit (s := S400x64) ![0, 0] S200x64.size inb_S400x64_S200x64_0_0,
            k0_pay8 (k0_pay4 i (slabOf arg15 i (harg15.unread xs)) x4 x6 x1) x7 x8⟩] := by
  unfold runPhase1
  dsimp only
  simp only [load_whole arg3 harg3 zeros2, load_whole arg4 harg4 zeros2, load_whole arg6 harg6 zeros2,
    load_whole arg8 harg8 zeros2, load_whole arg9 harg9 zeros2, load_whole arg10 harg10 zeros2,
    load_whole arg11 harg11 zeros2, load_whole arg12 harg12 zeros2]
  rfl

/-- In the second phase the log-variance buffer gets the two halves of its block in the same way. -/
theorem runPhase1_snd (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : ¬condSeed i) (hp0 : ¬condPhase0 i) (hp1 : condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (xs : Vec F S2x10000x128 .f32) :
    (runPhase1 (F := F) c i arg2 harg2 arg3 harg3 arg4 harg4 arg5 harg5 arg6 harg6 arg7 harg7 arg8 harg8 arg9 harg9 arg10 harg10 arg11 harg11 arg12 harg12 arg13 harg13 arg14 harg14 arg15 harg15 hseed hp0 hp1 x0 x1 x2 x3 x4 x5 x6 x7 x8 x9 x10 xs).2.1
      = [⟨Rect.unit (s := S400x64) ![200, 0] S200x64.size inb_S400x64_S200x64_200_0,
            k0_pay11 (k0_pay5 i (slabOf arg15 i (harg15.unread xs)) x4 x6 x2) x9 x10⟩,
          ⟨Rect.unit (s := S400x64) ![0, 0] S200x64.size inb_S400x64_S200x64_0_0,
            k0_pay10 (k0_pay4 i (slabOf arg15 i (harg15.unread xs)) x4 x6 x1) x9 x10⟩] := by
  unfold runPhase1
  dsimp only
  simp only [load_whole arg3 harg3 zeros2, load_whole arg4 harg4 zeros2, load_whole arg6 harg6 zeros2,
    load_whole arg8 harg8 zeros2, load_whole arg9 harg9 zeros2, load_whole arg10 harg10 zeros2,
    load_whole arg11 harg11 zeros2, load_whole arg12 harg12 zeros2]
  rfl

/-- In the first phase, away from the first point, the scratch gets two row bands of the second support on its
    second page: the band from the second adjacency block (stored last) and the band from the first, each computed
    from the first page as the scratch held it. -/
theorem runPhase0_pieces (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : ¬condSeed i) (hp0 : condPhase0 i) (hp1 : ¬condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (y11 y12 : Vec F S400x64 .f32) (fS : arg15.view.ty.Contents (Elt F)) :
    (runPhase0 (F := F) c i arg2 harg2 arg3 harg3 arg4 harg4 arg5 harg5 arg6 harg6 arg7 harg7 arg8 harg8 arg9 harg9 arg10 harg10 arg11 harg11 arg12 harg12 arg13 harg13 arg14 harg14 arg15 harg15 hseed hp0 hp1 x0 x1 x2 x3 x4 x5 x6 x7 x8 x9 x10 y11 y12 fS).1
      = [⟨Rect.unit (s := S2x10000x128) (k0_off3 i) S1x200x128.size (k0_off3_inb i hp0),
            k0_pay7 i (slabOf arg15 i fS) x4 x6 x2 x5⟩,
          ⟨Rect.unit (s := S2x10000x128) (k0_off2 i) S1x200x128.size (k0_off2_inb i hp0),
            k0_pay6 i (slabOf arg15 i fS) x4 x6 x1 x5⟩] := by
  unfold runPhase0
  dsimp only
  simp only [load_whole arg3 harg3 zeros2, load_whole arg4 harg4 zeros2, load_whole arg6 harg6 zeros2,
    load_whole arg8 harg8 zeros2, load_whole arg7 harg7 zeros2]
  rfl

/-- The first support, stored whole on the first page of the scratch at the first point. -/
abbrev seedPiece (x0 : Vec F S10000x128 .f32) (x3 : Vec F S128x128 .f32) : View.Piece (Elt F) S2x10000x128 .f32 :=
  ⟨Rect.unit (s := S2x10000x128) ![0, 0, 0] S1x10000x128.size inb_S2x10000x128_S1x10000x128_0_0_0, k0_pay1 x0 x3⟩

/-- At the first point the scratch first gets the first support on its first page, then the two row bands of the
    second support, each computed from the first page as that first store left it. -/
theorem runSeed_pieces (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S400x64 .f32) (harg13 : arg13.IsWhole) (arg14 : Memref sig .tc .vmem S400x64 .f32) (harg14 : arg14.IsWhole) (arg15 : Memref sig .tc .vmem S2x10000x128 .f32) (harg15 : arg15.IsWhole)
    (hseed : condSeed i) (hp0 : condPhase0 i) (hp1 : ¬condPhase1 i)
    (x0 : Vec F S10000x128 .f32) (x1 : Vec F S200x10000 .f32) (x2 : Vec F S200x10000 .f32) (x3 : Vec F S128x128 .f32) (x4 : Vec F S1x128 .f32) (x5 : Vec F S128x128 .f32) (x6 : Vec F S1x128 .f32) (x7 : Vec F S128x64 .f32) (x8 : Vec F S1x64 .f32) (x9 : Vec F S128x64 .f32) (x10 : Vec F S1x64 .f32) (y11 y12 : Vec F S400x64 .f32) (fS : arg15.view.ty.Contents (Elt F)) :
    (runSeed (F := F) c i arg2 harg2 arg3 harg3 arg4 harg4 arg5 harg5 arg6 harg6 arg7 harg7 arg8 harg8 arg9 harg9 arg10 harg10 arg11 harg11 arg12 harg12 arg13 harg13 arg14 harg14 arg15 harg15 hseed hp0 hp1 x0 x1 x2 x3 x4 x5 x6 x7 x8 x9 x10 y11 y12 fS).1
      = [⟨Rect.unit (s := S2x10000x128) (k0_off3 i) S1x200x128.size (k0_off3_inb i hp0),
            k0_pay7 i (slabOf arg15 i (arg15.view.writes (Elt F) fS [seedPiece x0 x3])) x4 x6 x2 x5⟩,
          ⟨Rect.unit (s := S2x10000x128) (k0_off2 i) S1x200x128.size (k0_off2_inb i hp0),
            k0_pay6 i (slabOf arg15 i (arg15.view.writes (Elt F) fS [seedPiece x0 x3])) x4 x6 x1 x5⟩,
          seedPiece x0 x3] := by
  unfold runSeed
  dsimp only
  sl_unfold_run_names
  simp only [load_whole arg2 harg2 zeros2, load_whole arg5 harg5 zeros2, load_whole arg3 harg3 zeros2,
    load_whole arg4 harg4 zeros2, load_whole arg6 harg6 zeros2, load_whole arg8 harg8 zeros2,
    load_whole arg7 harg7 zeros2]
  rfl

/-! ## A result block read back -/

/-- Two blocks of 200 rows, one above the other. -/
def stackedHalves (a b : FVec F S200x64 .f32) : Vec F S400x64 .f32 := fun y =>
  if h : (y 0).val < 200 then a (ix2 (⟨(y 0).val, h⟩ : Fin 200) (⟨(y 1).val, (y 1).isLt⟩ : Fin 64))
  else b (ix2 (⟨(y 0).val - 200, by have h400 : (y 0).val < 400 := (y 0).isLt; omega⟩ : Fin 200)
    (⟨(y 1).val, (y 1).isLt⟩ : Fin 64))

/-- A 400-row buffer into which rows 0–199 and then rows 200–399 were stored reads as the two blocks, one above
    the other, whatever it held before. -/
theorem read_halves (M : Memref sig .tc .vmem S400x64 .f32) (f : M.view.ty.Contents (Elt F))
    (a b : FVec F S200x64 .f32) :
    M.view.read (Elt F) (M.view.writes (Elt F) f
        [⟨Rect.unit (s := S400x64) ![200, 0] S200x64.size inb_S400x64_S200x64_200_0, b⟩,
          ⟨Rect.unit (s := S400x64) ![0, 0] S200x64.size inb_S400x64_S200x64_0_0, a⟩])
      = stackedHalves a b := by
  funext y
  have h400 : (y 0).val < 400 := (y 0).isLt
  by_cases h : (y 0).val < 200
  · refine (View.read_writes_cons_unit_of_not_mem M.view f inb_S400x64_S200x64_200_0 b _ y rfl 0 (Or.inl h)).trans ?_
    refine (View.read_writes_cons_unit_of_mem M.view f inb_S400x64_S200x64_0_0 a [] y
      (ix2 (⟨(y 0).val, h⟩ : Fin 200) (⟨(y 1).val, (y 1).isLt⟩ : Fin 64)) rfl (fun ax => by
        match ax with
        | ⟨0, _⟩ => show (y 0).val = 0 + (y 0).val; omega
        | ⟨1, _⟩ => show (y 1).val = 0 + (y 1).val; omega)).trans ?_
    unfold stackedHalves
    rw [dif_pos h]
  · refine (View.read_writes_cons_unit_of_mem M.view f inb_S400x64_S200x64_200_0 b _ y
      (ix2 (⟨(y 0).val - 200, by omega⟩ : Fin 200) (⟨(y 1).val, (y 1).isLt⟩ : Fin 64)) rfl (fun ax => by
        match ax with
        | ⟨0, _⟩ => show (y 0).val = 200 + ((y 0).val - 200); omega
        | ⟨1, _⟩ => show (y 1).val = 0 + (y 1).val; omega)).trans ?_
    unfold stackedHalves
    rw [dif_neg h]

/-! ## The scratch after a step of the first phase

  At tile j the body stores two bands of 200 rows on the second page: rows 400 j … 400 j + 199 (from the first
  adjacency block) and rows 400 j + 200 … 400 j + 399 (from the second, stored last). The statements allow
  earlier stores T under the two bands: none away from the first point, the first support's page at the first. -/

/-- The first band reads the block stored from the first adjacency block. -/
theorem band_even (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (T : List (View.Piece (Elt F) S2x10000x128 .f32)) (p : Fin 200) (c : Fin 128) (hr : 400 * j + p.val < 10000) :
    M.view.read (Elt F) (M.view.writes (Elt F) fS (⟨Rect.unit (s := S2x10000x128) (k0_off3 i) S1x200x128.size (k0_off3_inb i hp0), b⟩ :: ⟨Rect.unit (s := S2x10000x128) (k0_off2 i) S1x200x128.size (k0_off2_inb i hp0), a⟩ :: T))
        (ix3 (1 : Fin 2) (⟨400 * j + p.val, hr⟩ : Fin 10000) c)
      = a (ix3 (0 : Fin 1) p c) := by
  refine (View.read_writes_cons_unit_of_not_mem M.view fS (k0_off3_inb i hp0) b _ _ ho 1 (Or.inl ?_)).trans ?_
  · show 400 * j + p.val < 400 * j + 200
    have := p.isLt; omega
  · exact View.read_writes_cons_unit_of_mem M.view fS (k0_off2_inb i hp0) a T _ (ix3 (0 : Fin 1) p c) he
      (fun ax => by
      match ax with
      | ⟨0, _⟩ => rfl
      | ⟨1, _⟩ => rfl
      | ⟨2, _⟩ => show c.val = 0 + c.val; omega)

/-- The second band reads the block stored from the second adjacency block. -/
theorem band_odd (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (T : List (View.Piece (Elt F) S2x10000x128 .f32)) (p : Fin 200) (c : Fin 128) (hr : 400 * j + 200 + p.val < 10000) :
    M.view.read (Elt F) (M.view.writes (Elt F) fS (⟨Rect.unit (s := S2x10000x128) (k0_off3 i) S1x200x128.size (k0_off3_inb i hp0), b⟩ :: ⟨Rect.unit (s := S2x10000x128) (k0_off2 i) S1x200x128.size (k0_off2_inb i hp0), a⟩ :: T))
        (ix3 (1 : Fin 2) (⟨400 * j + 200 + p.val, hr⟩ : Fin 10000) c)
      = b (ix3 (0 : Fin 1) p c) :=
  View.read_writes_cons_unit_of_mem M.view fS (k0_off3_inb i hp0) b _ _ (ix3 (0 : Fin 1) p c) ho
    (fun ax => by
      match ax with
      | ⟨0, _⟩ => rfl
      | ⟨1, _⟩ => rfl
      | ⟨2, _⟩ => show c.val = 0 + c.val; omega)

/-- Every entry outside the two bands reads what the earlier stores left. -/
theorem band_rest (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (T : List (View.Piece (Elt F) S2x10000x128 .f32))
    (y : S2x10000x128.Idx) (hy : ¬((y 0).val = 1 ∧ 400 * j ≤ (y 1).val ∧ (y 1).val < 400 * j + 400)) :
    M.view.read (Elt F) (M.view.writes (Elt F) fS (⟨Rect.unit (s := S2x10000x128) (k0_off3 i) S1x200x128.size (k0_off3_inb i hp0), b⟩ :: ⟨Rect.unit (s := S2x10000x128) (k0_off2 i) S1x200x128.size (k0_off2_inb i hp0), a⟩ :: T)) y
      = M.view.read (Elt F) (M.view.writes (Elt F) fS T) y := by
  have h2 : (y 0).val < 2 := (y 0).isLt
  by_cases h0 : (y 0).val = 1
  · have h1 : (y 1).val < 400 * j ∨ 400 * j + 400 ≤ (y 1).val := by omega
    refine (View.read_writes_cons_unit_of_not_mem M.view fS (k0_off3_inb i hp0) b _ y ho 1 ?_).trans ?_
    · show (y 1).val < 400 * j + 200 ∨ 400 * j + 200 + 200 ≤ (y 1).val
      omega
    refine View.read_writes_cons_unit_of_not_mem M.view fS (k0_off2_inb i hp0) a T y he 1 ?_
    show (y 1).val < 400 * j ∨ 400 * j + 200 ≤ (y 1).val
    omega
  · refine (View.read_writes_cons_unit_of_not_mem M.view fS (k0_off3_inb i hp0) b _ y ho 0 (Or.inl ?_)).trans ?_
    · show (y 0).val < 1
      omega
    refine View.read_writes_cons_unit_of_not_mem M.view fS (k0_off2_inb i hp0) a T y he 0 (Or.inl ?_)
    show (y 0).val < 1
    omega

/-- Away from the first point: the first band. -/
theorem step_even (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (p : Fin 200) (c : Fin 128) (hr : 400 * j + p.val < 10000) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩])
        (ix3 (1 : Fin 2) (⟨400 * j + p.val, hr⟩ : Fin 10000) c)
      = a (ix3 (0 : Fin 1) p c) :=
  band_even M fS i hp0 j he ho a b [] p c hr

/-- Away from the first point: the second band. -/
theorem step_odd (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (p : Fin 200) (c : Fin 128) (hr : 400 * j + 200 + p.val < 10000) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩])
        (ix3 (1 : Fin 2) (⟨400 * j + 200 + p.val, hr⟩ : Fin 10000) c)
      = b (ix3 (0 : Fin 1) p c) :=
  band_odd M fS i hp0 j he ho a b [] p c hr

/-- Away from the first point: every entry outside the two bands keeps what the scratch held. -/
theorem step_rest (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (y : S2x10000x128.Idx) (hy : ¬((y 0).val = 1 ∧ 400 * j ≤ (y 1).val ∧ (y 1).val < 400 * j + 400)) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩]) y
      = M.view.read (Elt F) fS y :=
  band_rest M fS i hp0 j he ho a b [] y hy

/-- At the first point: the first page reads the block stored on it first. -/
theorem seed_slab (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (w : FVec F S1x10000x128 .f32) (k : Fin 10000) (c : Fin 128) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩, ⟨Rect.unit (s := S2x10000x128) ![0, 0, 0] S1x10000x128.size inb_S2x10000x128_S1x10000x128_0_0_0, w⟩])
        (ix3 (0 : Fin 2) k c)
      = w (ix3 (0 : Fin 1) k c) := by
  refine (band_rest M fS i hp0 j he ho a b [⟨Rect.unit (s := S2x10000x128) ![0, 0, 0] S1x10000x128.size inb_S2x10000x128_S1x10000x128_0_0_0, w⟩] (ix3 (0 : Fin 2) k c) (fun h => Nat.zero_ne_one h.1)).trans ?_
  exact View.read_writes_cons_unit_of_mem M.view fS inb_S2x10000x128_S1x10000x128_0_0_0 w [] _ (ix3 (0 : Fin 1) k c) rfl
    (fun ax => by
      match ax with
      | ⟨0, _⟩ => rfl
      | ⟨1, _⟩ => show k.val = 0 + k.val; omega
      | ⟨2, _⟩ => show c.val = 0 + c.val; omega)

/-- At the first point: the first band. -/
theorem seed_even (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (w : FVec F S1x10000x128 .f32) (p : Fin 200) (c : Fin 128) (hr : 400 * j + p.val < 10000) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩, ⟨Rect.unit (s := S2x10000x128) ![0, 0, 0] S1x10000x128.size inb_S2x10000x128_S1x10000x128_0_0_0, w⟩])
        (ix3 (1 : Fin 2) (⟨400 * j + p.val, hr⟩ : Fin 10000) c)
      = a (ix3 (0 : Fin 1) p c) :=
  band_even M fS i hp0 j he ho a b [⟨Rect.unit (s := S2x10000x128) ![0, 0, 0] S1x10000x128.size inb_S2x10000x128_S1x10000x128_0_0_0, w⟩] p c hr

/-- At the first point: the second band. -/
theorem seed_odd (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (w : FVec F S1x10000x128 .f32) (p : Fin 200) (c : Fin 128) (hr : 400 * j + 200 + p.val < 10000) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩, ⟨Rect.unit (s := S2x10000x128) ![0, 0, 0] S1x10000x128.size inb_S2x10000x128_S1x10000x128_0_0_0, w⟩])
        (ix3 (1 : Fin 2) (⟨400 * j + 200 + p.val, hr⟩ : Fin 10000) c)
      = b (ix3 (0 : Fin 1) p c) :=
  band_odd M fS i hp0 j he ho a b [⟨Rect.unit (s := S2x10000x128) ![0, 0, 0] S1x10000x128.size inb_S2x10000x128_S1x10000x128_0_0_0, w⟩] p c hr

/-- At the first point: the rest of the second page keeps what the scratch held. -/
theorem seed_rest (M : Memref sig .tc .vmem S2x10000x128 .f32) (fS : M.view.ty.Contents (Elt F)) (i : grid0.Coords)
    (hp0 : condPhase0 i) (j : ℕ) (he : k0_off2 i = ![1, 400 * j, 0]) (ho : k0_off3 i = ![1, 400 * j + 200, 0])
    (a b : FVec F S1x200x128 .f32)
    (w : FVec F S1x10000x128 .f32) (y : S2x10000x128.Idx) (h0 : (y 0).val = 1)
    (h1 : (y 1).val < 400 * j ∨ 400 * j + 400 ≤ (y 1).val) :
    M.view.read (Elt F) (M.view.writes (Elt F) fS [⟨Rect.unit (s := S2x10000x128) (k0_off3 i) S1x200x128.size (k0_off3_inb i hp0), b⟩, ⟨Rect.unit (s := S2x10000x128) (k0_off2 i) S1x200x128.size (k0_off2_inb i hp0), a⟩, ⟨Rect.unit (s := S2x10000x128) ![0, 0, 0] S1x10000x128.size inb_S2x10000x128_S1x10000x128_0_0_0, w⟩]) y
      = M.view.read (Elt F) fS y := by
  refine (band_rest M fS i hp0 j he ho a b [⟨Rect.unit (s := S2x10000x128) ![0, 0, 0] S1x10000x128.size inb_S2x10000x128_S1x10000x128_0_0_0, w⟩] y (fun h => by omega)).trans ?_
  refine View.read_writes_cons_unit_of_not_mem M.view fS inb_S2x10000x128_S1x10000x128_0_0_0 w [] y rfl 0 (Or.inr ?_)
  show 0 + 1 ≤ (y 0).val
  omega

end Cert.KernelIdeal.Frame

end
-- ==== Proof.KInv.lean ====
/-
  How the invariant moves through a point, and what a point of phase 1 leaves in the result buffers.

  At the first point the body stores the whole first slab and the first tile of the second, so afterwards
  the scratch agrees with G on the first slab and on rows 0 … 399 of the second, whatever it held before.
  At a later point of phase 0 the body reads the first slab, which by the invariant is the first support,
  so the two pieces it stores are tile i of G; nothing else changes, and the agreement grows by 400 rows.
  From point 25 on the agreement is total; the body of phase 1 reads the second slab — the second
  support — and does not write the scratch, and the two halves it stores into each result buffer are the
  result block of the model.
-/
import proofs.«144098_g9328668967786_cont_9to1c4b_67_19_alg».proof.Proof.KModel
import proofs.«144098_g9328668967786_cont_9to1c4b_67_19_alg».proof.Proof.KRunPhase1
import proofs.«144098_g9328668967786_cont_9to1c4b_67_19_alg».proof.Proof.KRunPhase0
import proofs.«144098_g9328668967786_cont_9to1c4b_67_19_alg».proof.Proof.KRunSeed
import proofs.«144098_g9328668967786_cont_9to1c4b_67_19_alg».proof.Proof.KPieces

set_option maxRecDepth 16384

noncomputable section

namespace Cert.KernelIdeal.Frame

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The model of the scratch, at an entry given by its coordinates -/

/-- On the first page the model is the first support. -/
theorem scrG_page0 (m : (ℓ : Loc nD τ sig) → Buf (Elt F) ℓ) (c : Dev nD) (k : Fin 10000) (c' : Fin 128) :
    scrG m c (ix3 (0 : Fin 2) k c') = slab1 m c (ix3 (0 : Fin 1) k c') := by
  unfold scrG
  exact if_pos rfl

/-- On the second page it is the second support. -/
theorem scrG_page1 (m : (ℓ : Loc nD τ sig) → Buf (Elt F) ℓ) (c : Dev nD) (k : Fin 10000) (c' : Fin 128) :
    scrG m c (ix3 (1 : Fin 2) k c') = slab2 m c (ix3 (0 : Fin 1) k c') := by
  unfold scrG
  exact if_neg Nat.one_ne_zero

/-- The tile of a row, and the row within it: the same tile and the same entry, however the two are written. -/
theorem tileE_congr (m : (ℓ : Loc nD τ sig) → Buf (Elt F) ℓ) (c : Dev nD) {j j' : ℕ} (e : j = j') (hj : j < 25) (hj' : j' < 25)
    {x x' : S1x200x128.Idx} (ex : x = x') : tileE m c j hj x = tileE m c j' hj' x' := by
  subst e; subst ex; rfl
theorem tileO_congr (m : (ℓ : Loc nD τ sig) → Buf (Elt F) ℓ) (c : Dev nD) {j j' : ℕ} (e : j = j') (hj : j < 25) (hj' : j' < 25)
    {x x' : S1x200x128.Idx} (ex : x = x') : tileO m c j hj x = tileO m c j' hj' x' := by
  subst e; subst ex; rfl

/-- Row 400 j + p of the second support, p < 200, is row p of the first band of tile j. -/
theorem slab2_even (m : (ℓ : Loc nD τ sig) → Buf (Elt F) ℓ) (c : Dev nD) (j : ℕ) (hj : j < 25) (p : Fin 200) (c' : Fin 128) (hr : 400 * j + p.val < 10000) :
    slab2 m c (ix3 (0 : Fin 1) (⟨400 * j + p.val, hr⟩ : Fin 10000) c') = tileE m c j hj (ix3 (0 : Fin 1) p c') := by
  have hp := p.isLt
  have hmod : (400 * j + p.val) % 400 < 200 := by omega
  unfold slab2
  refine (dif_pos hmod).trans ?_
  refine tileE_congr m c (by show (400 * j + p.val) / 400 = j; omega) _ hj (funext fun a => ?_)
  match a with
  | ⟨0, _⟩ => rfl
  | ⟨1, _⟩ => exact Fin.ext (by show (400 * j + p.val) % 400 = p.val; omega)
  | ⟨2, _⟩ => rfl

/-- Row 400 j + 200 + p, p < 200, is row p of the second band of tile j. -/
theorem slab2_odd (m : (ℓ : Loc nD τ sig) → Buf (Elt F) ℓ) (c : Dev nD) (j : ℕ) (hj : j < 25) (p : Fin 200) (c' : Fin 128) (hr : 400 * j + 200 + p.val < 10000) :
    slab2 m c (ix3 (0 : Fin 1) (⟨400 * j + 200 + p.val, hr⟩ : Fin 10000) c') = tileO m c j hj (ix3 (0 : Fin 1) p c') := by
  have hp := p.isLt
  have hmod : ¬((400 * j + 200 + p.val) % 400 < 200) := by omega
  unfold slab2
  refine (dif_neg hmod).trans ?_
  refine tileO_congr m c (by show (400 * j + 200 + p.val) / 400 = j; omega) _ hj (funext fun a => ?_)
  match a with
  | ⟨0, _⟩ => rfl
  | ⟨1, _⟩ => exact Fin.ext (by show (400 * j + 200 + p.val) % 400 - 200 = p.val; omega)
  | ⟨2, _⟩ => rfl

/-- The bands of tile t are what the body computes at point t from the first support. -/
theorem tileE_at (m : (ℓ : Loc nD τ sig) → Buf (Elt F) ℓ) (c : Dev nD) (t : Fin cfg0.N) (h25 : t.val < 25) :
    tileE m c t.val h25 = k0_pay6 (grid0.coords t) (slab1 m c) (iblk m c 4 t) (iblk m c 6 t) (iblk m c 1 t) (iblk m c 5 t) := by
  unfold tileE; rfl
theorem tileO_at (m : (ℓ : Loc nD τ sig) → Buf (Elt F) ℓ) (c : Dev nD) (t : Fin cfg0.N) (h25 : t.val < 25) :
    tileO m c t.val h25 = k0_pay7 (grid0.coords t) (slab1 m c) (iblk m c 4 t) (iblk m c 6 t) (iblk m c 2 t) (iblk m c 5 t) := by
  unfold tileO; rfl

/-- An entry of the second page in the rows of tile j lies in its first band or in its second. -/
theorem tile_cases (y : S2x10000x128.Idx) (j : ℕ) (h0 : (y 0).val = 1) (hlo : 400 * j ≤ (y 1).val)
    (hhi : (y 1).val < 400 * j + 400) :
    (∃ (p : Fin 200) (c' : Fin 128) (hr : 400 * j + p.val < 10000), y = ix3 (1 : Fin 2) (⟨400 * j + p.val, hr⟩ : Fin 10000) c')
      ∨ (∃ (p : Fin 200) (c' : Fin 128) (hr : 400 * j + 200 + p.val < 10000),
          y = ix3 (1 : Fin 2) (⟨400 * j + 200 + p.val, hr⟩ : Fin 10000) c') := by
  have h1 : (y 1).val < 10000 := (y 1).isLt
  by_cases hb : (y 1).val < 400 * j + 200
  · refine Or.inl ⟨⟨(y 1).val - 400 * j, by omega⟩, ⟨(y 2).val, (y 2).isLt⟩, by show 400 * j + ((y 1).val - 400 * j) < 10000; omega, ?_⟩
    funext a
    match a with
    | ⟨0, _⟩ => exact Fin.ext h0
    | ⟨1, _⟩ => exact Fin.ext (by show (y 1).val = 400 * j + ((y 1).val - 400 * j); omega)
    | ⟨2, _⟩ => rfl
  · refine Or.inr ⟨⟨(y 1).val - 400 * j - 200, by omega⟩, ⟨(y 2).val, (y 2).isLt⟩, by show 400 * j + 200 + ((y 1).val - 400 * j - 200) < 10000; omega, ?_⟩
    funext a
    match a with
    | ⟨0, _⟩ => exact Fin.ext h0
    | ⟨1, _⟩ => exact Fin.ext (by show (y 1).val = 400 * j + 200 + ((y 1).val - 400 * j - 200); omega)
    | ⟨2, _⟩ => rfl

/-- The agreement grows by tile t: contents that read the two bands of tile t on its rows and agree with the
    model on what was stored before agree with it on what is stored after. -/
theorem inv_tile (m : (ℓ : Loc nD τ sig) → Buf (Elt F) ℓ) (c : Dev nD) (t : Fin cfg0.N) (h25 : t.val < 25) (g : S2x10000x128.Idx → Elt F .f32)
    (hE : ∀ (p : Fin 200) (c' : Fin 128) (hr : 400 * t.val + p.val < 10000),
      g (ix3 (1 : Fin 2) (⟨400 * t.val + p.val, hr⟩ : Fin 10000) c') = tileE m c t.val h25 (ix3 (0 : Fin 1) p c'))
    (hO : ∀ (p : Fin 200) (c' : Fin 128) (hr : 400 * t.val + 200 + p.val < 10000),
      g (ix3 (1 : Fin 2) (⟨400 * t.val + 200 + p.val, hr⟩ : Fin 10000) c') = tileO m c t.val h25 (ix3 (0 : Fin 1) p c'))
    (hR : ∀ y : S2x10000x128.Idx, ((y 0).val = 0 ∨ ((y 0).val = 1 ∧ (y 1).val < 400 * t.val)) → g y = scrG m c y)
    (y : S2x10000x128.Idx)
    (hy : ((y 0).val = 0 ∧ 1 ≤ t.val + 1) ∨ ((y 0).val = 1 ∧ (y 1).val < 400 * (t.val + 1))) : g y = scrG m c y := by
  rcases hy with ⟨h0, _⟩ | ⟨h0, h1⟩
  · exact hR y (Or.inl h0)
  · by_cases hb : (y 1).val < 400 * t.val
    · exact hR y (Or.inr ⟨h0, hb⟩)
    · rcases tile_cases y t.val h0 (by omega) (by omega) with ⟨p, c', hr, rfl⟩ | ⟨p, c', hr, rfl⟩
      · rw [hE p c' hr, scrG_page1, slab2_even m c t.val h25 p c' hr]
      · rw [hO p c' hr, scrG_page1, slab2_odd m c t.val h25 p c' hr]

/-! ## The page the body reads, identified -/

/-- The grid has fifty points. -/
theorem lt_fifty (t : Fin cfg0.N) : t.val < 50 := lt_of_lt_of_eq t.isLt N_0

/-- In the second phase the page read is the second support. -/
theorem slab_phase1 (m : (ℓ : Loc nD τ sig) → Buf (Elt F) ℓ) (c : Dev nD) (t : Fin cfg0.N) (ht : 25 ≤ t.val)
    (fS : (scM : Memref sig .tc .vmem S2x10000x128 .f32).view.ty.Contents (Elt F)) (hI : Inv m c t.val fS) :
    slabOf (F := F) scM (grid0.coords t) (scM_whole.unread ((scM : Memref sig .tc .vmem S2x10000x128 .f32).view.read (Elt F) fS)) = slab2 m c := by
  have h50 := lt_fifty t
  funext y
  obtain ⟨u, k, c', rfl⟩ : ∃ (u : Fin 1) (k : Fin 10000) (c' : Fin 128), y = ix3 u k c' := ⟨y 0, y 1, y 2, eq_ix3 y⟩
  obtain rfl : u = 0 := Subsingleton.elim _ _
  have hs : t.val / 25 < 2 := by omega
  have e : (ix3 (⟨t.val / 25, hs⟩ : Fin 2) k c' : S2x10000x128.Idx) = ix3 (1 : Fin 2) k c' := by
    have h1 : t.val / 25 = 1 := by omega
    funext a
    match a with
    | ⟨0, _⟩ => exact Fin.ext h1
    | ⟨1, _⟩ => rfl
    | ⟨2, _⟩ => rfl
  rw [slabOf_apply scM (grid0.coords t) _ (t.val / 25) (off_slab t) hs k c', scM_whole.read_unread, e,
    hI _ (Or.inr ⟨rfl, by show k.val < 400 * t.val; have := k.isLt; omega⟩), scrG_page1]

/-- In the first phase, after the first point, the page read is the first support. -/
theorem slab_phase0 (m : (ℓ : Loc nD τ sig) → Buf (Elt F) ℓ) (c : Dev nD) (t : Fin cfg0.N) (h1 : 1 ≤ t.val) (h25 : t.val < 25)
    (fS : (scM : Memref sig .tc .vmem S2x10000x128 .f32).view.ty.Contents (Elt F)) (hI : Inv m c t.val fS) :
    slabOf (F := F) scM (grid0.coords t) fS = slab1 m c := by
  funext y
  obtain ⟨u, k, c', rfl⟩ : ∃ (u : Fin 1) (k : Fin 10000) (c' : Fin 128), y = ix3 u k c' := ⟨y 0, y 1, y 2, eq_ix3 y⟩
  obtain rfl : u = 0 := Subsingleton.elim _ _
  have hs : t.val / 25 < 2 := by omega
  have e : (ix3 (⟨t.val / 25, hs⟩ : Fin 2) k c' : S2x10000x128.Idx) = ix3 (0 : Fin 2) k c' := by
    have h0 : t.val / 25 = 0 := by omega
    funext a
    match a with
    | ⟨0, _⟩ => exact Fin.ext h0
    | ⟨1, _⟩ => rfl
    | ⟨2, _⟩ => rfl
  rw [slabOf_apply scM (grid0.coords t) _ (t.val / 25) (off_slab t) hs k c', e,
    hI _ (Or.inl ⟨rfl, h1⟩), scrG_page0]

/-- The first support is what the first point computes from its blocks. -/
theorem slab1_at (m : (ℓ : Loc nD τ sig) → Buf (Elt F) ℓ) (c : Dev nD) (t : Fin cfg0.N) (h0 : t.val = 0) :
    k0_pay1 (iblk m c 0 t) (iblk m c 3 t) = slab1 m c := by
  obtain rfl : t = pt 0 (by decide) := Fin.ext h0
  rfl

/-- At the first point the page read, after the store just made, is the first support. -/
theorem slab_seed (m : (ℓ : Loc nD τ sig) → Buf (Elt F) ℓ) (c : Dev nD) (t : Fin cfg0.N) (h0 : t.val = 0)
    (fS : (scM : Memref sig .tc .vmem S2x10000x128 .f32).view.ty.Contents (Elt F)) :
    slabOf (F := F) scM (grid0.coords t)
        ((scM : Memref sig .tc .vmem S2x10000x128 .f32).view.writes (Elt F) fS [seedPiece (iblk m c 0 t) (iblk m c 3 t)])
      = slab1 m c := by
  funext y
  obtain ⟨u, k, c', rfl⟩ : ∃ (u : Fin 1) (k : Fin 10000) (c' : Fin 128), y = ix3 u k c' := ⟨y 0, y 1, y 2, eq_ix3 y⟩
  obtain rfl : u = 0 := Subsingleton.elim _ _
  have hs : t.val / 25 < 2 := by omega
  have e : (ix3 (⟨t.val / 25, hs⟩ : Fin 2) k c' : S2x10000x128.Idx) = ix3 (0 : Fin 2) k c' := by
    have h0' : t.val / 25 = 0 := by omega
    funext a
    match a with
    | ⟨0, _⟩ => exact Fin.ext h0'
    | ⟨1, _⟩ => rfl
    | ⟨2, _⟩ => rfl
  rw [slabOf_apply scM (grid0.coords t) _ (t.val / 25) (off_slab t) hs k c', e, ← slab1_at m c t h0]
  exact View.read_writes_cons_unit_of_mem (scM : Memref sig .tc .vmem S2x10000x128 .f32).view fS inb_S2x10000x128_S1x10000x128_0_0_0
    (k0_pay1 (iblk m c 0 t) (iblk m c 3 t)) [] _ (ix3 (0 : Fin 1) k c') rfl (fun ax => by
      match ax with
      | ⟨0, _⟩ => rfl
      | ⟨1, _⟩ => show k.val = 0 + k.val; omega
      | ⟨2, _⟩ => show c'.val = 0 + c'.val; omega)

/-- The offsets of the two bands at a point of the first phase. -/
theorem off_even_at (t : Fin cfg0.N) (h25 : t.val < 25) : k0_off2 (grid0.coords t) = ![1, 400 * t.val, 0] := by
  have h := off_even t
  rwa [Nat.mod_eq_of_lt h25] at h
theorem off_odd_at (t : Fin cfg0.N) (h25 : t.val < 25) : k0_off3 (grid0.coords t) = ![1, 400 * t.val + 200, 0] := by
  have h := off_odd t
  rwa [Nat.mod_eq_of_lt h25] at h

/-- From point 25 on the agreement is total, so it survives any step that leaves what the scratch reads as unchanged. -/
theorem inv_step_phase1 (m : (ℓ : Loc nD τ sig) → Buf (Elt F) ℓ) (c : Dev nD) (t : Fin cfg0.N) (ht : 25 ≤ t.val)
    (fS fS' : (scM : Memref sig .tc .vmem S2x10000x128 .f32).view.ty.Contents (Elt F)) (hI : Inv m c t.val fS)
    (hr : (scM : Memref sig .tc .vmem S2x10000x128 .f32).view.read (Elt F) fS' = (scM : Memref sig .tc .vmem S2x10000x128 .f32).view.read (Elt F) fS) :
    Inv m c (t.val + 1) fS' := by
  intro y hy
  have h1 : (y 1).val < 10000 := (y 1).isLt
  refine (congrFun hr y).trans (hI y ?_)
  rcases hy with ⟨h0, _⟩ | ⟨h0, _⟩
  · exact Or.inl ⟨h0, by omega⟩
  · exact Or.inr ⟨h0, by omega⟩

/-- What a point of phase 1 leaves in the first result buffer is the model's μ block; -/
theorem out11_readback (m : (ℓ : Loc nD τ sig) → Buf (Elt F) ℓ) (c : Dev nD) (t : Fin cfg0.N) (ht : 25 ≤ t.val)
    (hseed : ¬condSeed (grid0.coords t)) (hp0 : ¬condPhase0 (grid0.coords t)) (hp1 : condPhase1 (grid0.coords t))
    (fS : (scM : Memref sig .tc .vmem S2x10000x128 .f32).view.ty.Contents (Elt F)) (hI : Inv m c t.val fS) (e : (ms11 t).view.ty.Contents (Elt F)) :
    (ms11 t).view.read (Elt F) ((ms11 t).view.writes (Elt F) e
      (runPhase1 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) ((scM : Memref sig .tc .vmem S2x10000x128 .f32).view.read (Elt F) fS)).1) = out11 m c t := by
  rw [runPhase1_fst, read_halves, slab_phase1 m c t ht fS hI]
  rfl

/-- and in the second, the log-variance block. -/
theorem out12_readback (m : (ℓ : Loc nD τ sig) → Buf (Elt F) ℓ) (c : Dev nD) (t : Fin cfg0.N) (ht : 25 ≤ t.val)
    (hseed : ¬condSeed (grid0.coords t)) (hp0 : ¬condPhase0 (grid0.coords t)) (hp1 : condPhase1 (grid0.coords t))
    (fS : (scM : Memref sig .tc .vmem S2x10000x128 .f32).view.ty.Contents (Elt F)) (hI : Inv m c t.val fS) (e : (ms12 t).view.ty.Contents (Elt F)) :
    (ms12 t).view.read (Elt F) ((ms12 t).view.writes (Elt F) e
      (runPhase1 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) ((scM : Memref sig .tc .vmem S2x10000x128 .f32).view.read (Elt F) fS)).2.1) = out12 m c t := by
  rw [runPhase1_snd, read_halves, slab_phase1 m c t ht fS hI]
  rfl

/-- A point of phase 0 after the first extends the agreement by its tile. -/
theorem inv_step_phase0 (m : (ℓ : Loc nD τ sig) → Buf (Elt F) ℓ) (c : Dev nD) (t : Fin cfg0.N) (h1 : 1 ≤ t.val) (h25 : t.val < 25)
    (hseed : ¬condSeed (grid0.coords t)) (hp0 : condPhase0 (grid0.coords t)) (hp1 : ¬condPhase1 (grid0.coords t))
    (y11 y12 : Vec F S400x64 .f32) (fS : (scM : Memref sig .tc .vmem S2x10000x128 .f32).view.ty.Contents (Elt F)) (hI : Inv m c t.val fS) :
    Inv m c (t.val + 1) ((scM : Memref sig .tc .vmem S2x10000x128 .f32).view.writes (Elt F) fS
      (runPhase0 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) y11 y12 fS).1) := by
  rw [runPhase0_pieces, slab_phase0 m c t h1 h25 fS hI]
  have he := off_even_at t h25
  have ho := off_odd_at t h25
  exact inv_tile m c t h25 _
    (fun p c' hr => (step_even scM fS (grid0.coords t) hp0 t.val he ho _ _ p c' hr).trans
      (congrFun (tileE_at m c t h25).symm _))
    (fun p c' hr => (step_odd scM fS (grid0.coords t) hp0 t.val he ho _ _ p c' hr).trans
      (congrFun (tileO_at m c t h25).symm _))
    (fun y hy => (step_rest scM fS (grid0.coords t) hp0 t.val he ho _ _ y (fun hc => by omega)).trans
      (hI y (by
        rcases hy with h | h
        · exact Or.inl ⟨h, h1⟩
        · exact Or.inr h)))

/-- The first point establishes it, whatever the scratch held. -/
theorem inv_step_seed (m : (ℓ : Loc nD τ sig) → Buf (Elt F) ℓ) (c : Dev nD) (t : Fin cfg0.N) (h0 : t.val = 0)
    (hseed : condSeed (grid0.coords t)) (hp0 : condPhase0 (grid0.coords t)) (hp1 : ¬condPhase1 (grid0.coords t))
    (y11 y12 : Vec F S400x64 .f32) (fS : (scM : Memref sig .tc .vmem S2x10000x128 .f32).view.ty.Contents (Elt F)) :
    Inv m c (t.val + 1) ((scM : Memref sig .tc .vmem S2x10000x128 .f32).view.writes (Elt F) fS
      (runSeed (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) y11 y12 fS).1) := by
  have h25 : t.val < 25 := by omega
  rw [runSeed_pieces, slab_seed m c t h0 fS]
  have he := off_even_at t h25
  have ho := off_odd_at t h25
  exact inv_tile m c t h25 _
    (fun p c' hr => (seed_even scM fS (grid0.coords t) hp0 t.val he ho _ _ _ p c' hr).trans
      (congrFun (tileE_at m c t h25).symm _))
    (fun p c' hr => (seed_odd scM fS (grid0.coords t) hp0 t.val he ho _ _ _ p c' hr).trans
      (congrFun (tileO_at m c t h25).symm _))
    (fun y hy => by
      rcases hy with h | ⟨_, h⟩
      · obtain ⟨u, k, c', rfl⟩ : ∃ (u : Fin 2) (k : Fin 10000) (c' : Fin 128), y = ix3 u k c' :=
          ⟨y 0, y 1, y 2, eq_ix3 y⟩
        obtain rfl : u = 0 := Fin.ext h
        rw [scrG_page0, ← slab1_at m c t h0]
        exact seed_slab scM fS (grid0.coords t) hp0 t.val he ho _ _ _ k c'
      · omega)

end Cert.KernelIdeal.Frame

end
-- ==== Proof.KBody.lean ====
/-
  The body's obligation to the region: at every point, from the invariant and every window's current
  buffer at what it then holds, the body runs to the invariant at the next point and every buffer at
  what the proof data says it leaves.

  The point's phase says which of the three runs applies. The input buffers hold their blocks and come
  back unchanged. In phase 0 the result buffers are handed back exactly as they were found, and the
  invariant moves by the tile the point stores (at the first point: is established). In phase 1 the
  scratch is read and comes back unchanged, and the two result buffers come back holding the result
  blocks of the model.
-/
import proofs.«144098_g9328668967786_cont_9to1c4b_67_19_alg».proof.Proof.KEnds
import proofs.«144098_g9328668967786_cont_9to1c4b_67_19_alg».proof.Proof.KInv

set_option maxRecDepth 16384

noncomputable section

namespace Cert.KernelIdeal.Frame

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body is called with at point t, the windows one by one; -/
def bodyPre (m : (ℓ : Loc nD τ sig) → Buf (Elt F) ℓ) (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ d, owns (c : Thread nD τ) (ms7 t) fullShare ((dat m c).before 7 t d))
    ∗ (∃ d, owns (c : Thread nD τ) (ms8 t) fullShare ((dat m c).before 8 t d))
    ∗ (∃ d, owns (c : Thread nD τ) (ms9 t) fullShare ((dat m c).before 9 t d))
    ∗ (∃ d, owns (c : Thread nD τ) (ms10 t) fullShare ((dat m c).before 10 t d))
    ∗ (∃ d, owns (c : Thread nD τ) (ms11 t) fullShare ((dat m c).before 11 t d))
    ∗ (∃ d, owns (c : Thread nD τ) (ms12 t) fullShare ((dat m c).before 12 t d)))

/-- and what it returns. -/
def bodyPost (m : (ℓ : Loc nD τ sig) → Buf (Elt F) ℓ) (c : Dev nD) (t : Fin cfg0.N) : sProp 𝕄 :=
  iprop((dat m c).Φ t.succ ∗ (dat m c).owesAt () t.succ ∗ (dat m c).leavesExact 0 t ∗ (dat m c).leavesExact 1 t ∗ (dat m c).leavesExact 2 t ∗ (dat m c).leavesExact 3 t ∗ (dat m c).leavesExact 4 t ∗ (dat m c).leavesExact 5 t ∗ (dat m c).leavesExact 6 t ∗ (dat m c).leavesExact 7 t ∗ (dat m c).leavesExact 8 t ∗ (dat m c).leavesExact 9 t ∗ (dat m c).leavesExact 10 t ∗ (dat m c).leavesExact 11 t ∗ (dat m c).leavesExact 12 t)

set_option maxHeartbeats 8000000 in
/-- The body at any point. -/
theorem sound_body (m : (ℓ : Loc nD τ sig) → Buf (Elt F) ℓ) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dat m c).owesAt () t.succ = (dat m c).owesAt () t.castSucc from rfl]
  rw [Phi_eq, Phi_eq]
  rw [show (dat m c).leavesExact 0 t = owns (c : Thread nD τ) (ms0 t) fullShare ((dat m c).after 0 t) from by
    unfold Dat.leavesExact; rw [show cfg0.idle 0 (cfg0.grid.coords t) = false from rfl], aft0]
  rw [show (dat m c).leavesExact 1 t = owns (c : Thread nD τ) (ms1 t) fullShare ((dat m c).after 1 t) from by
    unfold Dat.leavesExact; rw [show cfg0.idle 1 (cfg0.grid.coords t) = false from rfl], aft1]
  rw [show (dat m c).leavesExact 2 t = owns (c : Thread nD τ) (ms2 t) fullShare ((dat m c).after 2 t) from by
    unfold Dat.leavesExact; rw [show cfg0.idle 2 (cfg0.grid.coords t) = false from rfl], aft2]
  rw [show (dat m c).leavesExact 3 t = owns (c : Thread nD τ) (ms3 t) fullShare ((dat m c).after 3 t) from by
    unfold Dat.leavesExact; rw [show cfg0.idle 3 (cfg0.grid.coords t) = false from rfl], aft3]
  rw [show (dat m c).leavesExact 4 t = owns (c : Thread nD τ) (ms4 t) fullShare ((dat m c).after 4 t) from by
    unfold Dat.leavesExact; rw [show cfg0.idle 4 (cfg0.grid.coords t) = false from rfl], aft4]
  rw [show (dat m c).leavesExact 5 t = owns (c : Thread nD τ) (ms5 t) fullShare ((dat m c).after 5 t) from by
    unfold Dat.leavesExact; rw [show cfg0.idle 5 (cfg0.grid.coords t) = false from rfl], aft5]
  rw [show (dat m c).leavesExact 6 t = owns (c : Thread nD τ) (ms6 t) fullShare ((dat m c).after 6 t) from by
    unfold Dat.leavesExact; rw [show cfg0.idle 6 (cfg0.grid.coords t) = false from rfl], aft6]
  rw [show (dat m c).leavesExact 7 t = owns (c : Thread nD τ) (ms7 t) fullShare ((dat m c).after 7 t) from by
    unfold Dat.leavesExact; rw [show cfg0.idle 7 (cfg0.grid.coords t) = false from rfl], aft7]
  rw [show (dat m c).leavesExact 8 t = owns (c : Thread nD τ) (ms8 t) fullShare ((dat m c).after 8 t) from by
    unfold Dat.leavesExact; rw [show cfg0.idle 8 (cfg0.grid.coords t) = false from rfl], aft8]
  rw [show (dat m c).leavesExact 9 t = owns (c : Thread nD τ) (ms9 t) fullShare ((dat m c).after 9 t) from by
    unfold Dat.leavesExact; rw [show cfg0.idle 9 (cfg0.grid.coords t) = false from rfl], aft9]
  rw [show (dat m c).leavesExact 10 t = owns (c : Thread nD τ) (ms10 t) fullShare ((dat m c).after 10 t) from by
    unfold Dat.leavesExact; rw [show cfg0.idle 10 (cfg0.grid.coords t) = false from rfl], aft10]
  by_cases h25 : t.val < 25
  · rw [Dat.leavesExact_idle (dat m c) 11 t (idle11_phase0 t h25) (noFlush11_phase0 t h25),
      Dat.leavesExact_idle (dat m c) 12 t (idle12_phase0 t h25) (noFlush12_phase0 t h25)]
    have hp0 : condPhase0 (grid0.coords t) := (condPhase0_iff t).mpr h25
    have hp1 : ¬condPhase1 (grid0.coords t) := fun h => by have := (condPhase1_iff t).mp h; omega
    unfold Phi
    by_cases h0 : t.val = 0
    · have hseed : condSeed (grid0.coords t) := (condSeed_iff t).mpr h0
      iintro ⟨⟨%fS, HS, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runSeed (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) ((dat m c).before 11 t d11) ((dat m c).before 12 t d12) fS).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS]; · iexact HS
      iintro ⟨H0, H1, H2, H3, H4, H5, H6, H7, H8, H9, H10, H11, H12, HS⟩
      isplitl [HS]
      · iexists _; isplitl [HS]; · iexact HS
        ipureintro; simp only [Fin.val_succ]; exact inv_step_seed m c t h0 hseed hp0 hp1 _ _ fS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hseed : ¬condSeed (grid0.coords t) := fun h => h0 ((condSeed_iff t).mp h)
      iintro ⟨⟨%fS, HS, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runPhase0 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) ((dat m c).before 11 t d11) ((dat m c).before 12 t d12) fS).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS]; · iexact HS
      iintro ⟨H0, H1, H2, H3, H4, H5, H6, H7, H8, H9, H10, H11, H12, HS⟩
      isplitl [HS]
      · iexists _; isplitl [HS]; · iexact HS
        ipureintro; simp only [Fin.val_succ]; exact inv_step_phase0 m c t (by omega) h25 hseed hp0 hp1 _ _ fS (by simpa only [Fin.coe_castSucc] using hI)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
  · have h25' : 25 ≤ t.val := by omega
    rw [show (dat m c).leavesExact 11 t = owns (c : Thread nD τ) (ms11 t) fullShare ((dat m c).after 11 t) from by
      unfold Dat.leavesExact; rw [live11_phase1 t h25'], aft11]
    rw [show (dat m c).leavesExact 12 t = owns (c : Thread nD τ) (ms12 t) fullShare ((dat m c).after 12 t) from by
      unfold Dat.leavesExact; rw [live12_phase1 t h25'], aft12]
    have hseed : ¬condSeed (grid0.coords t) := fun h => by have := (condSeed_iff t).mp h; omega
    have hp0 : ¬condPhase0 (grid0.coords t) := fun h => by have := (condPhase0_iff t).mp h; omega
    have hp1 : condPhase1 (grid0.coords t) := (condPhase1_iff t).mpr h25'
    unfold Phi
    iintro ⟨⟨%fS, HS, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runPhase1 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM scM_whole hseed hp0 hp1 (iblk m c 0 t) (iblk m c 1 t) (iblk m c 2 t) (iblk m c 3 t) (iblk m c 4 t) (iblk m c 5 t) (iblk m c 6 t) (iblk m c 7 t) (iblk m c 8 t) (iblk m c 9 t) (iblk m c 10 t) ((scM : Memref sig .tc .vmem S2x10000x128 .f32).view.read (Elt F) fS)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS]
    · unfold owns; iexists fS; isplitr; · ipureintro; rfl
      iexact HS
    iintro ⟨H0, H1, H2, H3, H4, H5, H6, H7, H8, H9, H10, ⟨%e11, H11⟩, ⟨%e12, H12⟩, HS⟩
    isplitl [HS]
    · unfold owns; icases HS with ⟨%fS', %hr, HS⟩
      iexists fS'; isplitl [HS]; · iexact HS
      ipureintro; simp only [Fin.val_succ]
      exact inv_step_phase1 m c t h25' fS fS' (by simpa only [Fin.coe_castSucc] using hI) hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact out11_readback m c t h25' hseed hp0 hp1 fS (by simpa only [Fin.coe_castSucc] using hI) e11
    unfold owns; iexists _; isplitr
    swap; · iexact H12
    ipureintro; exact out12_readback m c t h25' hseed hp0 hp1 fS (by simpa only [Fin.coe_castSucc] using hI) e12

/-- The region's body obligation, at every point. -/
theorem body_obligation (m : (ℓ : Loc nD τ sig) → Buf (Elt F) ℓ) (c : Dev nD) :
    BodyObligation (dat m c) (defs₀ (F := F)) Variants.none () Set.univ := fun t => by
  rw [bigSep_W0, bigSep_W0]
  exact sound_body m c t

end Cert.KernelIdeal.Frame

end
-- ==== Proof.KLaunch.lean ====
/-
  The launch of the kernel's one pipelined region.

  @main is four reshapes (each bias vector written as a 1×n row) and then the region. Its run is stated here
  for any proof data built by `mkDat`: given that the scoped scratch buffer reaches the invariant at the first
  point and comes back from it after the last, and given the body obligation at every point, every weakly fair
  execution of @main from a memory with zero counters terminates, nothing faulting, and in every final state
  each window's array holds what the proof data computes (`Dat.arrAt … N`) while the four bias vectors hold
  what they held at launch (`run_of`).

  Two windows read the one adjacency array. The launch holds that array whole; on entry its points-to is split
  along the share into the left and the right half, one per window, and the proof data's `arrays` is assembled
  window by window at those shares (`arrays_entry`). At the end each window's array is read off its points-to
  at its own share: a read needs no whole share (`arrays_read_shared`). The kernel names no semaphore of its
  own, and nothing unscoped enters the invariant: the bias vectors, which no window reads, bypass the region and
  are read at the end.
-/
import proofs.«144098_g9328668967786_cont_9to1c4b_67_19_alg».proof.Proof.KData
import Idealize.ShloMosaic.Lib.Pipeline.Regions
import Idealize.ShloMosaic.Lib.Pipeline.Frame

noncomputable section

namespace Cert.KernelIdeal.Frame

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Before the region: the four reshapes -/

/-- No operation before the region writes a buffer other than the four bias rows. -/
theorem not_written (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.reshape_writes, Finset.mem_singleton] <;>
    exact StableHlo.devRef_ne_of_ne ‹_›

/-- A buffer that is none of the four bias rows reaches the region, and the end, as launched: every argument array does. -/
theorem V_arg (c : Dev nD) (b : Ref sig .tc) (hb : b ≠ main_v0 ∧ b ≠ main_v1 ∧ b ≠ main_v2 ∧ b ≠ main_v3) :
    V m c b = m ((c : Thread nD τ).loc b) :=
  StableHlo.after_of_forall_not_mem (b := Proc.devRef .tc b) hostOps0 (V₀ m c) (not_written b hb)

/-- Each bias row is its bias vector read as a 1×n matrix. -/
theorem V_v0 (c : Dev nD) : V m c main_v0 = shapeCast S1x128 (m ((c : Thread nD τ).loc main_arg3)) shapeCasts_S128_S1x128 := by
  dsimp only [V, hostOps0]; after_results; rfl
theorem V_v1 (c : Dev nD) : V m c main_v1 = shapeCast S1x128 (m ((c : Thread nD τ).loc main_arg5)) shapeCasts_S128_S1x128 := by
  dsimp only [V, hostOps0]; after_results; rfl
theorem V_v2 (c : Dev nD) : V m c main_v2 = shapeCast S1x64 (m ((c : Thread nD τ).loc main_arg7)) shapeCasts_S64_S1x64 := by
  dsimp only [V, hostOps0]; after_results; rfl
theorem V_v3 (c : Dev nD) : V m c main_v3 = shapeCast S1x64 (m ((c : Thread nD τ).loc main_arg9)) shapeCasts_S64_S1x64 := by
  dsimp only [V, hostOps0]; after_results; rfl

/-! ## The windows' arrays at their shares -/

/-- The shares of the region's proof data: each window's own. -/
theorem share_eq (after : (c : Dev nD) → (w : Fin cfg0.W) → Fin cfg0.N → (cfg0.win w).block.Idx → Elt F (cfg0.win w).elt)
    (Φ : (c : Dev nD) → Fin (cfg0.N + 1) → sProp 𝕄) (c : Dev nD) (w : Fin cfg0.W) :
    (mkDat m after Φ 0 c).share w = qshare w := by
  unfold Dat.share
  split
  · rename_i h
    revert h
    fin_cases w <;> first | (intro h; exact absurd h (by decide)) | (intro _; rfl)
  · rfl

/-- The windowed arrays as the points-tos of the buffers behind them, each at its window's share. -/
theorem arrays_pts (after : (c : Dev nD) → (w : Fin cfg0.W) → Fin cfg0.N → (cfg0.win w).block.Idx → Elt F (cfg0.win w).elt)
    (Φ : (c : Dev nD) → Fin (cfg0.N + 1) → sProp 𝕄) (c : Dev nD)
    (G : (w : Fin cfg0.W) → Buf (Elt F) ((cfg0.win w).arr.view.loc (c : Thread nD τ))) :
    (mkDat m after Φ 0 c).arrays G
      = bigSep Finset.univ fun w : Fin cfg0.W => (((c : Thread nD τ).loc (Pipeline.arrRef spec0 w)) ↦{qshare w} G w : sProp 𝕄) := by
  unfold Dat.arrays
  exact bigSep_congr fun w _ => by rw [(arr_whole0 w).set_eq_univ, share_eq]

/-- The twelve distinct buffers behind the thirteen windows, listed. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_arg4) ↦{fullShare} W main_arg4) ∗ (((c : Thread nD τ).loc main_v1) ↦{fullShare} W main_v1)
          ∗ (((c : Thread nD τ).loc main_arg6) ↦{fullShare} W main_arg6) ∗ (((c : Thread nD τ).loc main_v2) ↦{fullShare} W main_v2)
          ∗ (((c : Thread nD τ).loc main_arg8) ↦{fullShare} W main_arg8) ∗ (((c : Thread nD τ).loc main_v3) ↦{fullShare} W main_v3)
          ∗ (((c : Thread nD τ).loc main_v4_0) ↦{fullShare} W main_v4_0) ∗ (((c : Thread nD τ).loc main_v4_1) ↦{fullShare} W main_v4_1)) := by
  unfold Pipeline.arrBufs
  exact bigSep_eq_bigSepL_of_eq
    [main_arg0, main_arg1, main_arg2, main_v0, main_arg4, main_v1, main_arg6, main_v2, main_arg8, main_v3, main_v4_0, main_v4_1]
    (by decide) (by decide) _

theorem qshare_vals : qshare 0 = fullShare ∧ qshare 1 = (fullShare : PosShare TreeShare).left ∧ qshare 2 = (fullShare : PosShare TreeShare).right
    ∧ qshare 3 = fullShare ∧ qshare 4 = fullShare ∧ qshare 5 = fullShare ∧ qshare 6 = fullShare ∧ qshare 7 = fullShare
    ∧ qshare 8 = fullShare ∧ qshare 9 = fullShare ∧ qshare 10 = fullShare ∧ qshare 11 = fullShare ∧ qshare 12 = fullShare :=
  ⟨rfl, rfl, rfl, rfl, rfl, rfl, rfl, rfl, rfl, rfl, rfl, rfl, rfl⟩

/-- ENTRY, the arrays' part: the core's unscoped buffers when the region is entered are the thirteen windows' arrays at
    their shares, the adjacency's whole share dealt to its two windows as the two halves, and the four bias vectors no
    window reads. -/
theorem arrays_entry (after : (c : Dev nD) → (w : Fin cfg0.W) → Fin cfg0.N → (cfg0.win w).block.Idx → Elt F (cfg0.win w).elt)
    (Φ : (c : Dev nD) → Fin (cfg0.N + 1) → sProp 𝕄) (c : Dev nD)
    (G : (w : Fin cfg0.W) → Buf (Elt F) ((cfg0.win w).arr.view.loc (c : Thread nD τ)))
    (hG : ∀ w, G w = V m c (Pipeline.arrRef spec0 w)) :
    (unscopedBufs c (V m c) : sProp 𝕄)
      ⊢ iprop((mkDat m after Φ 0 c).arrays G ∗ Pipeline.unscopedRest (Ix := Unit) (Name := ℕ) (U := UR sig nD τ) (Lvl := ℕ) spec0 c (V m c)) := by
  obtain rfl : G = fun w => V m c (Pipeline.arrRef spec0 w) := funext hG
  obtain ⟨q0, q1, q2, q3, q4, q5, q6, q7, q8, q9, q10, q11, q12⟩ := qshare_vals
  rw [Pipeline.unscopedBufs_split₀ cfgs 0 winFacts₀0.arr_unscoped c (V m c), arrBufs_list, arrays_pts, bigSep_W0,
    q0, q1, q2, q3, q4, q5, q6, q7, q8, q9, q10, q11, q12]
  have hsplit : (((c : Thread nD τ).loc main_arg1) ↦{fullShare} V m c main_arg1 : sProp 𝕄)
      ⊢ iprop((((c : Thread nD τ).loc main_arg1) ↦{(fullShare : PosShare TreeShare).left} V m c main_arg1)
          ∗ (((c : Thread nD τ).loc main_arg1) ↦{(fullShare : PosShare TreeShare).right} V m c main_arg1)) :=
    (pointsTo_share halves).1
  iintro ⟨⟨H0, H1, H2, H3, H4, H5, H6, H7, H8, H9, H10, H11⟩, Hz⟩
  ihave H1' := hsplit $$ H1
  icases H1' with ⟨H1l, H1r⟩
  isplitr [Hz]
  · isplitl [H0]; · iexact H0
    isplitl [H1l]; · iexact H1l
    isplitl [H1r]; · iexact H1r
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iexact Hz

/-- The windowed arrays, each held at its window's share, read against a final state: its memory holds their contents. -/
theorem arrays_read_shared (after : (c : Dev nD) → (w : Fin cfg0.W) → Fin cfg0.N → (cfg0.win w).block.Idx → Elt F (cfg0.win w).elt)
    (Φ : (c : Dev nD) → Fin (cfg0.N + 1) → sProp 𝕄) (c : Dev nD)
    (G : (w : Fin cfg0.W) → Buf (Elt F) ((cfg0.win w).arr.view.loc (c : Thread nD τ))) (s' : Phys nD τ sig (Elt F)) :
    iprop((mkDat m after Φ 0 c).arrays G ∗ SI s')
      ⊢ (iprop(⌜∀ w : Fin cfg0.W, s'.mem.mem ((cfg0.win w).arr.view.loc (c : Thread nD τ)) = G w⌝ ∗ SI s') : sProp 𝕄) := by
  rw [arrays_pts]
  iintro ⟨Ha, HSI⟩
  ihave Hr := (pointsTo_read_all' Finset.univ (fun w : Fin cfg0.W => (c : Thread nD τ).loc (Pipeline.arrRef spec0 w)) G s' qshare) $$ [Ha HSI]
  · isplitl [Ha] <;> iassumption
  icases Hr with ⟨%ha, HSI⟩
  isplitr; · ipureintro; exact fun w => ha w (Finset.mem_univ w)
  iexact HSI

/-! ## The launch: @main as the four reshapes and the region -/

abbrev 𝒱₀ : Variants := Variants.none
/-- No core owes another anything: no level is assigned. -/
abbrev L : GSem nD τ sig → Finset Unit := fun _ => ∅
abbrev lv : GSem nD τ sig → Unit → ℕ := fun _ _ => 0
/-- The region prefetches no table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- The four reshapes, run over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by
      intro op hop
      simp only [List.mem_cons, List.mem_nil_iff, or_false] at hop
      rcases hop with rfl | rfl | rfl | rfl <;> rfl)
    (V₀ m) R

/-- What the region leaves for the end: the windows' arrays at their final contents, each at its window's share, and the
    four bias vectors as the reshapes left them. -/
abbrev Tₙ (after : (c : Dev nD) → (w : Fin cfg0.W) → Fin cfg0.N → (cfg0.win w).block.Idx → Elt F (cfg0.win w).elt)
    (Φ : (c : Dev nD) → Fin (cfg0.N + 1) → sProp 𝕄) (c : Dev nD) : sProp 𝕄 :=
  iprop((mkDat m after Φ 0 c).arrays ((mkDat m after Φ 0 c).arrAt · cfg0.N) ∗ Pipeline.unscopedRest (Ix := Unit) (Name := ℕ) (U := UR sig nD τ) (Lvl := ℕ) spec0 c (V m c))

-- the library states its lemmas over the pinned configuration; matching it with `cfg0` takes unfolding plain definitions in a
-- metavariable's type
set_option backward.isDefEq.respectTransparency.types false in
/-- The region: no semaphore of the kernel's own; nothing unscoped enters the invariant, the bias vectors bypass it. -/
def reg0 (after : (c : Dev nD) → (w : Fin cfg0.W) → Fin cfg0.N → (cfg0.win w).block.Idx → Elt F (cfg0.win w).elt)
    (Φ : (c : Dev nD) → Fin (cfg0.N + 1) → sProp 𝕄)
    (hin : ∀ c, (Pipeline.scopedRest (Ix := Unit) (Name := ℕ) (U := UR sig nD τ) (Lvl := ℕ) (Val := Elt F) spec0 c : sProp 𝕄) ⊢ Φ c 0)
    (hout : ∀ c, Φ c (Fin.last cfg0.N) ⊢ (Pipeline.scopedRest (Ix := Unit) (Name := ℕ) (U := UR sig nD τ) (Lvl := ℕ) (Val := Elt F) spec0 c : sProp 𝕄))
    (hbody : ∀ c, Pipeline.BodyObligationLoose (mkDat m after Φ 0 c) (defs₀ (F := F)) Variants.none () Set.univ) :
    Pipeline.RegionSeg (pcfgs (F := F)) adm (mkDat m after Φ) () defs₀ 𝒱₀ L lv 0 where
  win := winFacts₀0
  block_pos := block_pos0
  stage_whole := stage_whole0
  K := PEmpty
  osem := fun k => k.elim
  ho := Pipeline.OwnSemFacts.none _
  hbody := hbody
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(Tₙ m after Φ c ∗ R c)
  X _ := iprop(emp)
  Y _ := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c)
      from (Pipeline.unscopedBufs_held c _).symm]
    have hsplit := arrays_entry m after Φ c ((mkDat m after Φ 0 c).arrAt · 0) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    refine BIBase.Entails.trans ?_ (hin c)
    iintro ⟨-, -, Hr⟩
    iexact Hr
  hout c := by
    rw [Pipeline.ownSems0_none]
    refine (hout c).trans ?_
    iintro Hr
    isplitr; · iempintro
    isplitr; · iempintro
    iexact Hr
  hexit c := by
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

/-- @main as the list of the two. -/
abbrev segs (after : (c : Dev nD) → (w : Fin cfg0.W) → Fin cfg0.N → (cfg0.win w).block.Idx → Elt F (cfg0.win w).elt)
    (Φ : (c : Dev nD) → Fin (cfg0.N + 1) → sProp 𝕄)
    (hin : ∀ c, (Pipeline.scopedRest (Ix := Unit) (Name := ℕ) (U := UR sig nD τ) (Lvl := ℕ) (Val := Elt F) spec0 c : sProp 𝕄) ⊢ Φ c 0)
    (hout : ∀ c, Φ c (Fin.last cfg0.N) ⊢ (Pipeline.scopedRest (Ix := Unit) (Name := ℕ) (U := UR sig nD τ) (Lvl := ℕ) (Val := Elt F) spec0 c : sProp 𝕄))
    (hbody : ∀ c, Pipeline.BodyObligationLoose (mkDat m after Φ 0 c) (defs₀ (F := F)) Variants.none () Set.univ) :
    List (Pipeline.Seg (pcfgs (F := F)) adm (mkDat m after Φ) () defs₀ 𝒱₀ L lv) :=
  [.host (seg0 m), .region (reg0 m after Φ hin hout hbody)]

-- the library states its lemmas over the pinned configuration; matching it with `cfg0` takes unfolding plain definitions in a
-- metavariable's type
set_option backward.isDefEq.respectTransparency.types false in
/-- From any memory with zero counters every weakly fair execution of @main terminates, nothing faulting, and every final
    state has each window's array at the contents the proof data computes and the four bias vectors as launched. -/
theorem run_of (ρ : Dev nD → PrngReg) (after : (c : Dev nD) → (w : Fin cfg0.W) → Fin cfg0.N → (cfg0.win w).block.Idx → Elt F (cfg0.win w).elt)
    (Φ : (c : Dev nD) → Fin (cfg0.N + 1) → sProp 𝕄)
    (hin : ∀ c, (Pipeline.scopedRest (Ix := Unit) (Name := ℕ) (U := UR sig nD τ) (Lvl := ℕ) (Val := Elt F) spec0 c : sProp 𝕄) ⊢ Φ c 0)
    (hout : ∀ c, Φ c (Fin.last cfg0.N) ⊢ (Pipeline.scopedRest (Ix := Unit) (Name := ℕ) (U := UR sig nD τ) (Lvl := ℕ) (Val := Elt F) spec0 c : sProp 𝕄))
    (hbody : ∀ c, Pipeline.BodyObligationLoose (mkDat m after Φ 0 c) (defs₀ (F := F)) Variants.none () Set.univ) :
    θ_run defs (onTc (τ := τ) (main (F := F))) ⟨m, fun _ => 0, ρ⟩ (fun r => ∀ c : Dev nD,
      (∀ w : Fin cfg0.W, r.2.mem ((cfg0.win w).arr.view.loc (c : Thread nD τ)) = (mkDat m after Φ 0 c).arrAt w cfg0.N)
      ∧ r.2.mem ((c : Thread nD τ).loc main_arg3) = m ((c : Thread nD τ).loc main_arg3)
      ∧ r.2.mem ((c : Thread nD τ).loc main_arg5) = m ((c : Thread nD τ).loc main_arg5)
      ∧ r.2.mem ((c : Thread nD τ).loc main_arg7) = m ((c : Thread nD τ).loc main_arg7)
      ∧ r.2.mem ((c : Thread nD τ).loc main_arg9) = m ((c : Thread nD τ).loc main_arg9)) :=
  Pipeline.θ_run_regions_kit (pcfgs (F := F)) adm (mkDat m after Φ) () cellOf_inj emb₁ defs₀ 𝒱₀ L lv m ρ main (segs m after Φ hin hout hbody)
    (fun c Q => by rw [main_segs adm (mkDat m after Φ) () 𝒱₀ L lv (seg0 m) (reg0 m after Φ hin hout hbody) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m after Φ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => (∀ w : Fin cfg0.W, s.mem ((cfg0.win w).arr.view.loc (c : Thread nD τ)) = (mkDat m after Φ 0 c).arrAt w cfg0.N)
      ∧ s.mem ((c : Thread nD τ).loc main_arg3) = m ((c : Thread nD τ).loc main_arg3)
      ∧ s.mem ((c : Thread nD τ).loc main_arg5) = m ((c : Thread nD τ).loc main_arg5)
      ∧ s.mem ((c : Thread nD τ).loc main_arg7) = m ((c : Thread nD τ).loc main_arg7)
      ∧ s.mem ((c : Thread nD τ).loc main_arg9) = m ((c : Thread nD τ).loc main_arg9))
    (hfin := fun c s' => by
      dsimp only [Tₙ]
      rw [unscopedRest0_eq, V_arg m c main_arg3 (by decide), V_arg m c main_arg5 (by decide), V_arg m c main_arg7 (by decide),
        V_arg m c main_arg9 (by decide)]
      iintro ⟨⟨Ha, H3, H5, H7, H9⟩, HSI⟩
      icombine HSI H3 gives %h3
      icombine HSI H5 gives %h5
      icombine HSI H7 gives %h7
      icombine HSI H9 gives %h9
      ihave Hr := (arrays_read_shared m after Φ c _ s') $$ [Ha HSI]
      · isplitl [Ha] <;> iassumption
      icases Hr with ⟨%ha, HSI⟩
      imodintro
      isplitr
      · ipureintro
        exact ⟨ha, Buf.eq_of_forall_mem_univ h3, Buf.eq_of_forall_mem_univ h5, Buf.eq_of_forall_mem_univ h7, Buf.eq_of_forall_mem_univ h9⟩
      iexact HSI)
    (hQ := fun _ h => h)

end Cert.KernelIdeal.Frame

end
-- ==== Proof.KFrame.lean ====
/-
  The kernel program runs, faults nowhere, and leaves its ten arguments as they were.

  Six of the arguments are arrays the region reads through input windows: an input window's array is
  never written, so it ends at what it held when the region was entered, which is what it held at
  launch since the reshapes before the region write only their own results. The four bias vectors are
  read by those reshapes only and pass the region by.
-/
import proofs.«144098_g9328668967786_cont_9to1c4b_67_19_alg».proof.Proof.KBody
import proofs.«144098_g9328668967786_cont_9to1c4b_67_19_alg».proof.Proof.KLaunch

noncomputable section

namespace Cert.KernelIdeal.Frame

open Cert.KernelIdeal Cert.KernelIdeal.Gen

open Idealize.ShloMosaic Idealize.ShloMosaic.TcCoe
open Idealize.SL Idealize.SL.Sem
open Idealize.ShloMosaic.Pipeline (Dat Cfg Window BodyObligation)

variable {F : FTy → Type} [FloatOps F]

/-- Every weakly fair execution ends, with each windowed array at what the proof data computes and the four bias
    vectors as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      (∀ w : Fin cfg0.W, r.2.mem ((cfg0.win w).arr.view.loc (c : Thread nD τ)) = (dat m c).arrAt w cfg0.N)
      ∧ r.2.mem ((c : Thread nD τ).loc main_arg3) = m ((c : Thread nD τ).loc main_arg3)
      ∧ r.2.mem ((c : Thread nD τ).loc main_arg5) = m ((c : Thread nD τ).loc main_arg5)
      ∧ r.2.mem ((c : Thread nD τ).loc main_arg7) = m ((c : Thread nD τ).loc main_arg7)
      ∧ r.2.mem ((c : Thread nD τ).loc main_arg9) = m ((c : Thread nD τ).loc main_arg9)) :=
  run_of m ρ (aft m) (Phi m) (hin m) (hout m) (fun c => (body_obligation m c).loose)

/-- The frame: the ten arguments end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).1 0).trans (((dat m c).arrAt_in 0 rfl _).trans ((A_eq m c 0).trans (V_arg m c main_arg0 (by decide)))),
     ((h c).1 1).trans (((dat m c).arrAt_in 1 rfl _).trans ((A_eq m c 1).trans (V_arg m c main_arg1 (by decide)))),
     ((h c).1 3).trans (((dat m c).arrAt_in 3 rfl _).trans ((A_eq m c 3).trans (V_arg m c main_arg2 (by decide)))),
     (h c).2.1,
     ((h c).1 5).trans (((dat m c).arrAt_in 5 rfl _).trans ((A_eq m c 5).trans (V_arg m c main_arg4 (by decide)))),
     (h c).2.2.1,
     ((h c).1 7).trans (((dat m c).arrAt_in 7 rfl _).trans ((A_eq m c 7).trans (V_arg m c main_arg6 (by decide)))),
     (h c).2.2.2.1,
     ((h c).1 9).trans (((dat m c).arrAt_in 9 rfl _).trans ((A_eq m c 9).trans (V_arg m c main_arg8 (by decide)))),
     (h c).2.2.2.2⟩) (run_main m ρ)

end Cert.KernelIdeal.Frame

end
-- ==== Proof.KBlocks.lean ====
/-
  Where each window's block sits in its array.

  Every input window but the adjacency's two covers its whole array, at block (0, 0) at every point.
  The adjacency's first window is at block row 2·i of 200-row blocks at tile i, in either phase, so its
  row p is row 400·i + p of the adjacency; the second is at block row 2·i + 1, rows 400·i + 200 + p.
  A result window is at block row 0 through phase 0 and at block row i at tile i of phase 1.
-/
import proofs.«144098_g9328668967786_cont_9to1c4b_67_19_alg».proof.Proof.KModel
import Idealize.ShloMosaic.Lib.Pipeline.Value

set_option maxRecDepth 16384

noncomputable section

namespace Cert.KernelIdeal.Frame

open Cert.KernelIdeal Cert.KernelIdeal.Gen

open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The block indices over the grid -/

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 2 * (t.val % 25) ∧ win0_1.index t 1 = 0 :=
  (by decide +kernel : ∀ t : Fin grid0.N, win0_1.index t 0 = 2 * (t.val % 25) ∧ win0_1.index t 1 = 0)
theorem index2 : ∀ t : Fin cfg0.N, win0_2.index t 0 = 2 * (t.val % 25) + 1 ∧ win0_2.index t 1 = 0 :=
  (by decide +kernel : ∀ t : Fin grid0.N, win0_2.index t 0 = 2 * (t.val % 25) + 1 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)
theorem index11 : ∀ t : Fin cfg0.N, win0_11.index t 0 = (if t.val < 25 then 0 else t.val - 25) ∧ win0_11.index t 1 = 0 :=
  (by decide +kernel : ∀ t : Fin grid0.N, win0_11.index t 0 = (if t.val < 25 then 0 else t.val - 25) ∧ win0_11.index t 1 = 0)
theorem index12 : ∀ t : Fin cfg0.N, win0_12.index t 0 = (if t.val < 25 then 0 else t.val - 25) ∧ win0_12.index t 1 = 0 :=
  (by decide +kernel : ∀ t : Fin grid0.N, win0_12.index t 0 = (if t.val < 25 then 0 else t.val - 25) ∧ win0_12.index t 1 = 0)

/-! ## A block read at coordinates -/

/-- Window 0's block at a point, entry (p, q), is an entry of its array. -/
theorem iblk0_at (m : (ℓ : Loc nD τ sig) → Buf (Elt F) ℓ) (c : Dev nD) (t : Fin cfg0.N) (p : Fin 10000) (q : Fin 128) :
    (iblk m c 0 t : Vec F S10000x128 .f32) (ix2 p q)
      = (V m c main_arg0 : S10000x128.Idx → Elt F .f32) (ix2 p q) := by
  unfold iblk
  rw [View.read_apply]
  show V m c main_arg0 _ = V m c main_arg0 _
  congr 1
  funext a
  apply Fin.ext
  match a with
  | ⟨0, _⟩ => show win0_0.index t 0 * 10000 + 1 * p.val = p.val; rw [(index0 t).1]; omega
  | ⟨1, _⟩ => show win0_0.index t 1 * 128 + 1 * q.val = q.val; rw [(index0 t).2]; omega

/-- Window 1's block at a point, entry (p, q), is an entry of its array. -/
theorem iblk1_at (m : (ℓ : Loc nD τ sig) → Buf (Elt F) ℓ) (c : Dev nD) (t : Fin cfg0.N) (p : Fin 200) (q : Fin 10000) :
    (iblk m c 1 t : Vec F S200x10000 .f32) (ix2 p q)
      = (V m c main_arg1 : S10000x10000.Idx → Elt F .f32) (ix2 (⟨400 * (t.val % 25) + p.val, by have := p.isLt; have := t.isLt; have hN : cfg0.N = 50 := N_0; omega⟩ : Fin 10000) q) := by
  unfold iblk
  rw [View.read_apply]
  show V m c main_arg1 _ = V m c main_arg1 _
  congr 1
  funext a
  apply Fin.ext
  match a with
  | ⟨0, _⟩ => show win0_1.index t 0 * 200 + 1 * p.val = 400 * (t.val % 25) + p.val; rw [(index1 t).1]; omega
  | ⟨1, _⟩ => show win0_1.index t 1 * 10000 + 1 * q.val = q.val; rw [(index1 t).2]; omega

/-- Window 2's block at a point, entry (p, q), is an entry of its array. -/
theorem iblk2_at (m : (ℓ : Loc nD τ sig) → Buf (Elt F) ℓ) (c : Dev nD) (t : Fin cfg0.N) (p : Fin 200) (q : Fin 10000) :
    (iblk m c 2 t : Vec F S200x10000 .f32) (ix2 p q)
      = (V m c main_arg1 : S10000x10000.Idx → Elt F .f32) (ix2 (⟨400 * (t.val % 25) + 200 + p.val, by have := p.isLt; have := t.isLt; have hN : cfg0.N = 50 := N_0; omega⟩ : Fin 10000) q) := by
  unfold iblk
  rw [View.read_apply]
  show V m c main_arg1 _ = V m c main_arg1 _
  congr 1
  funext a
  apply Fin.ext
  match a with
  | ⟨0, _⟩ => show win0_2.index t 0 * 200 + 1 * p.val = 400 * (t.val % 25) + 200 + p.val; rw [(index2 t).1]; omega
  | ⟨1, _⟩ => show win0_2.index t 1 * 10000 + 1 * q.val = q.val; rw [(index2 t).2]; omega

/-- Window 3's block at a point, entry (p, q), is an entry of its array. -/
theorem iblk3_at (m : (ℓ : Loc nD τ sig) → Buf (Elt F) ℓ) (c : Dev nD) (t : Fin cfg0.N) (p : Fin 128) (q : Fin 128) :
    (iblk m c 3 t : Vec F S128x128 .f32) (ix2 p q)
      = (V m c main_arg2 : S128x128.Idx → Elt F .f32) (ix2 p q) := by
  unfold iblk
  rw [View.read_apply]
  show V m c main_arg2 _ = V m c main_arg2 _
  congr 1
  funext a
  apply Fin.ext
  match a with
  | ⟨0, _⟩ => show win0_3.index t 0 * 128 + 1 * p.val = p.val; rw [(index3 t).1]; omega
  | ⟨1, _⟩ => show win0_3.index t 1 * 128 + 1 * q.val = q.val; rw [(index3 t).2]; omega

/-- Window 4's block at a point, entry (p, q), is an entry of its array. -/
theorem iblk4_at (m : (ℓ : Loc nD τ sig) → Buf (Elt F) ℓ) (c : Dev nD) (t : Fin cfg0.N) (p : Fin 1) (q : Fin 128) :
    (iblk m c 4 t : Vec F S1x128 .f32) (ix2 p q)
      = (V m c main_v0 : S1x128.Idx → Elt F .f32) (ix2 p q) := by
  unfold iblk
  rw [View.read_apply]
  show V m c main_v0 _ = V m c main_v0 _
  congr 1
  funext a
  apply Fin.ext
  match a with
  | ⟨0, _⟩ => show win0_4.index t 0 * 1 + 1 * p.val = p.val; rw [(index4 t).1]; omega
  | ⟨1, _⟩ => show win0_4.index t 1 * 128 + 1 * q.val = q.val; rw [(index4 t).2]; omega

/-- Window 5's block at a point, entry (p, q), is an entry of its array. -/
theorem iblk5_at (m : (ℓ : Loc nD τ sig) → Buf (Elt F) ℓ) (c : Dev nD) (t : Fin cfg0.N) (p : Fin 128) (q : Fin 128) :
    (iblk m c 5 t : Vec F S128x128 .f32) (ix2 p q)
      = (V m c main_arg4 : S128x128.Idx → Elt F .f32) (ix2 p q) := by
  unfold iblk
  rw [View.read_apply]
  show V m c main_arg4 _ = V m c main_arg4 _
  congr 1
  funext a
  apply Fin.ext
  match a with
  | ⟨0, _⟩ => show win0_5.index t 0 * 128 + 1 * p.val = p.val; rw [(index5 t).1]; omega
  | ⟨1, _⟩ => show win0_5.index t 1 * 128 + 1 * q.val = q.val; rw [(index5 t).2]; omega

/-- Window 6's block at a point, entry (p, q), is an entry of its array. -/
theorem iblk6_at (m : (ℓ : Loc nD τ sig) → Buf (Elt F) ℓ) (c : Dev nD) (t : Fin cfg0.N) (p : Fin 1) (q : Fin 128) :
    (iblk m c 6 t : Vec F S1x128 .f32) (ix2 p q)
      = (V m c main_v1 : S1x128.Idx → Elt F .f32) (ix2 p q) := by
  unfold iblk
  rw [View.read_apply]
  show V m c main_v1 _ = V m c main_v1 _
  congr 1
  funext a
  apply Fin.ext
  match a with
  | ⟨0, _⟩ => show win0_6.index t 0 * 1 + 1 * p.val = p.val; rw [(index6 t).1]; omega
  | ⟨1, _⟩ => show win0_6.index t 1 * 128 + 1 * q.val = q.val; rw [(index6 t).2]; omega

/-- Window 7's block at a point, entry (p, q), is an entry of its array. -/
theorem iblk7_at (m : (ℓ : Loc nD τ sig) → Buf (Elt F) ℓ) (c : Dev nD) (t : Fin cfg0.N) (p : Fin 128) (q : Fin 64) :
    (iblk m c 7 t : Vec F S128x64 .f32) (ix2 p q)
      = (V m c main_arg6 : S128x64.Idx → Elt F .f32) (ix2 p q) := by
  unfold iblk
  rw [View.read_apply]
  show V m c main_arg6 _ = V m c main_arg6 _
  congr 1
  funext a
  apply Fin.ext
  match a with
  | ⟨0, _⟩ => show win0_7.index t 0 * 128 + 1 * p.val = p.val; rw [(index7 t).1]; omega
  | ⟨1, _⟩ => show win0_7.index t 1 * 64 + 1 * q.val = q.val; rw [(index7 t).2]; omega

/-- Window 8's block at a point, entry (p, q), is an entry of its array. -/
theorem iblk8_at (m : (ℓ : Loc nD τ sig) → Buf (Elt F) ℓ) (c : Dev nD) (t : Fin cfg0.N) (p : Fin 1) (q : Fin 64) :
    (iblk m c 8 t : Vec F S1x64 .f32) (ix2 p q)
      = (V m c main_v2 : S1x64.Idx → Elt F .f32) (ix2 p q) := by
  unfold iblk
  rw [View.read_apply]
  show V m c main_v2 _ = V m c main_v2 _
  congr 1
  funext a
  apply Fin.ext
  match a with
  | ⟨0, _⟩ => show win0_8.index t 0 * 1 + 1 * p.val = p.val; rw [(index8 t).1]; omega
  | ⟨1, _⟩ => show win0_8.index t 1 * 64 + 1 * q.val = q.val; rw [(index8 t).2]; omega

/-- Window 9's block at a point, entry (p, q), is an entry of its array. -/
theorem iblk9_at (m : (ℓ : Loc nD τ sig) → Buf (Elt F) ℓ) (c : Dev nD) (t : Fin cfg0.N) (p : Fin 128) (q : Fin 64) :
    (iblk m c 9 t : Vec F S128x64 .f32) (ix2 p q)
      = (V m c main_arg8 : S128x64.Idx → Elt F .f32) (ix2 p q) := by
  unfold iblk
  rw [View.read_apply]
  show V m c main_arg8 _ = V m c main_arg8 _
  congr 1
  funext a
  apply Fin.ext
  match a with
  | ⟨0, _⟩ => show win0_9.index t 0 * 128 + 1 * p.val = p.val; rw [(index9 t).1]; omega
  | ⟨1, _⟩ => show win0_9.index t 1 * 64 + 1 * q.val = q.val; rw [(index9 t).2]; omega

/-- Window 10's block at a point, entry (p, q), is an entry of its array. -/
theorem iblk10_at (m : (ℓ : Loc nD τ sig) → Buf (Elt F) ℓ) (c : Dev nD) (t : Fin cfg0.N) (p : Fin 1) (q : Fin 64) :
    (iblk m c 10 t : Vec F S1x64 .f32) (ix2 p q)
      = (V m c main_v3 : S1x64.Idx → Elt F .f32) (ix2 p q) := by
  unfold iblk
  rw [View.read_apply]
  show V m c main_v3 _ = V m c main_v3 _
  congr 1
  funext a
  apply Fin.ext
  match a with
  | ⟨0, _⟩ => show win0_10.index t 0 * 1 + 1 * p.val = p.val; rw [(index10 t).1]; omega
  | ⟨1, _⟩ => show win0_10.index t 1 * 64 + 1 * q.val = q.val; rw [(index10 t).2]; omega

end Cert.KernelIdeal.Frame

end
-- ==== Proof.Spec.lean ====
/-
  The mathematics both programs compute, stated once, index by index, on the extended reals.

  A two-layer graph-convolution encoder over N = 10000 nodes with a dense N×N adjacency, 128 input
  features, 128 hidden units and two 64-wide linear heads. With x the node features, A the
  adjacency, and max(·, 0) applied entrywise:

      S₁ = x · W₁                      (the first layer's support, N×128)
      H₁ = max(A · S₁ + b₁, 0)          (the first hidden layer)
      S₂ = H₁ · W₂                     (the second layer's support)
      H₂ = max(A · S₂ + b₂, 0)          (the second hidden layer)
      μ  = H₂ · W_μ + b_μ ,   logvar = H₂ · W_lv + b_lv      (N×64 each)

  Every matrix product is the plain sum of products over its one contracted axis, every bias is
  added along the rows, and the grouping is exactly the one above: A · (x · W₁), never (A · x) · W₁.
  Addition of extended reals is commutative and associative, so a finite sum does not depend on the
  order or the blocking in which it is accumulated; no finiteness of any entry is used anywhere.
  The floor of the two maxima is kept as the 32-bit word of +0.0, the word both programs print.
-/
import Idealize.ShloMosaic.PureOps.Ideal
import Idealize.ShloMosaic.Lib.ValueIdx

noncomputable section

open scoped BigOperators

namespace Cert.Spec

open Idealize.ShloMosaic Idealize.ShloMosaic.ValueIdx

/-- The floor of both maxima: the value of the word of +0.0. -/
abbrev floor0 : EReal := Ideal.ofBits .f32 0x00000000#32

/-- Entry (k, c) of the first support S₁ = x · W₁. -/
def support1 (x : (⟨2, ![10000, 128]⟩ : Shape).Idx → EReal) (W1 : (⟨2, ![128, 128]⟩ : Shape).Idx → EReal)
    (k : Fin 10000) (c : Fin 128) : EReal :=
  ∑ j : Fin 128, x (ix2 k j) * W1 (ix2 j c)

/-- Entry (r, c) of the first hidden layer H₁ = max(A · S₁ + b₁, 0). -/
def hidden1 (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (r : Fin 10000) (c : Fin 128) : EReal :=
  max ((∑ k : Fin 10000, adj (ix2 r k) * support1 x W1 k c) + b1 (ix1 c)) floor0

/-- Entry (k, c) of the second support S₂ = H₁ · W₂. -/
def support2 (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (k : Fin 10000) (c : Fin 128) : EReal :=
  ∑ j : Fin 128, hidden1 x adj W1 b1 k j * W2 (ix2 j c)

/-- Entry (r, c) of the second hidden layer H₂ = max(A · S₂ + b₂, 0). -/
def hidden2 (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (r : Fin 10000) (c : Fin 128) : EReal :=
  max ((∑ k : Fin 10000, adj (ix2 r k) * support2 x adj W1 b1 W2 k c) + b2 (ix1 c)) floor0

/-- One linear head on the second hidden layer: entry i of H₂ · W + b, for W of shape 128×64 and b of length 64.
    Both results are this function, at (W_μ, b_μ) and at (W_lv, b_lv). -/
def head (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W : (⟨2, ![128, 64]⟩ : Shape).Idx → EReal) (b : (⟨1, ![64]⟩ : Shape).Idx → EReal) :
    (⟨2, ![10000, 64]⟩ : Shape).Idx → EReal :=
  fun i => (∑ j : Fin 128, hidden2 x adj W1 b1 W2 b2 (i 0) j * W (ix2 j (i 1))) + b (ix1 (i 1))

end Cert.Spec

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«144098_g9328668967786_cont_9to1c4b_67_19_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.KPayload.lean ====
/-
  The kernel's arithmetic, read at one index on the extended reals.

  The body works on whole blocks: the full support x · W (10000×128, kept as one page of a two-page
  scratch), a block of 200 rows of the adjacency, the two bias rows, and the weight matrices. Each
  value it stores is a short chain of block operations. Read at one entry, a matrix product into
  the zero accumulator is the sum over the contracted axis of the products of the entries, adding or
  dropping a leading unit axis keeps the entry, a bias row repeated down the rows is read at its
  column, and a sum, a maximum and a select act on the entries. Every statement is over arbitrary
  blocks of the stated shapes, with the entry given by its coordinates.
-/
import proofs.«144098_g9328668967786_cont_9to1c4b_67_19_alg».proof.Proof.Gen.KernelIdeal.Skeleton
import proofs.«144098_g9328668967786_cont_9to1c4b_67_19_alg».proof.Proof.Spec
import proofs.«144098_g9328668967786_cont_9to1c4b_67_19_alg».proof.Proof.LibMatmul2D
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadAt

open Cert.KernelIdeal Cert.KernelIdeal.Gen
open Idealize.ShloMosaic Idealize.ShloMosaic.ValueIdx

/-! ## The support, and the page it is kept on -/

/-- The stored support: entry (k, c) of the one page is the product's entry, the sum over j of
    x (k, j) · W (j, c). -/
theorem pay1_at (v32 : Vec Ideal S10000x128 .f32) (v33 : Vec Ideal S128x128 .f32)
    (u : Fin 1) (k : Fin 10000) (c : Fin 128) :
    k0_pay1 (F := Ideal) v32 v33 (ix3 u k c) = ∑ j : Fin 128, v32 (ix2 k j) * v33 (ix2 j c) := by
  unfold k0_pay1
  refine (shapeCast_ab_1ab_apply _ _ u k c).trans ?_
  exact Cert.LibMatmul2D.rows_cols (φ₁ := .f32) (φ₂ := .f32) _ none v32 v33 k c

/-- The page read back as a matrix: entry (k, c) is the page's entry (0, k, c). -/
theorem pay2_at (v6 : Vec Ideal S1x10000x128 .f32) (k : Fin 10000) (c : Fin 128) :
    k0_pay2 (F := Ideal) v6 (ix2 k c) = v6 (ix3 (0 : Fin 1) k c) := by
  unfold k0_pay2
  exact shapeCast_1ab_ab_apply _ _ k c

/-! ## The bias row of the layer being computed -/

/-- On the first layer's grid points the bias row is the first bias. -/
theorem pay3_at_zero (i : grid0.Coords) (hp0 : (i 0).val = 0) (v9 v11 : Vec Ideal S1x128 .f32) :
    k0_pay3 (F := Ideal) i v9 v11 = v9 := by
  unfold k0_pay3
  show Scalar.select (IntOp.cmpi .eq (BitVec.ofNat 32 (i 0).val) 0#32) (shapeCast S1x128 v9 _) (shapeCast S1x128 v11 _) = v9
  rw [select_eq0 (i 0).val (i 0).isLt, if_pos hp0, shapeCast_self]

/-- On the second layer's grid points the bias row is the second bias. -/
theorem pay3_at_one (i : grid0.Coords) (hp1 : (i 0).val = 1) (v9 v11 : Vec Ideal S1x128 .f32) :
    k0_pay3 (F := Ideal) i v9 v11 = v11 := by
  unfold k0_pay3
  show Scalar.select (IntOp.cmpi .eq (BitVec.ofNat 32 (i 0).val) 0#32) (shapeCast S1x128 v9 _) (shapeCast S1x128 v11 _) = v11
  rw [select_eq0 (i 0).val (i 0).isLt, if_neg (by omega), shapeCast_self]

/-! ## A block of a hidden layer -/

/-- A block of 200 rows of a hidden layer, from the first adjacency block: entry (p, c) is the maximum with the
    floor of the adjacency row p against column c of the support page, plus the bias row at c. -/
theorem pay4_at (i : grid0.Coords) (v6 : Vec Ideal S1x10000x128 .f32) (v9 v11 : Vec Ideal S1x128 .f32)
    (v14 : Vec Ideal S200x10000 .f32) (p : Fin 200) (c : Fin 128) :
    k0_pay4 (F := Ideal) i v6 v9 v11 v14 (ix2 p c)
      = max ((∑ k : Fin 10000, v14 (ix2 p k) * v6 (ix3 (0 : Fin 1) k c))
          + k0_pay3 (F := Ideal) i v9 v11 (ix2 (0 : Fin 1) c)) (Ideal.ofBits .f32 0x00000000#32) := by
  unfold k0_pay4
  show max
      (matmul (F := Ideal) dot_S200x10000_S10000x128_S200x128_1_0_0_1_n_n none v14 (k0_pay2 (F := Ideal) v6)
          (constant (F := Ideal) S200x128 .f32 0x00000000#32) (ix2 p c)
        + broadcastTo S200x128 (k0_pay3 (F := Ideal) i v9 v11) _ (ix2 p c))
      (Ideal.ofBits .f32 0x00000000#32) = _
  refine congrArg (fun t => max t (Ideal.ofBits .f32 0x00000000#32)) (congrArg₂ (· + ·) ?_ ?_)
  · refine (Cert.LibMatmul2D.rows_cols (φ₁ := .f32) (φ₂ := .f32) _ none v14 (k0_pay2 (F := Ideal) v6) p c).trans ?_
    exact Finset.sum_congr rfl fun k _ => by rw [pay2_at]
  · exact broadcastTo_1b_ab_apply _ _ p c

/-- The same block of a hidden layer from the second adjacency block. -/
theorem pay5_at (i : grid0.Coords) (v6 : Vec Ideal S1x10000x128 .f32) (v9 v11 : Vec Ideal S1x128 .f32)
    (v20 : Vec Ideal S200x10000 .f32) (p : Fin 200) (c : Fin 128) :
    k0_pay5 (F := Ideal) i v6 v9 v11 v20 (ix2 p c)
      = max ((∑ k : Fin 10000, v20 (ix2 p k) * v6 (ix3 (0 : Fin 1) k c))
          + k0_pay3 (F := Ideal) i v9 v11 (ix2 (0 : Fin 1) c)) (Ideal.ofBits .f32 0x00000000#32) := by
  unfold k0_pay5
  show max
      (matmul (F := Ideal) dot_S200x10000_S10000x128_S200x128_1_0_0_1_n_n none v20 (k0_pay2 (F := Ideal) v6)
          (constant (F := Ideal) S200x128 .f32 0x00000000#32) (ix2 p c)
        + broadcastTo S200x128 (k0_pay3 (F := Ideal) i v9 v11) _ (ix2 p c))
      (Ideal.ofBits .f32 0x00000000#32) = _
  refine congrArg (fun t => max t (Ideal.ofBits .f32 0x00000000#32)) (congrArg₂ (· + ·) ?_ ?_)
  · refine (Cert.LibMatmul2D.rows_cols (φ₁ := .f32) (φ₂ := .f32) _ none v20 (k0_pay2 (F := Ideal) v6) p c).trans ?_
    exact Finset.sum_congr rfl fun k _ => by rw [pay2_at]
  · exact broadcastTo_1b_ab_apply _ _ p c

/-! ## A block of the next support -/

/-- A block of the next support, as a one-page array: entry (p, c) is the sum over j of the hidden block's
    entry (p, j) times the weight's entry (j, c). -/
theorem pay6_at (i : grid0.Coords) (v6 : Vec Ideal S1x10000x128 .f32) (v9 v11 : Vec Ideal S1x128 .f32)
    (v14 : Vec Ideal S200x10000 .f32) (v34 : Vec Ideal S128x128 .f32) (u : Fin 1) (p : Fin 200) (c : Fin 128) :
    k0_pay6 (F := Ideal) i v6 v9 v11 v14 v34 (ix3 u p c)
      = ∑ j : Fin 128, k0_pay4 (F := Ideal) i v6 v9 v11 v14 (ix2 p j) * v34 (ix2 j c) := by
  unfold k0_pay6
  refine (shapeCast_ab_1ab_apply _ _ u p c).trans ?_
  exact Cert.LibMatmul2D.rows_cols (φ₁ := .f32) (φ₂ := .f32) _ none (k0_pay4 (F := Ideal) i v6 v9 v11 v14) v34 p c

/-- The same block of the next support from the second hidden block. -/
theorem pay7_at (i : grid0.Coords) (v6 : Vec Ideal S1x10000x128 .f32) (v9 v11 : Vec Ideal S1x128 .f32)
    (v20 : Vec Ideal S200x10000 .f32) (v40 : Vec Ideal S128x128 .f32) (u : Fin 1) (p : Fin 200) (c : Fin 128) :
    k0_pay7 (F := Ideal) i v6 v9 v11 v20 v40 (ix3 u p c)
      = ∑ j : Fin 128, k0_pay5 (F := Ideal) i v6 v9 v11 v20 (ix2 p j) * v40 (ix2 j c) := by
  unfold k0_pay7
  refine (shapeCast_ab_1ab_apply _ _ u p c).trans ?_
  exact Cert.LibMatmul2D.rows_cols (φ₁ := .f32) (φ₂ := .f32) _ none (k0_pay5 (F := Ideal) i v6 v9 v11 v20) v40 p c

/-! ## A block of a linear head -/

/-- A block of a linear head: entry (p, d) is the sum over j of the hidden block's entry (p, j) times the
    weight's entry (j, d), plus the bias row at d. -/
theorem pay8_at (v19 : FVec Ideal S200x128 .f32) (v32 : Vec Ideal S128x64 .f32) (v34 : Vec Ideal S1x64 .f32)
    (p : Fin 200) (d : Fin 64) :
    k0_pay8 (F := Ideal) v19 v32 v34 (ix2 p d)
      = (∑ j : Fin 128, v19 (ix2 p j) * v32 (ix2 j d)) + v34 (ix2 (0 : Fin 1) d) := by
  unfold k0_pay8
  show matmul (F := Ideal) dot_S200x128_S128x64_S200x64_1_0_0_1_n_n none v19 v32
        (constant (F := Ideal) S200x64 .f32 0x00000000#32) (ix2 p d)
      + broadcastTo S200x64 (shapeCast S1x64 v34 _) _ (ix2 p d) = _
  refine congrArg₂ (· + ·) (Cert.LibMatmul2D.rows_cols (φ₁ := .f32) (φ₂ := .f32) _ none v19 v32 p d) ?_
  refine (broadcastTo_1b_ab_apply _ _ p d).trans ?_
  rw [shapeCast_self]

/-- The same head on the second hidden block. -/
theorem pay9_at (v25 : FVec Ideal S200x128 .f32) (v39 : Vec Ideal S128x64 .f32) (v41 : Vec Ideal S1x64 .f32)
    (p : Fin 200) (d : Fin 64) :
    k0_pay9 (F := Ideal) v25 v39 v41 (ix2 p d)
      = (∑ j : Fin 128, v25 (ix2 p j) * v39 (ix2 j d)) + v41 (ix2 (0 : Fin 1) d) := by
  unfold k0_pay9
  show matmul (F := Ideal) dot_S200x128_S128x64_S200x64_1_0_0_1_n_n none v25 v39
        (constant (F := Ideal) S200x64 .f32 0x00000000#32) (ix2 p d)
      + broadcastTo S200x64 (shapeCast S1x64 v41 _) _ (ix2 p d) = _
  refine congrArg₂ (· + ·) (Cert.LibMatmul2D.rows_cols (φ₁ := .f32) (φ₂ := .f32) _ none v25 v39 p d) ?_
  refine (broadcastTo_1b_ab_apply _ _ p d).trans ?_
  rw [shapeCast_self]

/-- The other head on the first hidden block. -/
theorem pay10_at (v19 : FVec Ideal S200x128 .f32) (v46 : Vec Ideal S128x64 .f32) (v48 : Vec Ideal S1x64 .f32)
    (p : Fin 200) (d : Fin 64) :
    k0_pay10 (F := Ideal) v19 v46 v48 (ix2 p d)
      = (∑ j : Fin 128, v19 (ix2 p j) * v46 (ix2 j d)) + v48 (ix2 (0 : Fin 1) d) := by
  unfold k0_pay10
  show matmul (F := Ideal) dot_S200x128_S128x64_S200x64_1_0_0_1_n_n none v19 v46
        (constant (F := Ideal) S200x64 .f32 0x00000000#32) (ix2 p d)
      + broadcastTo S200x64 (shapeCast S1x64 v48 _) _ (ix2 p d) = _
  refine congrArg₂ (· + ·) (Cert.LibMatmul2D.rows_cols (φ₁ := .f32) (φ₂ := .f32) _ none v19 v46 p d) ?_
  refine (broadcastTo_1b_ab_apply _ _ p d).trans ?_
  rw [shapeCast_self]

/-- The other head on the second hidden block. -/
theorem pay11_at (v25 : FVec Ideal S200x128 .f32) (v53 : Vec Ideal S128x64 .f32) (v55 : Vec Ideal S1x64 .f32)
    (p : Fin 200) (d : Fin 64) :
    k0_pay11 (F := Ideal) v25 v53 v55 (ix2 p d)
      = (∑ j : Fin 128, v25 (ix2 p j) * v53 (ix2 j d)) + v55 (ix2 (0 : Fin 1) d) := by
  unfold k0_pay11
  show matmul (F := Ideal) dot_S200x128_S128x64_S200x64_1_0_0_1_n_n none v25 v53
        (constant (F := Ideal) S200x64 .f32 0x00000000#32) (ix2 p d)
      + broadcastTo S200x64 (shapeCast S1x64 v55 _) _ (ix2 p d) = _
  refine congrArg₂ (· + ·) (Cert.LibMatmul2D.rows_cols (φ₁ := .f32) (φ₂ := .f32) _ none v25 v53 p d) ?_
  refine (broadcastTo_1b_ab_apply _ _ p d).trans ?_
  rw [shapeCast_self]

end Cert.KernelIdeal.PayloadAt

end
-- ==== Proof.KValue.lean ====
/-
  At the ideal instance, what the region leaves in its result arrays is the encoder of the specification.

  Layer by layer, every entry of the model's buffers is an entry of the specification's matrices of the
  arrays the region was entered with: the first slab of the scratch is the first support; row p of tile j
  of the second slab is row 400·j + p of the second support in its even half and row 400·j + 200 + p in
  its odd half, because the even adjacency block at tile j is rows 400·j … 400·j+199 of the adjacency and
  the odd one the next 200, and because in phase 0 the bias row selected is the first layer's; so the
  second slab is the second support; and row p of the result block stored at tile i of phase 1 is row
  400·i + p of the head applied to the second hidden layer, the bias row selected there being the second
  layer's. Each step is "a matrix product read at an entry is the sum over the contracted index", the
  same sum on both sides; nothing is reordered and no entry need be finite.
-/
import proofs.«144098_g9328668967786_cont_9to1c4b_67_19_alg».proof.Proof.KBlocks
import proofs.«144098_g9328668967786_cont_9to1c4b_67_19_alg».proof.Proof.KPayload
import proofs.«144098_g9328668967786_cont_9to1c4b_67_19_alg».proof.Proof.Spec

set_option maxRecDepth 16384

noncomputable section

open scoped BigOperators

namespace Cert.KernelIdeal.ValueAt

open Cert.KernelIdeal Cert.KernelIdeal.Gen Cert.KernelIdeal.Frame Cert.KernelIdeal.PayloadAt Cert.Spec

open Idealize.ShloMosaic Idealize.ShloMosaic.TcCoe Idealize.ShloMosaic.ValueIdx
open Idealize.SL Idealize.SL.Sem

/-- A one-row array [1, n] as the vector of its row. -/
abbrev rowvec {n : ℕ} (r : (⟨2, ![1, n]⟩ : Shape).Idx → EReal) : (⟨1, ![n]⟩ : Shape).Idx → EReal :=
  fun i => r (ix2 (0 : Fin 1) (⟨(i 0).val, (i 0).isLt⟩ : Fin n))

theorem rowvec_ix1 {n : ℕ} (r : (⟨2, ![1, n]⟩ : Shape).Idx → EReal) (q : Fin n) : rowvec r (ix1 q) = r (ix2 (0 : Fin 1) q) := rfl

/-- The arrays as the region finds them: features, adjacency, the weights, and the bias rows as vectors. -/
abbrev aX (m : (ℓ : Loc nD τ sig) → Buf (Elt Ideal) ℓ) (c : Dev nD) : (⟨2, ![10000, 128]⟩ : Shape).Idx → EReal := V m c main_arg0
abbrev aA (m : (ℓ : Loc nD τ sig) → Buf (Elt Ideal) ℓ) (c : Dev nD) : (⟨2, ![10000, 10000]⟩ : Shape).Idx → EReal := V m c main_arg1
abbrev aW1 (m : (ℓ : Loc nD τ sig) → Buf (Elt Ideal) ℓ) (c : Dev nD) : (⟨2, ![128, 128]⟩ : Shape).Idx → EReal := V m c main_arg2
abbrev aB1 (m : (ℓ : Loc nD τ sig) → Buf (Elt Ideal) ℓ) (c : Dev nD) : (⟨1, ![128]⟩ : Shape).Idx → EReal := rowvec (V m c main_v0)
abbrev aW2 (m : (ℓ : Loc nD τ sig) → Buf (Elt Ideal) ℓ) (c : Dev nD) : (⟨2, ![128, 128]⟩ : Shape).Idx → EReal := V m c main_arg4
abbrev aB2 (m : (ℓ : Loc nD τ sig) → Buf (Elt Ideal) ℓ) (c : Dev nD) : (⟨1, ![128]⟩ : Shape).Idx → EReal := rowvec (V m c main_v1)
abbrev aWmu (m : (ℓ : Loc nD τ sig) → Buf (Elt Ideal) ℓ) (c : Dev nD) : (⟨2, ![128, 64]⟩ : Shape).Idx → EReal := V m c main_arg6
abbrev aBmu (m : (ℓ : Loc nD τ sig) → Buf (Elt Ideal) ℓ) (c : Dev nD) : (⟨1, ![64]⟩ : Shape).Idx → EReal := rowvec (V m c main_v2)
abbrev aWlv (m : (ℓ : Loc nD τ sig) → Buf (Elt Ideal) ℓ) (c : Dev nD) : (⟨2, ![128, 64]⟩ : Shape).Idx → EReal := V m c main_arg8
abbrev aBlv (m : (ℓ : Loc nD τ sig) → Buf (Elt Ideal) ℓ) (c : Dev nD) : (⟨1, ![64]⟩ : Shape).Idx → EReal := rowvec (V m c main_v3)

/-- The first slab is the first support. -/
theorem slab1_at (m : (ℓ : Loc nD τ sig) → Buf (Elt Ideal) ℓ) (c : Dev nD) (k : Fin 10000) (q : Fin 128) :
    slab1 m c (ix3 (0 : Fin 1) k q) = support1 (aX m c) (aW1 m c) k q := by
  unfold slab1
  refine (pay1_at _ _ (0 : Fin 1) k q).trans ?_
  unfold support1
  refine Finset.sum_congr rfl fun j _ => ?_
  rw [iblk0_at m c _ k j, iblk3_at m c _ j q]

/-- A row of a hidden layer, from an adjacency block whose row p is row r of the adjacency: the first layer in
    phase 0, where the bias row selected is b₁ and the slab read is the first; the second in phase 1. (The second
    needs the second slab, identified further down; Lean checks the order.) -/
theorem hidden1_row4 (m : (ℓ : Loc nD τ sig) → Buf (Elt Ideal) ℓ) (c : Dev nD) (t : Fin cfg0.N) (ht : t.val < 25) (adjBlk : Vec Ideal S200x10000 .f32)
    (p : Fin 200) (r : Fin 10000) (hadj : ∀ k : Fin 10000, adjBlk (ix2 p k) = aA m c (ix2 r k)) (q : Fin 128) :
    k0_pay4 (grid0.coords t) (slab1 m c) (iblk m c 4 t) (iblk m c 6 t) adjBlk (ix2 p q) = hidden1 (aX m c) (aA m c) (aW1 m c) (aB1 m c) r q := by
  refine (pay4_at _ _ _ _ _ p q).trans ?_
  rw [pay3_at_zero (grid0.coords t) (by rw [coords_phase t]; omega)]
  unfold hidden1
  congr 1
  congr 1
  · refine Finset.sum_congr rfl fun k _ => ?_
    rw [hadj k, slab1_at m c k q]
  · exact iblk4_at m c t (0 : Fin 1) q

theorem hidden1_row5 (m : (ℓ : Loc nD τ sig) → Buf (Elt Ideal) ℓ) (c : Dev nD) (t : Fin cfg0.N) (ht : t.val < 25) (adjBlk : Vec Ideal S200x10000 .f32)
    (p : Fin 200) (r : Fin 10000) (hadj : ∀ k : Fin 10000, adjBlk (ix2 p k) = aA m c (ix2 r k)) (q : Fin 128) :
    k0_pay5 (grid0.coords t) (slab1 m c) (iblk m c 4 t) (iblk m c 6 t) adjBlk (ix2 p q) = hidden1 (aX m c) (aA m c) (aW1 m c) (aB1 m c) r q := by
  refine (pay5_at _ _ _ _ _ p q).trans ?_
  rw [pay3_at_zero (grid0.coords t) (by rw [coords_phase t]; omega)]
  unfold hidden1
  congr 1
  congr 1
  · refine Finset.sum_congr rfl fun k _ => ?_
    rw [hadj k, slab1_at m c k q]
  · exact iblk4_at m c t (0 : Fin 1) q

/-- Tile j's even half is rows 400·j … 400·j+199 of the second support; -/
theorem tileE_rows (m : (ℓ : Loc nD τ sig) → Buf (Elt Ideal) ℓ) (c : Dev nD) (j : ℕ) (hj : j < 25) (p : Fin 200) (q : Fin 128) :
    tileE m c j hj (ix3 (0 : Fin 1) p q) = support2 (aX m c) (aA m c) (aW1 m c) (aB1 m c) (aW2 m c) (⟨400 * j + p.val, by have := p.isLt; omega⟩ : Fin 10000) q := by
  unfold tileE
  refine (pay6_at _ _ _ _ _ _ (0 : Fin 1) p q).trans ?_
  unfold support2
  refine Finset.sum_congr rfl fun jj _ => ?_
  rw [hidden1_row4 m c (pt j (by omega)) hj (iblk m c 1 (pt j (by omega))) p _ (fun k => ?_) jj, iblk5_at m c _ jj q]
  refine (iblk1_at m c (pt j (by omega)) p k).trans ?_
  congr 2
  apply Fin.ext
  show 400 * (j % 25) + p.val = 400 * j + p.val
  rw [Nat.mod_eq_of_lt hj]

/-- and its odd half the next 200 rows. -/
theorem tileO_rows (m : (ℓ : Loc nD τ sig) → Buf (Elt Ideal) ℓ) (c : Dev nD) (j : ℕ) (hj : j < 25) (p : Fin 200) (q : Fin 128) :
    tileO m c j hj (ix3 (0 : Fin 1) p q) = support2 (aX m c) (aA m c) (aW1 m c) (aB1 m c) (aW2 m c) (⟨400 * j + 200 + p.val, by have := p.isLt; omega⟩ : Fin 10000) q := by
  unfold tileO
  refine (pay7_at _ _ _ _ _ _ (0 : Fin 1) p q).trans ?_
  unfold support2
  refine Finset.sum_congr rfl fun jj _ => ?_
  rw [hidden1_row5 m c (pt j (by omega)) hj (iblk m c 2 (pt j (by omega))) p _ (fun k => ?_) jj, iblk5_at m c _ jj q]
  refine (iblk2_at m c (pt j (by omega)) p k).trans ?_
  congr 2
  apply Fin.ext
  show 400 * (j % 25) + 200 + p.val = 400 * j + 200 + p.val
  rw [Nat.mod_eq_of_lt hj]

/-- So the second slab is the second support. -/
theorem slab2_at (m : (ℓ : Loc nD τ sig) → Buf (Elt Ideal) ℓ) (c : Dev nD) (r : Fin 10000) (q : Fin 128) :
    slab2 m c (ix3 (0 : Fin 1) r q) = support2 (aX m c) (aA m c) (aW1 m c) (aB1 m c) (aW2 m c) r q := by
  have hr := r.isLt
  unfold slab2
  by_cases h : r.val % 400 < 200
  · refine (dif_pos h).trans ?_
    refine (tileE_rows m c (r.val / 400) (by omega) ⟨r.val % 400, h⟩ ⟨q.val, q.isLt⟩).trans ?_
    congr 2
    show 400 * (r.val / 400) + r.val % 400 = r.val
    omega
  · refine (dif_neg h).trans ?_
    refine (tileO_rows m c (r.val / 400) (by omega) ⟨r.val % 400 - 200, by omega⟩ ⟨q.val, q.isLt⟩).trans ?_
    congr 2
    show 400 * (r.val / 400) + 200 + (r.val % 400 - 200) = r.val
    omega

theorem hidden2_row4 (m : (ℓ : Loc nD τ sig) → Buf (Elt Ideal) ℓ) (c : Dev nD) (t : Fin cfg0.N) (ht : 25 ≤ t.val) (adjBlk : Vec Ideal S200x10000 .f32)
    (p : Fin 200) (r : Fin 10000) (hadj : ∀ k : Fin 10000, adjBlk (ix2 p k) = aA m c (ix2 r k)) (q : Fin 128) :
    k0_pay4 (grid0.coords t) (slab2 m c) (iblk m c 4 t) (iblk m c 6 t) adjBlk (ix2 p q) = hidden2 (aX m c) (aA m c) (aW1 m c) (aB1 m c) (aW2 m c) (aB2 m c) r q := by
  refine (pay4_at _ _ _ _ _ p q).trans ?_
  rw [pay3_at_one (grid0.coords t) (by rw [coords_phase t]; have := t.isLt; have hN : cfg0.N = 50 := N_0; omega)]
  unfold hidden2
  congr 1
  congr 1
  · refine Finset.sum_congr rfl fun k _ => ?_
    rw [hadj k, slab2_at m c k q]
  · exact iblk6_at m c t (0 : Fin 1) q

theorem hidden2_row5 (m : (ℓ : Loc nD τ sig) → Buf (Elt Ideal) ℓ) (c : Dev nD) (t : Fin cfg0.N) (ht : 25 ≤ t.val) (adjBlk : Vec Ideal S200x10000 .f32)
    (p : Fin 200) (r : Fin 10000) (hadj : ∀ k : Fin 10000, adjBlk (ix2 p k) = aA m c (ix2 r k)) (q : Fin 128) :
    k0_pay5 (grid0.coords t) (slab2 m c) (iblk m c 4 t) (iblk m c 6 t) adjBlk (ix2 p q) = hidden2 (aX m c) (aA m c) (aW1 m c) (aB1 m c) (aW2 m c) (aB2 m c) r q := by
  refine (pay5_at _ _ _ _ _ p q).trans ?_
  rw [pay3_at_one (grid0.coords t) (by rw [coords_phase t]; have := t.isLt; have hN : cfg0.N = 50 := N_0; omega)]
  unfold hidden2
  congr 1
  congr 1
  · refine Finset.sum_congr rfl fun k _ => ?_
    rw [hadj k, slab2_at m c k q]
  · exact iblk6_at m c t (0 : Fin 1) q

/-- A head read at row r, column d. -/
theorem head_at (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W : (⟨2, ![128, 64]⟩ : Shape).Idx → EReal) (b : (⟨1, ![64]⟩ : Shape).Idx → EReal) (r : Fin 10000) (d : Fin 64) :
    head x adj W1 b1 W2 b2 W b (ix2 r d) = (∑ j : Fin 128, hidden2 x adj W1 b1 W2 b2 r j * W (ix2 j d)) + b (ix1 d) := rfl

/-- A 400-row block read in its first 200 rows is its first half, in its last 200 its second. -/
theorem twoHalves_lo (a b : FVec Ideal S200x64 .f32) (p : Fin 400) (d : Fin 64) (h : p.val < 200) :
    twoHalves a b (ix2 p d) = a (ix2 (⟨p.val, h⟩ : Fin 200) (⟨d.val, d.isLt⟩ : Fin 64)) := by
  unfold twoHalves; exact dif_pos h
theorem twoHalves_hi (a b : FVec Ideal S200x64 .f32) (p : Fin 400) (d : Fin 64) (h : ¬ p.val < 200) :
    twoHalves a b (ix2 p d) = b (ix2 (⟨p.val - 200, by have := p.isLt; omega⟩ : Fin 200) (⟨d.val, d.isLt⟩ : Fin 64)) := by
  unfold twoHalves; exact dif_neg h

/-- The μ block stored at tile i of phase 1 is rows 400·i … 400·i+399 of the μ head; the log-variance block likewise. -/
theorem out11_at (m : (ℓ : Loc nD τ sig) → Buf (Elt Ideal) ℓ) (c : Dev nD) (t : Fin cfg0.N) (ht : 25 ≤ t.val) (p : Fin 400) (d : Fin 64) :
    out11 m c t (ix2 p d) = head (aX m c) (aA m c) (aW1 m c) (aB1 m c) (aW2 m c) (aB2 m c) (aWmu m c) (aBmu m c)
      (ix2 (⟨400 * (t.val - 25) + p.val, by have := p.isLt; have := t.isLt; have hN : cfg0.N = 50 := N_0; omega⟩ : Fin 10000) d) := by
  have hN : cfg0.N = 50 := N_0
  have htl := t.isLt
  have hpl := p.isLt
  unfold out11
  by_cases h : p.val < 200
  · have hadj : ∀ k : Fin 10000, (iblk m c 1 t : Vec Ideal S200x10000 .f32) (ix2 (⟨p.val, h⟩ : Fin 200) k)
        = aA m c (ix2 (⟨400 * (t.val - 25) + p.val, by omega⟩ : Fin 10000) k) := fun k =>
      (iblk1_at m c t ⟨p.val, h⟩ k).trans
        (congrArg (fun r : Fin 10000 => (V m c main_arg1 : S10000x10000.Idx → EReal) (ix2 r k))
          (Fin.ext (by show 400 * (t.val % 25) + p.val = 400 * (t.val - 25) + p.val; omega)))
    refine (twoHalves_lo _ _ p d h).trans ?_
    refine (pay8_at _ _ _ (⟨p.val, h⟩ : Fin 200) (⟨d.val, d.isLt⟩ : Fin 64)).trans ?_
    refine Eq.trans ?_ (head_at _ _ _ _ _ _ _ _ _ d).symm
    refine congrArg₂ (· + ·) (Finset.sum_congr rfl fun jj _ => ?_) ?_
    · exact congrArg₂ (· * ·) (hidden2_row4 m c t ht (iblk m c 1 t) ⟨p.val, h⟩ _ hadj jj) (iblk7_at m c t jj ⟨d.val, d.isLt⟩)
    · exact iblk8_at m c t (0 : Fin 1) ⟨d.val, d.isLt⟩
  · have hadj : ∀ k : Fin 10000, (iblk m c 2 t : Vec Ideal S200x10000 .f32) (ix2 (⟨p.val - 200, by omega⟩ : Fin 200) k)
        = aA m c (ix2 (⟨400 * (t.val - 25) + p.val, by omega⟩ : Fin 10000) k) := fun k =>
      (iblk2_at m c t ⟨p.val - 200, by omega⟩ k).trans
        (congrArg (fun r : Fin 10000 => (V m c main_arg1 : S10000x10000.Idx → EReal) (ix2 r k))
          (Fin.ext (by show 400 * (t.val % 25) + 200 + (p.val - 200) = 400 * (t.val - 25) + p.val; omega)))
    refine (twoHalves_hi _ _ p d h).trans ?_
    refine (pay9_at _ _ _ (⟨p.val - 200, by omega⟩ : Fin 200) (⟨d.val, d.isLt⟩ : Fin 64)).trans ?_
    refine Eq.trans ?_ (head_at _ _ _ _ _ _ _ _ _ d).symm
    refine congrArg₂ (· + ·) (Finset.sum_congr rfl fun jj _ => ?_) ?_
    · exact congrArg₂ (· * ·) (hidden2_row5 m c t ht (iblk m c 2 t) ⟨p.val - 200, by omega⟩ _ hadj jj) (iblk7_at m c t jj ⟨d.val, d.isLt⟩)
    · exact iblk8_at m c t (0 : Fin 1) ⟨d.val, d.isLt⟩

theorem out12_at (m : (ℓ : Loc nD τ sig) → Buf (Elt Ideal) ℓ) (c : Dev nD) (t : Fin cfg0.N) (ht : 25 ≤ t.val) (p : Fin 400) (d : Fin 64) :
    out12 m c t (ix2 p d) = head (aX m c) (aA m c) (aW1 m c) (aB1 m c) (aW2 m c) (aB2 m c) (aWlv m c) (aBlv m c)
      (ix2 (⟨400 * (t.val - 25) + p.val, by have := p.isLt; have := t.isLt; have hN : cfg0.N = 50 := N_0; omega⟩ : Fin 10000) d) := by
  have hN : cfg0.N = 50 := N_0
  have htl := t.isLt
  have hpl := p.isLt
  unfold out12
  by_cases h : p.val < 200
  · have hadj : ∀ k : Fin 10000, (iblk m c 1 t : Vec Ideal S200x10000 .f32) (ix2 (⟨p.val, h⟩ : Fin 200) k)
        = aA m c (ix2 (⟨400 * (t.val - 25) + p.val, by omega⟩ : Fin 10000) k) := fun k =>
      (iblk1_at m c t ⟨p.val, h⟩ k).trans
        (congrArg (fun r : Fin 10000 => (V m c main_arg1 : S10000x10000.Idx → EReal) (ix2 r k))
          (Fin.ext (by show 400 * (t.val % 25) + p.val = 400 * (t.val - 25) + p.val; omega)))
    refine (twoHalves_lo _ _ p d h).trans ?_
    refine (pay10_at _ _ _ (⟨p.val, h⟩ : Fin 200) (⟨d.val, d.isLt⟩ : Fin 64)).trans ?_
    refine Eq.trans ?_ (head_at _ _ _ _ _ _ _ _ _ d).symm
    refine congrArg₂ (· + ·) (Finset.sum_congr rfl fun jj _ => ?_) ?_
    · exact congrArg₂ (· * ·) (hidden2_row4 m c t ht (iblk m c 1 t) ⟨p.val, h⟩ _ hadj jj) (iblk9_at m c t jj ⟨d.val, d.isLt⟩)
    · exact iblk10_at m c t (0 : Fin 1) ⟨d.val, d.isLt⟩
  · have hadj : ∀ k : Fin 10000, (iblk m c 2 t : Vec Ideal S200x10000 .f32) (ix2 (⟨p.val - 200, by omega⟩ : Fin 200) k)
        = aA m c (ix2 (⟨400 * (t.val - 25) + p.val, by omega⟩ : Fin 10000) k) := fun k =>
      (iblk2_at m c t ⟨p.val - 200, by omega⟩ k).trans
        (congrArg (fun r : Fin 10000 => (V m c main_arg1 : S10000x10000.Idx → EReal) (ix2 r k))
          (Fin.ext (by show 400 * (t.val % 25) + 200 + (p.val - 200) = 400 * (t.val - 25) + p.val; omega)))
    refine (twoHalves_hi _ _ p d h).trans ?_
    refine (pay11_at _ _ _ (⟨p.val - 200, by omega⟩ : Fin 200) (⟨d.val, d.isLt⟩ : Fin 64)).trans ?_
    refine Eq.trans ?_ (head_at _ _ _ _ _ _ _ _ _ d).symm
    refine congrArg₂ (· + ·) (Finset.sum_congr rfl fun jj _ => ?_) ?_
    · exact congrArg₂ (· * ·) (hidden2_row5 m c t ht (iblk m c 2 t) ⟨p.val - 200, by omega⟩ _ hadj jj) (iblk9_at m c t jj ⟨d.val, d.isLt⟩)
    · exact iblk10_at m c t (0 : Fin 1) ⟨d.val, d.isLt⟩

end Cert.KernelIdeal.ValueAt

end
-- ==== Proof.KFinal.lean ====
/-
  The closing step of the value: what the region leaves in its two result arrays.

  A result window is written back only at the points of phase 1. At tile i of phase 1 it sits on block row i of
  its 10000 × 64 array, so entry (p, d) of the block written back there is entry (400·i + p, d) of the array.
  Hence, for any function G of the array's index: if the block the body stores at tile i of phase 1 is rows
  400·i … 400·i + 399 of G, then every write-back writes its block of G; the 25 blocks of phase 1 tile the array,
  row r lying in the block of tile r / 400; so the array ends holding G. With G the specification's head applied
  to the arrays the region is entered with, this is the kernel's result. Those arrays are the launch arrays: no
  operation before the region writes an argument, and each bias row is its bias vector read as a 1 × n matrix,
  so read back as a vector it is the bias vector itself.
-/
import proofs.«144098_g9328668967786_cont_9to1c4b_67_19_alg».proof.Proof.KBlocks
import proofs.«144098_g9328668967786_cont_9to1c4b_67_19_alg».proof.Proof.KEnds
import proofs.«144098_g9328668967786_cont_9to1c4b_67_19_alg».proof.Proof.KLaunch
import proofs.«144098_g9328668967786_cont_9to1c4b_67_19_alg».proof.Proof.KValue
import Idealize.ShloMosaic.Lib.Pipeline.Value
import Idealize.ShloMosaic.Lib.ValueLayout

set_option maxRecDepth 16384

noncomputable section

namespace Cert.KernelIdeal.ValueAt

open Cert.KernelIdeal Cert.KernelIdeal.Gen Cert.KernelIdeal.Frame Cert.Spec

open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The μ array (window 11) -/

/-- Entry (p, d) of the block a point places window 11 on is entry (400·(block row) + p, d) of the result array. -/
theorem blk11_read (c : Dev nD) (G : S10000x64.Idx → Elt F .f32) (t : Fin cfg0.N) (p : Fin 400) (d : Fin 64)
    (r : Fin 10000) (hr : r.val = win0_11.index t 0 * 400 + p.val) :
    ((((cfg0.win 11).blk t).view.read (Elt F) (G : Buf (Elt F) ((cfg0.win 11).arr.view.loc (c : Thread nD τ)))) : Vec F S400x64 .f32) (ix2 p d)
      = G (ix2 r d) := by
  rw [View.read_apply]
  show G _ = G _
  congr 1
  funext a
  apply Fin.ext
  match a with
  | ⟨0, _⟩ => show win0_11.index t 0 * 400 + 1 * p.val = r.val; rw [hr]; omega
  | ⟨1, _⟩ => show win0_11.index t 1 * 64 + 1 * d.val = d.val; rw [(index11 t).2]; omega

/-- What a point of phase 1 writes back of window 11's buffer is its block of `G`, once the block the body stores at tile
    i of phase 1 is known to be rows 400·i … 400·i+399 of `G`. -/
theorem flushed11_of (m : (ℓ : Loc nD τ sig) → Buf (Elt F) ℓ) (c : Dev nD) (G : S10000x64.Idx → Elt F .f32)
    (hG : ∀ (t : Fin cfg0.N), 25 ≤ t.val → ∀ (p : Fin 400) (d : Fin 64) (h : 400 * (t.val - 25) + p.val < 10000),
      out11 m c t (ix2 p d) = G (ix2 (⟨400 * (t.val - 25) + p.val, h⟩ : Fin 10000) d))
    (t : Fin cfg0.N) (hf : (cfg0.win 11).flush t = true) :
    (dat m c).flushed 11 t = ((cfg0.win 11).blk t).view.read (Elt F) (G : Buf (Elt F) ((cfg0.win 11).arr.view.loc (c : Thread nD τ))) := by
  have hN : cfg0.N = 50 := N_0
  have htl := t.isLt
  have ht : 25 ≤ t.val := by
    by_contra h
    rw [noFlush11_phase0 t (by omega)] at hf
    exact Bool.false_ne_true hf
  show (cfg0.win 11).cut (grid0.coords t) ((dat m c).after 11 t) = _
  rw [aft11]
  funext y
  obtain ⟨p, d, rfl⟩ : ∃ (p : Fin 400) (d : Fin 64), y = ix2 p d := ⟨y 0, y 1, eq_ix2 (n0 := 400) (n1 := 64) y⟩
  have hp := p.isLt
  have hb : 400 * (t.val - 25) + p.val < 10000 := by omega
  have hr : (⟨400 * (t.val - 25) + p.val, hb⟩ : Fin 10000).val = win0_11.index t 0 * 400 + p.val := by
    show 400 * (t.val - 25) + p.val = win0_11.index t 0 * 400 + p.val
    rw [(index11 t).1, if_neg (by omega)]; omega
  refine Eq.trans ?_ (blk11_read c G t p d ⟨_, hb⟩ hr).symm
  refine Eq.trans ?_ (hG t ht p d hb)
  rfl

/-- Every entry of the result array lies in the block of the point of phase 1 whose tile its row belongs to. -/
theorem cover11 (c : Dev nD) (i : ((cfg0.win 11).arr.view.loc (c : Thread nD τ)).2.ty.Idx) :
    ∃ t : Fin cfg0.N, (cfg0.win 11).flush t = true ∧ i ∈ ((cfg0.win 11).blk t).view.set := by
  have hN : cfg0.N = 50 := N_0
  have h0 : (i 0 : Nat) < 10000 := (i 0).isLt
  have h1 : (i 1 : Nat) < 64 := (i 1).isLt
  have hlt : 25 + (i 0 : Nat) / 400 < cfg0.N := by omega
  refine ⟨⟨25 + (i 0 : Nat) / 400, hlt⟩, flush11_phase1 _ (by show 25 ≤ 25 + (i 0 : Nat) / 400; omega), ?_⟩
  show i ∈ ((View.whole main_v4_0).slice (win0_11.rect ⟨25 + (i 0 : Nat) / 400, hlt⟩)).set
  rw [View.set_slice_whole, Rect.mem_set_unit]
  intro a
  match a with
  | ⟨0, _⟩ =>
    show win0_11.index ⟨25 + (i 0 : Nat) / 400, hlt⟩ 0 * 400 ≤ (i 0 : Nat)
      ∧ (i 0 : Nat) < win0_11.index ⟨25 + (i 0 : Nat) / 400, hlt⟩ 0 * 400 + 400
    rw [(index11 ⟨25 + (i 0 : Nat) / 400, hlt⟩).1]
    show (if 25 + (i 0 : Nat) / 400 < 25 then 0 else 25 + (i 0 : Nat) / 400 - 25) * 400 ≤ (i 0 : Nat)
      ∧ (i 0 : Nat) < (if 25 + (i 0 : Nat) / 400 < 25 then 0 else 25 + (i 0 : Nat) / 400 - 25) * 400 + 400
    rw [if_neg (by omega)]
    omega
  | ⟨1, _⟩ =>
    show win0_11.index ⟨25 + (i 0 : Nat) / 400, hlt⟩ 1 * 64 ≤ (i 1 : Nat)
      ∧ (i 1 : Nat) < win0_11.index ⟨25 + (i 0 : Nat) / 400, hlt⟩ 1 * 64 + 64
    rw [(index11 ⟨25 + (i 0 : Nat) / 400, hlt⟩).2]
    omega

/-- So the μ array ends holding `G`. -/
theorem final11_of (m : (ℓ : Loc nD τ sig) → Buf (Elt F) ℓ) (c : Dev nD) (G : S10000x64.Idx → Elt F .f32)
    (hG : ∀ (t : Fin cfg0.N), 25 ≤ t.val → ∀ (p : Fin 400) (d : Fin 64) (h : 400 * (t.val - 25) + p.val < 10000),
      out11 m c t (ix2 p d) = G (ix2 (⟨400 * (t.val - 25) + p.val, h⟩ : Fin 10000) d)) :
    (dat m c).arrAt 11 cfg0.N = (G : Buf (Elt F) ((cfg0.win 11).arr.view.loc (c : Thread nD τ))) :=
  (dat m c).arrAt_eq_of_cover 11 G (flushed11_of m c G hG) (cover11 c)

/-! ## The log-variance array (window 12) -/

/-- Entry (p, d) of the block a point places window 12 on is entry (400·(block row) + p, d) of the result array. -/
theorem blk12_read (c : Dev nD) (G : S10000x64.Idx → Elt F .f32) (t : Fin cfg0.N) (p : Fin 400) (d : Fin 64)
    (r : Fin 10000) (hr : r.val = win0_12.index t 0 * 400 + p.val) :
    ((((cfg0.win 12).blk t).view.read (Elt F) (G : Buf (Elt F) ((cfg0.win 12).arr.view.loc (c : Thread nD τ)))) : Vec F S400x64 .f32) (ix2 p d)
      = G (ix2 r d) := by
  rw [View.read_apply]
  show G _ = G _
  congr 1
  funext a
  apply Fin.ext
  match a with
  | ⟨0, _⟩ => show win0_12.index t 0 * 400 + 1 * p.val = r.val; rw [hr]; omega
  | ⟨1, _⟩ => show win0_12.index t 1 * 64 + 1 * d.val = d.val; rw [(index12 t).2]; omega

/-- What a point of phase 1 writes back of window 12's buffer is its block of `G`, once the block the body stores at tile
    i of phase 1 is known to be rows 400·i … 400·i+399 of `G`. -/
theorem flushed12_of (m : (ℓ : Loc nD τ sig) → Buf (Elt F) ℓ) (c : Dev nD) (G : S10000x64.Idx → Elt F .f32)
    (hG : ∀ (t : Fin cfg0.N), 25 ≤ t.val → ∀ (p : Fin 400) (d : Fin 64) (h : 400 * (t.val - 25) + p.val < 10000),
      out12 m c t (ix2 p d) = G (ix2 (⟨400 * (t.val - 25) + p.val, h⟩ : Fin 10000) d))
    (t : Fin cfg0.N) (hf : (cfg0.win 12).flush t = true) :
    (dat m c).flushed 12 t = ((cfg0.win 12).blk t).view.read (Elt F) (G : Buf (Elt F) ((cfg0.win 12).arr.view.loc (c : Thread nD τ))) := by
  have hN : cfg0.N = 50 := N_0
  have htl := t.isLt
  have ht : 25 ≤ t.val := by
    by_contra h
    rw [noFlush12_phase0 t (by omega)] at hf
    exact Bool.false_ne_true hf
  show (cfg0.win 12).cut (grid0.coords t) ((dat m c).after 12 t) = _
  rw [aft12]
  funext y
  obtain ⟨p, d, rfl⟩ : ∃ (p : Fin 400) (d : Fin 64), y = ix2 p d := ⟨y 0, y 1, eq_ix2 (n0 := 400) (n1 := 64) y⟩
  have hp := p.isLt
  have hb : 400 * (t.val - 25) + p.val < 10000 := by omega
  have hr : (⟨400 * (t.val - 25) + p.val, hb⟩ : Fin 10000).val = win0_12.index t 0 * 400 + p.val := by
    show 400 * (t.val - 25) + p.val = win0_12.index t 0 * 400 + p.val
    rw [(index12 t).1, if_neg (by omega)]; omega
  refine Eq.trans ?_ (blk12_read c G t p d ⟨_, hb⟩ hr).symm
  refine Eq.trans ?_ (hG t ht p d hb)
  rfl

/-- Every entry of the result array lies in the block of the point of phase 1 whose tile its row belongs to. -/
theorem cover12 (c : Dev nD) (i : ((cfg0.win 12).arr.view.loc (c : Thread nD τ)).2.ty.Idx) :
    ∃ t : Fin cfg0.N, (cfg0.win 12).flush t = true ∧ i ∈ ((cfg0.win 12).blk t).view.set := by
  have hN : cfg0.N = 50 := N_0
  have h0 : (i 0 : Nat) < 10000 := (i 0).isLt
  have h1 : (i 1 : Nat) < 64 := (i 1).isLt
  have hlt : 25 + (i 0 : Nat) / 400 < cfg0.N := by omega
  refine ⟨⟨25 + (i 0 : Nat) / 400, hlt⟩, flush12_phase1 _ (by show 25 ≤ 25 + (i 0 : Nat) / 400; omega), ?_⟩
  show i ∈ ((View.whole main_v4_1).slice (win0_12.rect ⟨25 + (i 0 : Nat) / 400, hlt⟩)).set
  rw [View.set_slice_whole, Rect.mem_set_unit]
  intro a
  match a with
  | ⟨0, _⟩ =>
    show win0_12.index ⟨25 + (i 0 : Nat) / 400, hlt⟩ 0 * 400 ≤ (i 0 : Nat)
      ∧ (i 0 : Nat) < win0_12.index ⟨25 + (i 0 : Nat) / 400, hlt⟩ 0 * 400 + 400
    rw [(index12 ⟨25 + (i 0 : Nat) / 400, hlt⟩).1]
    show (if 25 + (i 0 : Nat) / 400 < 25 then 0 else 25 + (i 0 : Nat) / 400 - 25) * 400 ≤ (i 0 : Nat)
      ∧ (i 0 : Nat) < (if 25 + (i 0 : Nat) / 400 < 25 then 0 else 25 + (i 0 : Nat) / 400 - 25) * 400 + 400
    rw [if_neg (by omega)]
    omega
  | ⟨1, _⟩ =>
    show win0_12.index ⟨25 + (i 0 : Nat) / 400, hlt⟩ 1 * 64 ≤ (i 1 : Nat)
      ∧ (i 1 : Nat) < win0_12.index ⟨25 + (i 0 : Nat) / 400, hlt⟩ 1 * 64 + 64
    rw [(index12 ⟨25 + (i 0 : Nat) / 400, hlt⟩).2]
    omega

/-- So the log-variance array ends holding `G`. -/
theorem final12_of (m : (ℓ : Loc nD τ sig) → Buf (Elt F) ℓ) (c : Dev nD) (G : S10000x64.Idx → Elt F .f32)
    (hG : ∀ (t : Fin cfg0.N), 25 ≤ t.val → ∀ (p : Fin 400) (d : Fin 64) (h : 400 * (t.val - 25) + p.val < 10000),
      out12 m c t (ix2 p d) = G (ix2 (⟨400 * (t.val - 25) + p.val, h⟩ : Fin 10000) d)) :
    (dat m c).arrAt 12 cfg0.N = (G : Buf (Elt F) ((cfg0.win 12).arr.view.loc (c : Thread nD τ))) :=
  (dat m c).arrAt_eq_of_cover 12 G (flushed12_of m c G hG) (cover12 c)

/-! ## The arrays the region is entered with are the launch arrays -/

/-- A bias row, read at (0, q), is entry q of its bias vector. -/
theorem row_v0 (m : (ℓ : Loc nD τ sig) → Buf (Elt F) ℓ) (c : Dev nD) (q : Fin 128) :
    (V m c main_v0 : S1x128.Idx → Elt F .f32) (ix2 (0 : Fin 1) q) = (m ((c : Thread nD τ).loc main_arg3) : S128.Idx → Elt F .f32) (ix1 q) := by
  rw [V_v0]; exact shapeCast_a_1a_apply _ _ 0 q
theorem row_v1 (m : (ℓ : Loc nD τ sig) → Buf (Elt F) ℓ) (c : Dev nD) (q : Fin 128) :
    (V m c main_v1 : S1x128.Idx → Elt F .f32) (ix2 (0 : Fin 1) q) = (m ((c : Thread nD τ).loc main_arg5) : S128.Idx → Elt F .f32) (ix1 q) := by
  rw [V_v1]; exact shapeCast_a_1a_apply _ _ 0 q
theorem row_v2 (m : (ℓ : Loc nD τ sig) → Buf (Elt F) ℓ) (c : Dev nD) (q : Fin 64) :
    (V m c main_v2 : S1x64.Idx → Elt F .f32) (ix2 (0 : Fin 1) q) = (m ((c : Thread nD τ).loc main_arg7) : S64.Idx → Elt F .f32) (ix1 q) := by
  rw [V_v2]; exact shapeCast_a_1a_apply _ _ 0 q
theorem row_v3 (m : (ℓ : Loc nD τ sig) → Buf (Elt F) ℓ) (c : Dev nD) (q : Fin 64) :
    (V m c main_v3 : S1x64.Idx → Elt F .f32) (ix2 (0 : Fin 1) q) = (m ((c : Thread nD τ).loc main_arg9) : S64.Idx → Elt F .f32) (ix1 q) := by
  rw [V_v3]; exact shapeCast_a_1a_apply _ _ 0 q

/-- The four bias rows, read back as vectors, are the bias vectors as launched. -/
theorem aB1_eq (m : (ℓ : Loc nD τ sig) → Buf (Elt Ideal) ℓ) (c : Dev nD) :
    aB1 m c = (m ((c : Thread nD τ).loc main_arg3) : (⟨1, ![128]⟩ : Shape).Idx → EReal) :=
  funext fun i => (row_v0 m c (i 0)).trans (congrArg _ (eq_ix1 i).symm)
theorem aB2_eq (m : (ℓ : Loc nD τ sig) → Buf (Elt Ideal) ℓ) (c : Dev nD) :
    aB2 m c = (m ((c : Thread nD τ).loc main_arg5) : (⟨1, ![128]⟩ : Shape).Idx → EReal) :=
  funext fun i => (row_v1 m c (i 0)).trans (congrArg _ (eq_ix1 i).symm)
theorem aBmu_eq (m : (ℓ : Loc nD τ sig) → Buf (Elt Ideal) ℓ) (c : Dev nD) :
    aBmu m c = (m ((c : Thread nD τ).loc main_arg7) : (⟨1, ![64]⟩ : Shape).Idx → EReal) :=
  funext fun i => (row_v2 m c (i 0)).trans (congrArg _ (eq_ix1 i).symm)
theorem aBlv_eq (m : (ℓ : Loc nD τ sig) → Buf (Elt Ideal) ℓ) (c : Dev nD) :
    aBlv m c = (m ((c : Thread nD τ).loc main_arg9) : (⟨1, ![64]⟩ : Shape).Idx → EReal) :=
  funext fun i => (row_v3 m c (i 0)).trans (congrArg _ (eq_ix1 i).symm)

/-- The features, the adjacency and the four weight matrices reach the region as launched. -/
theorem aX_eq (m : (ℓ : Loc nD τ sig) → Buf (Elt Ideal) ℓ) (c : Dev nD) :
    aX m c = (m ((c : Thread nD τ).loc main_arg0) : (⟨2, ![10000, 128]⟩ : Shape).Idx → EReal) := V_arg m c main_arg0 (by decide)
theorem aA_eq (m : (ℓ : Loc nD τ sig) → Buf (Elt Ideal) ℓ) (c : Dev nD) :
    aA m c = (m ((c : Thread nD τ).loc main_arg1) : (⟨2, ![10000, 10000]⟩ : Shape).Idx → EReal) := V_arg m c main_arg1 (by decide)
theorem aW1_eq (m : (ℓ : Loc nD τ sig) → Buf (Elt Ideal) ℓ) (c : Dev nD) :
    aW1 m c = (m ((c : Thread nD τ).loc main_arg2) : (⟨2, ![128, 128]⟩ : Shape).Idx → EReal) := V_arg m c main_arg2 (by decide)
theorem aW2_eq (m : (ℓ : Loc nD τ sig) → Buf (Elt Ideal) ℓ) (c : Dev nD) :
    aW2 m c = (m ((c : Thread nD τ).loc main_arg4) : (⟨2, ![128, 128]⟩ : Shape).Idx → EReal) := V_arg m c main_arg4 (by decide)
theorem aWmu_eq (m : (ℓ : Loc nD τ sig) → Buf (Elt Ideal) ℓ) (c : Dev nD) :
    aWmu m c = (m ((c : Thread nD τ).loc main_arg6) : (⟨2, ![128, 64]⟩ : Shape).Idx → EReal) := V_arg m c main_arg6 (by decide)
theorem aWlv_eq (m : (ℓ : Loc nD τ sig) → Buf (Elt Ideal) ℓ) (c : Dev nD) :
    aWlv m c = (m ((c : Thread nD τ).loc main_arg8) : (⟨2, ![128, 64]⟩ : Shape).Idx → EReal) := V_arg m c main_arg8 (by decide)

/-! ## The result arrays at the ideal instance -/

/-- The μ array ends holding the μ head of the arrays the region is entered with; -/
theorem final11 (m : (ℓ : Loc nD τ sig) → Buf (Elt Ideal) ℓ) (c : Dev nD) :
    (dat m c).arrAt 11 cfg0.N = head (aX m c) (aA m c) (aW1 m c) (aB1 m c) (aW2 m c) (aB2 m c) (aWmu m c) (aBmu m c) :=
  final11_of m c _ fun t ht p d _ => out11_at m c t ht p d
/-- and the log-variance array its head. -/
theorem final12 (m : (ℓ : Loc nD τ sig) → Buf (Elt Ideal) ℓ) (c : Dev nD) :
    (dat m c).arrAt 12 cfg0.N = head (aX m c) (aA m c) (aW1 m c) (aB1 m c) (aW2 m c) (aB2 m c) (aWlv m c) (aBlv m c) :=
  final12_of m c _ fun t ht p d _ => out12_at m c t ht p d

/-- The same over the launch arrays. -/
theorem final11_launch (m : (ℓ : Loc nD τ sig) → Buf (Elt Ideal) ℓ) (c : Dev nD) :
    (dat m c).arrAt 11 cfg0.N = head (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  rw [final11, aX_eq, aA_eq, aW1_eq, aB1_eq, aW2_eq, aB2_eq, aWmu_eq, aBmu_eq]
theorem final12_launch (m : (ℓ : Loc nD τ sig) → Buf (Elt Ideal) ℓ) (c : Dev nD) :
    (dat m c).arrAt 12 cfg0.N = head (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg8)) (m ((c : Thread nD τ).loc main_arg9)) := by
  rw [final12, aX_eq, aA_eq, aW1_eq, aB1_eq, aW2_eq, aB2_eq, aWlv_eq, aBlv_eq]

end Cert.KernelIdeal.ValueAt

end
-- ==== Proof.RefValue.lean ====
/-
  The reference program computes the specification.

  The reference is a chain of whole-array operations: a matrix product x · W₁, a product with the
  adjacency, a bias row broadcast over the rows, an entrywise maximum with a broadcast zero, the same
  four steps once more with W₂ and b₂, and two linear heads. Read at one index, a product is the sum
  over its contracted axis of the products of the operands' entries, a broadcast reads its operand at
  the matching column, and the entrywise operations act on the entries. Layer by layer this is the
  specification's expression tree: the supports, the hidden layers, and the head.
-/
import proofs.«144098_g9328668967786_cont_9to1c4b_67_19_alg».proof.Proof.Gen.ReferenceIdeal.Read
import proofs.«144098_g9328668967786_cont_9to1c4b_67_19_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## The operand indices of each product and broadcast, in coordinates -/

/-- x · W₁ at (r, c) reads x at (r, k). -/
theorem lidx_v0 (r : Fin 10000) (c : Fin 128) (k : Fin 128) : lidx_main_v0 (ix2 r c) k = ix2 r k :=
  funext fun a => Fin.ext (by match a with | ⟨0, _⟩ => rfl | ⟨1, _⟩ => rfl)
/-- x · W₁ at (r, c) reads W₁ at (k, c). -/
theorem ridx_v0 (r : Fin 10000) (c : Fin 128) (k : Fin 128) : ridx_main_v0 (ix2 r c) k = ix2 k c :=
  funext fun a => Fin.ext (by match a with | ⟨0, _⟩ => rfl | ⟨1, _⟩ => rfl)
/-- A · S₁ at (r, c) reads A at (r, k). -/
theorem lidx_v1 (r : Fin 10000) (c : Fin 128) (k : Fin 10000) : lidx_main_v1 (ix2 r c) k = ix2 r k :=
  funext fun a => Fin.ext (by match a with | ⟨0, _⟩ => rfl | ⟨1, _⟩ => rfl)
/-- A · S₁ at (r, c) reads S₁ at (k, c). -/
theorem ridx_v1 (r : Fin 10000) (c : Fin 128) (k : Fin 10000) : ridx_main_v1 (ix2 r c) k = ix2 k c :=
  funext fun a => Fin.ext (by match a with | ⟨0, _⟩ => rfl | ⟨1, _⟩ => rfl)
/-- The first bias, broadcast to a row and then over the rows, is read at the column. -/
theorem idx_v2_v3 (r : Fin 10000) (c : Fin 128) : idx_main_v2 (idx_main_v3 (ix2 r c)) = ix1 c :=
  funext fun a => Fin.ext (by match a with | ⟨0, _⟩ => rfl)
/-- H₁ · W₂ at (r, c) reads H₁ at (r, k). -/
theorem lidx_v7 (r : Fin 10000) (c : Fin 128) (k : Fin 128) : lidx_main_v7 (ix2 r c) k = ix2 r k :=
  funext fun a => Fin.ext (by match a with | ⟨0, _⟩ => rfl | ⟨1, _⟩ => rfl)
/-- H₁ · W₂ at (r, c) reads W₂ at (k, c). -/
theorem ridx_v7 (r : Fin 10000) (c : Fin 128) (k : Fin 128) : ridx_main_v7 (ix2 r c) k = ix2 k c :=
  funext fun a => Fin.ext (by match a with | ⟨0, _⟩ => rfl | ⟨1, _⟩ => rfl)
/-- A · S₂ at (r, c) reads A at (r, k). -/
theorem lidx_v8 (r : Fin 10000) (c : Fin 128) (k : Fin 10000) : lidx_main_v8 (ix2 r c) k = ix2 r k :=
  funext fun a => Fin.ext (by match a with | ⟨0, _⟩ => rfl | ⟨1, _⟩ => rfl)
/-- A · S₂ at (r, c) reads S₂ at (k, c). -/
theorem ridx_v8 (r : Fin 10000) (c : Fin 128) (k : Fin 10000) : ridx_main_v8 (ix2 r c) k = ix2 k c :=
  funext fun a => Fin.ext (by match a with | ⟨0, _⟩ => rfl | ⟨1, _⟩ => rfl)
/-- The second bias, broadcast to a row and then over the rows, is read at the column. -/
theorem idx_v9_v10 (r : Fin 10000) (c : Fin 128) : idx_main_v9 (idx_main_v10 (ix2 r c)) = ix1 c :=
  funext fun a => Fin.ext (by match a with | ⟨0, _⟩ => rfl)
/-- H₂ · W_μ at (r, d) reads H₂ at (r, k). -/
theorem lidx_v14 (r : Fin 10000) (c : Fin 64) (k : Fin 128) : lidx_main_v14 (ix2 r c) k = ix2 r k :=
  funext fun a => Fin.ext (by match a with | ⟨0, _⟩ => rfl | ⟨1, _⟩ => rfl)
/-- H₂ · W_μ at (r, d) reads W_μ at (k, d). -/
theorem ridx_v14 (r : Fin 10000) (c : Fin 64) (k : Fin 128) : ridx_main_v14 (ix2 r c) k = ix2 k c :=
  funext fun a => Fin.ext (by match a with | ⟨0, _⟩ => rfl | ⟨1, _⟩ => rfl)
/-- The bias of μ, broadcast to a row and then over the rows, is read at the column. -/
theorem idx_v15_v16 (r : Fin 10000) (c : Fin 64) : idx_main_v15 (idx_main_v16 (ix2 r c)) = ix1 c :=
  funext fun a => Fin.ext (by match a with | ⟨0, _⟩ => rfl)
/-- H₂ · W_lv at (r, d) reads H₂ at (r, k). -/
theorem lidx_v18 (r : Fin 10000) (c : Fin 64) (k : Fin 128) : lidx_main_v18 (ix2 r c) k = ix2 r k :=
  funext fun a => Fin.ext (by match a with | ⟨0, _⟩ => rfl | ⟨1, _⟩ => rfl)
/-- H₂ · W_lv at (r, d) reads W_lv at (k, d). -/
theorem ridx_v18 (r : Fin 10000) (c : Fin 64) (k : Fin 128) : ridx_main_v18 (ix2 r c) k = ix2 k c :=
  funext fun a => Fin.ext (by match a with | ⟨0, _⟩ => rfl | ⟨1, _⟩ => rfl)
/-- The bias of logvar, broadcast to a row and then over the rows, is read at the column. -/
theorem idx_v19_v20 (r : Fin 10000) (c : Fin 64) : idx_main_v19 (idx_main_v20 (ix2 r c)) = ix1 c :=
  funext fun a => Fin.ext (by match a with | ⟨0, _⟩ => rfl)

/-! ## The layers -/

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The first product is the first support S₁ = x · W₁. -/
theorem stage_support1 (k : Fin 10000) (c : Fin 128) :
    val_main_v0 (F := Ideal) x0 x2 (ix2 k c) = Cert.Spec.support1 x0 x2 k c := by
  rw [val_main_v0_apply]
  simp only [lidx_v0, ridx_v0]
  rfl

/-- The first maximum is the first hidden layer H₁ = max(A · S₁ + b₁, 0). -/
theorem stage_hidden1 (r : Fin 10000) (c : Fin 128) :
    val_main_v6 (F := Ideal) x0 x1 x2 x3 (ix2 r c) = Cert.Spec.hidden1 x0 x1 x2 x3 r c := by
  rw [val_main_v6_apply, val_main_v4_apply, val_main_v1_apply, val_main_v3_apply, val_main_v2_apply,
    val_main_v5_apply, val_main_cst_apply]
  simp only [Ideal.maximumf_def, Ideal.addf_def, Ideal.ofBits_def, lidx_v1, ridx_v1, idx_v2_v3,
    stage_support1]
  rfl

/-- The third product is the second support S₂ = H₁ · W₂. -/
theorem stage_support2 (k : Fin 10000) (c : Fin 128) :
    val_main_v7 (F := Ideal) x0 x1 x2 x3 x4 (ix2 k c) = Cert.Spec.support2 x0 x1 x2 x3 x4 k c := by
  rw [val_main_v7_apply]
  simp only [lidx_v7, ridx_v7, stage_hidden1]
  rfl

/-- The second maximum is the second hidden layer H₂ = max(A · S₂ + b₂, 0). -/
theorem stage_hidden2 (r : Fin 10000) (c : Fin 128) :
    val_main_v13 (F := Ideal) x0 x1 x2 x3 x4 x5 (ix2 r c) = Cert.Spec.hidden2 x0 x1 x2 x3 x4 x5 r c := by
  rw [val_main_v13_apply, val_main_v11_apply, val_main_v8_apply, val_main_v10_apply, val_main_v9_apply,
    val_main_v12_apply, val_main_cst_0_apply]
  simp only [Ideal.maximumf_def, Ideal.addf_def, Ideal.ofBits_def, lidx_v8, ridx_v8, idx_v9_v10,
    stage_support2]
  rfl

/-! ## The two heads -/

/-- The first result is the head at (W_μ, b_μ). -/
theorem ref_mu (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal)) :
    Cert.ReferenceIdeal.Read.val_main_v17 (F := Ideal) x0 x1 x2 x3 x4 x5 x6 x7
      = Cert.Spec.head x0 x1 x2 x3 x4 x5 x6 x7 := by
  funext i
  obtain ⟨r, d, rfl⟩ : ∃ (r : Fin 10000) (d : Fin 64), i = ix2 r d := ⟨i 0, i 1, eq_ix2 i⟩
  rw [val_main_v17_apply, val_main_v14_apply, val_main_v16_apply, val_main_v15_apply]
  simp only [Ideal.addf_def, lidx_v14, ridx_v14, idx_v15_v16, stage_hidden2]
  rfl

/-- The second result is the head at (W_lv, b_lv). -/
theorem ref_logvar (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x8 : (⟨S128x64, .f32⟩ : BufTy).Contents (Elt Ideal)) (x9 : (⟨S64, .f32⟩ : BufTy).Contents (Elt Ideal)) :
    Cert.ReferenceIdeal.Read.val_main_v21 (F := Ideal) x0 x1 x2 x3 x4 x5 x8 x9
      = Cert.Spec.head x0 x1 x2 x3 x4 x5 x8 x9 := by
  funext i
  obtain ⟨r, d, rfl⟩ : ∃ (r : Fin 10000) (d : Fin 64), i = ix2 r d := ⟨i 0, i 1, eq_ix2 i⟩
  rw [val_main_v21_apply, val_main_v18_apply, val_main_v20_apply, val_main_v19_apply]
  simp only [Ideal.addf_def, lidx_v18, ridx_v18, idx_v19_v20, stage_hidden2]
  rfl

end Cert.ReferenceIdeal.RefValue

end
-- ==== Proof.RefResult.lean ====
/-
  The reference's run, closed: what it leaves is the specification.

  Every execution of the reference ends; on every device the first result holds the head at
  (W_μ, b_μ), the second the head at (W_lv, b_lv), both of the arrays the run started from, and
  the ten argument arrays are as they were. The run's two results are the chain of whole-array
  operations the reference is written as, and that chain, read index by index, is the specification.
-/
import proofs.«144098_g9328668967786_cont_9to1c4b_67_19_alg».proof.Proof.Gen.ReferenceIdeal.Run
import proofs.«144098_g9328668967786_cont_9to1c4b_67_19_alg».proof.Proof.Gen.ReferenceIdeal.Read
import proofs.«144098_g9328668967786_cont_9to1c4b_67_19_alg».proof.Proof.RefValue

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo

/-- From any memory, every weakly fair execution of the reference terminates with the two results at the
    specification's heads of the arguments and the arguments unchanged. -/
theorem run_spec (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩
      (fun r => ∀ c : Dev nD,
        r.2.mem ((c.tc : Thread nD τ).loc main_v17)
          = Cert.Spec.head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v21)
          = Cert.Spec.head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run Cert.ReferenceIdeal.defs _ _).mono (fun _ h c =>
      ⟨(h c).1.trans ((val_main_v17_eq _ _ _ _ _ _ _ _).trans (ref_mu _ _ _ _ _ _ _ _)),
        (h c).2.1.trans ((val_main_v21_eq _ _ _ _ _ _ _ _).trans (ref_logvar _ _ _ _ _ _ _ _)),
        (h c).2.2⟩)
    (Cert.ReferenceIdeal.Value.run (F := Ideal) m ρ)

end Cert.ReferenceIdeal.RefValue

end
-- ==== Proof.lean ====
/-
  A two-layer graph-convolution encoder with a dense 10000 × 10000 adjacency A: with x the node features,

      H₁ = max(A · (x · W₁) + b₁, 0),   H₂ = max(A · (H₁ · W₂) + b₂, 0),   μ = H₂ · W_μ + b_μ,   logvar = H₂ · W_lv + b_lv.

  The kernel computes it in one pipelined region over a 2 × 25 grid, keeping both supports S₁ = x · W₁ and
  S₂ = H₁ · W₂ in a scratch of two slabs: the first point stores S₁; each point of the first phase turns a 400-row
  tile of the adjacency, read as two 200-row blocks, into the matching 400 rows of S₂; each point of the second
  phase turns the same tile into 400 rows of μ and of logvar. The reference computes the same formula with whole
  matrix products. On the extended reals a matrix product is the sum of products over its one contracted index,
  and a finite sum does not depend on how it is blocked, so the two programs' results are the same function of
  the arguments, entry by entry (Proof/Spec.lean states it once); no entry has to be finite, and the precondition
  is never opened.

  What is proved, in order: the word-level kernel and its idealization run to the end, fault nowhere and leave
  their arguments unchanged — one proof over any float instance (Proof/KData … Proof/KFrame at the idealized
  program, the same text at the word-level program in Proof/WData … Proof/WFrame): the region's launch with the
  adjacency's share split between its two windows, the body run once per phase, an invariant saying the scratch
  agrees with the model on what has been stored so far —; the reference's run is the generated one; the
  idealization rewrote nothing; and both programs' results are `Cert.Spec.head` of the launch arrays
  (Proof/KValue, Proof/KFinal for the kernel, Proof/RefValue, Proof/RefResult for the reference).
-/
import proofs.«144098_g9328668967786_cont_9to1c4b_67_19_alg».proof.Defs
import proofs.«144098_g9328668967786_cont_9to1c4b_67_19_alg».proof.Proof.Gen.Kernel
import proofs.«144098_g9328668967786_cont_9to1c4b_67_19_alg».proof.Proof.Gen.KernelIdeal
import proofs.«144098_g9328668967786_cont_9to1c4b_67_19_alg».proof.Proof.Gen.ReferenceIdeal
import proofs.«144098_g9328668967786_cont_9to1c4b_67_19_alg».proof.Proof.Gen.Pre_finite_inputs
import proofs.«144098_g9328668967786_cont_9to1c4b_67_19_alg».proof.Proof.Gen.ReferenceIdeal.Run
import proofs.«144098_g9328668967786_cont_9to1c4b_67_19_alg».proof.Proof.Gen.ReferenceIdeal.Read
import proofs.«144098_g9328668967786_cont_9to1c4b_67_19_alg».proof.Proof.WFrame
import proofs.«144098_g9328668967786_cont_9to1c4b_67_19_alg».proof.Proof.KFrame
import proofs.«144098_g9328668967786_cont_9to1c4b_67_19_alg».proof.Proof.KFinal
import proofs.«144098_g9328668967786_cont_9to1c4b_67_19_alg».proof.Proof.RefResult
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Frame.frame (F := Bits) m ρ

/-- So does its idealization. -/
theorem frame_ki : Cert.frame_KernelIdeal := fun m ρ _ => Cert.KernelIdeal.Frame.frame (F := Ideal) m ρ

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation: there is nothing to preserve. -/
theorem preserves : Cert.preserves_Kernel_KernelIdeal := trivial

/-- Both programs end with the two heads of the encoder of the kernel's arguments. -/
theorem algebraic : Cert.algebraic_KernelIdeal_ReferenceIdeal := by
  intro m ρ m' ρ' _ hagree
  refine ⟨fun c => Cert.Spec.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c =>
      ⟨((h c).1 11).trans (Cert.KernelIdeal.ValueAt.final11_launch m c),
       ((h c).1 12).trans (Cert.KernelIdeal.ValueAt.final12_launch m c),
       ((h c).1 0).trans (((Cert.KernelIdeal.Frame.dat m c).arrAt_in 0 rfl _).trans ((Cert.KernelIdeal.Frame.A_eq m c 0).trans (Cert.KernelIdeal.Frame.V_arg m c Cert.KernelIdeal.main_arg0 (by decide)))),
       ((h c).1 1).trans (((Cert.KernelIdeal.Frame.dat m c).arrAt_in 1 rfl _).trans ((Cert.KernelIdeal.Frame.A_eq m c 1).trans (Cert.KernelIdeal.Frame.V_arg m c Cert.KernelIdeal.main_arg1 (by decide)))),
       ((h c).1 3).trans (((Cert.KernelIdeal.Frame.dat m c).arrAt_in 3 rfl _).trans ((Cert.KernelIdeal.Frame.A_eq m c 3).trans (Cert.KernelIdeal.Frame.V_arg m c Cert.KernelIdeal.main_arg2 (by decide)))),
       (h c).2.1,
       ((h c).1 5).trans (((Cert.KernelIdeal.Frame.dat m c).arrAt_in 5 rfl _).trans ((Cert.KernelIdeal.Frame.A_eq m c 5).trans (Cert.KernelIdeal.Frame.V_arg m c Cert.KernelIdeal.main_arg4 (by decide)))),
       (h c).2.2.1,
       ((h c).1 7).trans (((Cert.KernelIdeal.Frame.dat m c).arrAt_in 7 rfl _).trans ((Cert.KernelIdeal.Frame.A_eq m c 7).trans (Cert.KernelIdeal.Frame.V_arg m c Cert.KernelIdeal.main_arg6 (by decide)))),
       (h c).2.2.2.1,
       ((h c).1 9).trans (((Cert.KernelIdeal.Frame.dat m c).arrAt_in 9 rfl _).trans ((Cert.KernelIdeal.Frame.A_eq m c 9).trans (Cert.KernelIdeal.Frame.V_arg m c Cert.KernelIdeal.main_arg8 (by decide)))),
       (h c).2.2.2.2⟩) (Cert.KernelIdeal.Frame.run_main (F := Ideal) m ρ)
  · refine (θ_run Cert.ReferenceIdeal.defs _ _).mono (fun _ h c => ?_) (Cert.ReferenceIdeal.RefValue.run_spec m' ρ')
    obtain ⟨h17, h21, hargs⟩ := h c
    obtain ⟨a0, a1, a2, a3, a4, a5, a6, a7, a8, a9⟩ := hagree c
    refine ⟨?_, ?_, hargs⟩
    · rw [h17, a0, a1, a2, a3, a4, a5, a6, a7]
    · rw [h21, a0, a1, a2, a3, a4, a5, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
